-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x1024x768 : Shape := ⟨3, ![8, 1024, 768]⟩
abbrev S12x64x768 : Shape := ⟨3, ![12, 64, 768]⟩
abbrev S12x64 : Shape := ⟨2, ![12, 64]⟩
abbrev S768x768 : Shape := ⟨2, ![768, 768]⟩
abbrev S768 : Shape := ⟨1, ![768]⟩
abbrev S_ : Shape := ⟨0, ![]⟩

class Facts : Prop where
  bcast_S_S8x1024x768 : S_.BroadcastsInDim S8x1024x768 (![] : Fin 0 → Fin S8x1024x768.rank)
  reducesTo_S8x1024x768_S_d0_1_2 : S8x1024x768.ReducesTo [0, 1, 2] S_
  h_S_ : 0 < S_.numel
  bcast_S_S12x64x768 : S_.BroadcastsInDim S12x64x768 (![] : Fin 0 → Fin S12x64x768.rank)
  reducesTo_S12x64x768_S_d0_1_2 : S12x64x768.ReducesTo [0, 1, 2] S_
  bcast_S_S12x64 : S_.BroadcastsInDim S12x64 (![] : Fin 0 → Fin S12x64.rank)
  reducesTo_S12x64_S_d0_1 : S12x64.ReducesTo [0, 1] S_
  bcast_S_S768x768 : S_.BroadcastsInDim S768x768 (![] : Fin 0 → Fin S768x768.rank)
  reducesTo_S768x768_S_d0_1 : S768x768.ReducesTo [0, 1] S_
  bcast_S_S768 : S_.BroadcastsInDim S768 (![] : Fin 0 → Fin S768.rank)
  reducesTo_S768_S_d0 : S768.ReducesTo [0] S_

variable [Facts]

def fn_part2 {F : FTy → Type} [FloatOps F] (main_arg7 : FVec F S768x768 .f32) (main_arg8 : FVec F S768 .f32) (main_v33 : IVec S_ 1) : IVec S_ 1 :=
  let main_v34 : FVec F S768x768 .f32 := Host.absf main_arg7
  let main_cst_12 : FVec F S_ .f32 := constant S_ .f32 0x7F800000#32
  let main_v35 : FVec F S768x768 .f32 := broadcastInDim S768x768 ![] bcast_S_S768x768 main_cst_12
  let main_v36 : IVec S768x768 1 := cmpf .olt main_v34 main_v35
  let main_c_13 : IVec S_ 1 := constantI S_ 1 1#1
  let main_v37 : IVec S_ 1 := (fun x v => Host.reduce IntOp.andi x v reducesTo_S768x768_S_d0_1 h_S_) main_v36 main_c_13
  let main_v38 : IVec S_ 1 := andi main_v33 main_v37
  let main_v39 : FVec F S768 .f32 := Host.absf main_arg8
  let main_cst_14 : FVec F S_ .f32 := constant S_ .f32 0x7F800000#32
  let main_v40 : FVec F S768 .f32 := broadcastInDim S768 ![] bcast_S_S768 main_cst_14
  let main_v41 : IVec S768 1 := cmpf .olt main_v39 main_v40
  let main_c_15 : IVec S_ 1 := constantI S_ 1 1#1
  let main_v42 : IVec S_ 1 := (fun x v => Host.reduce IntOp.andi x v reducesTo_S768_S_d0 h_S_) main_v41 main_c_15
  let main_v43 : IVec S_ 1 := andi main_v38 main_v42
  main_v43

def fn_part1 {F : FTy → Type} [FloatOps F] (main_arg4 : FVec F S12x64 .f32) (main_arg5 : FVec F S12x64x768 .f32) (main_arg6 : FVec F S12x64 .f32) (main_arg7 : FVec F S768x768 .f32) (main_arg8 : FVec F S768 .f32) (main_v13 : IVec S_ 1) (main_v16 : IVec S12x64x768 1) : IVec S_ 1 :=
  let main_c_5 : IVec S_ 1 := constantI S_ 1 1#1
  let main_v17 : IVec S_ 1 := (fun x v => Host.reduce IntOp.andi x v reducesTo_S12x64x768_S_d0_1_2 h_S_) main_v16 main_c_5
  let main_v18 : IVec S_ 1 := andi main_v13 main_v17
  let main_v19 : FVec F S12x64 .f32 := Host.absf main_arg4
  let main_cst_6 : FVec F S_ .f32 := constant S_ .f32 0x7F800000#32
  let main_v20 : FVec F S12x64 .f32 := broadcastInDim S12x64 ![] bcast_S_S12x64 main_cst_6
  let main_v21 : IVec S12x64 1 := cmpf .olt main_v19 main_v20
  let main_c_7 : IVec S_ 1 := constantI S_ 1 1#1
  let main_v22 : IVec S_ 1 := (fun x v => Host.reduce IntOp.andi x v reducesTo_S12x64_S_d0_1 h_S_) main_v21 main_c_7
  let main_v23 : IVec S_ 1 := andi main_v18 main_v22
  let main_v24 : FVec F S12x64x768 .f32 := Host.absf main_arg5
  let main_cst_8 : FVec F S_ .f32 := constant S_ .f32 0x7F800000#32
  let main_v25 : FVec F S12x64x768 .f32 := broadcastInDim S12x64x768 ![] bcast_S_S12x64x768 main_cst_8
  let main_v26 : IVec S12x64x768 1 := cmpf .olt main_v24 main_v25
  let main_c_9 : IVec S_ 1 := constantI S_ 1 1#1
  let main_v27 : IVec S_ 1 := (fun x v => Host.reduce IntOp.andi x v reducesTo_S12x64x768_S_d0_1_2 h_S_) main_v26 main_c_9
  let main_v28 : IVec S_ 1 := andi main_v23 main_v27
  let main_v29 : FVec F S12x64 .f32 := Host.absf main_arg6
  let main_cst_10 : FVec F S_ .f32 := constant S_ .f32 0x7F800000#32
  let main_v30 : FVec F S12x64 .f32 := broadcastInDim S12x64 ![] bcast_S_S12x64 main_cst_10
  let main_v31 : IVec S12x64 1 := cmpf .olt main_v29 main_v30
  let main_c_11 : IVec S_ 1 := constantI S_ 1 1#1
  let main_v32 : IVec S_ 1 := (fun x v => Host.reduce IntOp.andi x v reducesTo_S12x64_S_d0_1 h_S_) main_v31 main_c_11
  let main_v33 : IVec S_ 1 := andi main_v28 main_v32
  fn_part2 (F := F) main_arg7 main_arg8 main_v33

def fn {F : FTy → Type} [FloatOps F] (main_arg0 : FVec F S8x1024x768 .f32) (main_arg1 : FVec F S12x64x768 .f32) (main_arg2 : FVec F S12x64 .f32) (main_arg3 : FVec F S12x64x768 .f32) (main_arg4 : FVec F S12x64 .f32) (main_arg5 : FVec F S12x64x768 .f32) (main_arg6 : FVec F S12x64 .f32) (main_arg7 : FVec F S768x768 .f32) (main_arg8 : FVec F S768 .f32) : IVec S_ 1 :=
  let main_v0 : FVec F S8x1024x768 .f32 := Host.absf main_arg0
  let main_cst : FVec F S_ .f32 := constant S_ .f32 0x7F800000#32
  let main_v1 : FVec F S8x1024x768 .f32 := broadcastInDim S8x1024x768 ![] bcast_S_S8x1024x768 main_cst
  let main_v2 : IVec S8x1024x768 1 := cmpf .olt main_v0 main_v1
  let main_c : IVec S_ 1 := constantI S_ 1 1#1
  let main_v3 : IVec S_ 1 := (fun x v => Host.reduce IntOp.andi x v reducesTo_S8x1024x768_S_d0_1_2 h_S_) main_v2 main_c
  let main_v4 : FVec F S12x64x768 .f32 := Host.absf main_arg1
  let main_cst_0 : FVec F S_ .f32 := constant S_ .f32 0x7F800000#32
  let main_v5 : FVec F S12x64x768 .f32 := broadcastInDim S12x64x768 ![] bcast_S_S12x64x768 main_cst_0
  let main_v6 : IVec S12x64x768 1 := cmpf .olt main_v4 main_v5
  let main_c_1 : IVec S_ 1 := constantI S_ 1 1#1
  let main_v7 : IVec S_ 1 := (fun x v => Host.reduce IntOp.andi x v reducesTo_S12x64x768_S_d0_1_2 h_S_) main_v6 main_c_1
  let main_v8 : IVec S_ 1 := andi main_v3 main_v7
  let main_v9 : FVec F S12x64 .f32 := Host.absf main_arg2
  let main_cst_2 : FVec F S_ .f32 := constant S_ .f32 0x7F800000#32
  let main_v10 : FVec F S12x64 .f32 := broadcastInDim S12x64 ![] bcast_S_S12x64 main_cst_2
  let main_v11 : IVec S12x64 1 := cmpf .olt main_v9 main_v10
  let main_c_3 : IVec S_ 1 := constantI S_ 1 1#1
  let main_v12 : IVec S_ 1 := (fun x v => Host.reduce IntOp.andi x v reducesTo_S12x64_S_d0_1 h_S_) main_v11 main_c_3
  let main_v13 : IVec S_ 1 := andi main_v8 main_v12
  let main_v14 : FVec F S12x64x768 .f32 := Host.absf main_arg3
  let main_cst_4 : FVec F S_ .f32 := constant S_ .f32 0x7F800000#32
  let main_v15 : FVec F S12x64x768 .f32 := broadcastInDim S12x64x768 ![] bcast_S_S12x64x768 main_cst_4
  let main_v16 : IVec S12x64x768 1 := cmpf .olt main_v14 main_v15
  fn_part1 (F := F) main_arg4 main_arg5 main_arg6 main_arg7 main_arg8 main_v13 main_v16
-- ==== Kernel.lean ====
abbrev S8x1024x768 : Shape := ⟨3, ![8, 1024, 768]⟩
abbrev S12x64x768 : Shape := ⟨3, ![12, 64, 768]⟩
abbrev S12x64 : Shape := ⟨2, ![12, 64]⟩
abbrev S768x768 : Shape := ⟨2, ![768, 768]⟩
abbrev S768 : Shape := ⟨1, ![768]⟩
abbrev S768x2304 : Shape := ⟨2, ![768, 2304]⟩
abbrev S2304 : Shape := ⟨1, ![2304]⟩
abbrev S1x2304 : Shape := ⟨2, ![1, 2304]⟩
abbrev S1x1024x768 : Shape := ⟨3, ![1, 1024, 768]⟩
abbrev S1024x768 : Shape := ⟨2, ![1024, 768]⟩
abbrev S1024x2304 : Shape := ⟨2, ![1024, 2304]⟩
abbrev S1024x128 : Shape := ⟨2, ![1024, 128]⟩
abbrev S1024x64 : Shape := ⟨2, ![1024, 64]⟩
abbrev S1024x1024 : Shape := ⟨2, ![1024, 1024]⟩
abbrev S1024 : Shape := ⟨1, ![1024]⟩
abbrev S1024x1 : Shape := ⟨2, ![1024, 1]⟩
abbrev S1x768 : Shape := ⟨2, ![1, 768]⟩

abbrev nBuf : Space → Nat
  | .hbm => 28
  | .vmem => 12
  | .smem => 0
  | _ => 0

abbrev bufTy : (tb : Table) → Fin (tcTables nBuf tb) → BufTy
  | .hbm, ⟨0, _⟩ => ⟨S8x1024x768, .f32⟩
  | .hbm, ⟨1, _⟩ => ⟨S12x64x768, .f32⟩
  | .hbm, ⟨2, _⟩ => ⟨S12x64, .f32⟩
  | .hbm, ⟨3, _⟩ => ⟨S12x64x768, .f32⟩
  | .hbm, ⟨4, _⟩ => ⟨S12x64, .f32⟩
  | .hbm, ⟨5, _⟩ => ⟨S12x64x768, .f32⟩
  | .hbm, ⟨6, _⟩ => ⟨S12x64, .f32⟩
  | .hbm, ⟨7, _⟩ => ⟨S768x768, .f32⟩
  | .hbm, ⟨8, _⟩ => ⟨S768, .f32⟩
  | .hbm, ⟨9, _⟩ => ⟨S768x768, .f32⟩
  | .hbm, ⟨10, _⟩ => ⟨S768x768, .f32⟩
  | .hbm, ⟨11, _⟩ => ⟨S768x768, .bf16⟩
  | .hbm, ⟨12, _⟩ => ⟨S768x768, .f32⟩
  | .hbm, ⟨13, _⟩ => ⟨S768x768, .f32⟩
  | .hbm, ⟨14, _⟩ => ⟨S768x768, .bf16⟩
  | .hbm, ⟨15, _⟩ => ⟨S768x768, .f32⟩
  | .hbm, ⟨16, _⟩ => ⟨S768x768, .f32⟩
  | .hbm, ⟨17, _⟩ => ⟨S768x768, .bf16⟩
  | .hbm, ⟨18, _⟩ => ⟨S768x2304, .bf16⟩
  | .hbm, ⟨19, _⟩ => ⟨S768, .f32⟩
  | .hbm, ⟨20, _⟩ => ⟨S768, .f32⟩
  | .hbm, ⟨21, _⟩ => ⟨S768, .f32⟩
  | .hbm, ⟨22, _⟩ => ⟨S2304, .f32⟩
  | .hbm, ⟨23, _⟩ => ⟨S1x2304, .f32⟩
  | .hbm, ⟨24, _⟩ => ⟨S768x768, .f32⟩
  | .hbm, ⟨25, _⟩ => ⟨S768x768, .bf16⟩
  | .hbm, ⟨26, _⟩ => ⟨S8x1024x768, .bf16⟩
  | .hbm, ⟨27, _⟩ => ⟨S8x1024x768, .f32⟩
  | .local _ .vmem, ⟨0, _⟩ => ⟨S1x1024x768, .bf16⟩
  | .local _ .vmem, ⟨1, _⟩ => ⟨S1x1024x768, .bf16⟩
  | .local _ .vmem, ⟨2, _⟩ => ⟨S768x2304, .bf16⟩
  | .local _ .vmem, ⟨3, _⟩ => ⟨S1x2304, .f32⟩
  | .local _ .vmem, ⟨4, _⟩ => ⟨S768x768, .bf16⟩
  | .local _ .vmem, ⟨5, _⟩ => ⟨S768, .f32⟩
  | .local _ .vmem, ⟨6, _⟩ => ⟨S1x1024x768, .f32⟩
  | .local _ .vmem, ⟨7, _⟩ => ⟨S1x1024x768, .f32⟩
  | .local _ .vmem, ⟨8, _⟩ => ⟨S1024x768, .bf16⟩
  | .local _ .vmem, ⟨9, _⟩ => ⟨S1024x768, .bf16⟩
  | .local _ .vmem, ⟨10, _⟩ => ⟨S1024x768, .bf16⟩
  | .local _ .vmem, ⟨11, _⟩ => ⟨S1024x768, .bf16⟩
  | _, _ => ⟨S8x1024x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32 : BitVec 32 := 0#32
  let c6_i32 : BitVec 32 := 6#32
  let v24 : BitVec 32 := Scalar.addi c0_i32 c6_i32
  let c1_i32 : BitVec 32 := 1#32
  ⟨c0_i32, v24, c1_i32⟩
def k0_mult1 (k0_t1 : Fin k0_t1_loop.trips) : BitVec 32 :=
  let c0_i32_23 : BitVec 32 := 0#32
  let c0_i32 : BitVec 32 := 0#32
  let c1_i32 : BitVec 32 := 1#32
  let arg11 : BitVec 32 := Scf.iv c0_i32 c1_i32 k0_t1
  let c1_i32_22 : BitVec 32 := 1#32
  let v36 : BitVec 32 := Scalar.muli arg11 c1_i32_22
  let v37 : BitVec 32 := Scalar.addi c0_i32_23 v36
  let c128_i32 : BitVec 32 := 128#32
  let v38 : BitVec 32 := Scalar.muli v37 c128_i32
  v38
def k0_off1 (k0_t1 : Fin k0_t1_loop.trips) : Fin 2 → Nat :=
  let c0_24 : Index := 0#32
  let c0_i32_23 : BitVec 32 := 0#32
  let c0_i32 : BitVec 32 := 0#32
  let c1_i32 : BitVec 32 := 1#32
  let arg11 : BitVec 32 := Scf.iv c0_i32 c1_i32 k0_t1
  let c1_i32_22 : BitVec 32 := 1#32
  let v36 : BitVec 32 := Scalar.muli arg11 c1_i32_22
  let v37 : BitVec 32 := Scalar.addi c0_i32_23 v36
  let c128_i32 : BitVec 32 := 128#32
  let v38 : BitVec 32 := Scalar.muli v37 c128_i32
  let v39 : BitVec 32 := v38
  let v40 : Index := Scalar.indexCast v39
  ![0, v40.toNat]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S768x2304 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2304 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S768x768 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x1024x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S12x64x768_S768x768 : S12x64x768.ShapeCasts S768x768
  transposes_S768x768_S768x768_1_0 : S768x768.Transposes [1, 0] S768x768
  bitsLt_bf16_f32 : FTy.bits .bf16 < FTy.bits .f32
  concatenates_S768x768_S768x768_S768x768_S768x2304_d1 : Shape.Concatenates [S768x768, S768x768, S768x768] S768x2304 1
  shapeCasts_S12x64_S768 : S12x64.ShapeCasts S768
  concatenates_S768_S768_S768_S2304_d0 : Shape.Concatenates [S768, S768, S768] S2304 0
  shapeCasts_S2304_S1x2304 : S2304.ShapeCasts S1x2304
  inb_S1x1024x768_S1x1024x768_0_0_0 : ∀ a, (![0, 0, 0] : Fin 3 → Nat) a + S1x1024x768.size a ≤ S1x1024x768.size a
  h_S1x1024x768 : 0 < S1x1024x768.numel
  shapeCasts_S1x1024x768_S1024x768 : S1x1024x768.ShapeCasts S1024x768
  inb_S768x2304_S768x2304_0_0 : ∀ a, (![0, 0] : Fin 2 → Nat) a + S768x2304.size a ≤ S768x2304.size a
  h_S768x2304 : 0 < S768x2304.numel
  shapeCasts_S768x2304_S768x2304 : S768x2304.ShapeCasts S768x2304
  inb_S1x2304_S1x2304_0_0 : ∀ a, (![0, 0] : Fin 2 → Nat) a + S1x2304.size a ≤ S1x2304.size a
  h_S1x2304 : 0 < S1x2304.numel
  shapeCasts_S1x2304_S1x2304 : S1x2304.ShapeCasts S1x2304
  broadcasts_S1x2304_S1024x2304 : S1x2304.Broadcasts S1024x2304
  slices_S1024x2304_o0_0_S1024x768 : S1024x2304.Slices ![0, 0] S1024x768
  inb_S1024x768_S1024x768_0_0 : ∀ a, (![0, 0] : Fin 2 → Nat) a + S1024x768.size a ≤ S1024x768.size a
  h_S1024x768 : 0 < S1024x768.numel
  shapeCasts_S1024x768_S1024x768 : S1024x768.ShapeCasts S1024x768
  packedbf16_S1024x768_S1024x768_0_0 : (Rect.unit (s := S1024x768) ![0, 0] S1024x768.size inb_S1024x768_S1024x768_0_0).PackedRows (EltTy.packing .bf16)
  slices_S1024x2304_o0_768_S1024x768 : S1024x2304.Slices ![0, 768] S1024x768
  slices_S1024x2304_o0_1536_S1024x768 : S1024x2304.Slices ![0, 1536] S1024x768
  h_S1024x128 : 0 < S1024x128.numel
  slices_S1024x128_o0_0_S1024x64 : S1024x128.Slices ![0, 0] S1024x64
  reduces_S1024x1024_S1024 : S1024x1024.Reduces [1] S1024
  shapeCasts_S1024_S1024x1 : S1024.ShapeCasts S1024x1
  broadcasts_S1024x1_S1024x1024 : S1024x1.Broadcasts S1024x1024
  slices_S1024x128_o0_64_S1024x64 : S1024x128.Slices ![0, 64] S1024x64
  concatenates_S1024x64_S1024x64_S1024x128_d1 : Shape.Concatenates [S1024x64, S1024x64] S1024x128 1
  shapeCasts_S1024x128_S1024x128 : S1024x128.ShapeCasts S1024x128
  inb_S768x768_S768x768_0_0 : ∀ a, (![0, 0] : Fin 2 → Nat) a + S768x768.size a ≤ S768x768.size a
  h_S768x768 : 0 < S768x768.numel
  shapeCasts_S768x768_S768x768 : S768x768.ShapeCasts S768x768
  inb_S768_S768_0 : ∀ a, (![0] : Fin 1 → Nat) a + S768.size a ≤ S768.size a
  h_S768 : 0 < S768.numel
  shapeCasts_S768_S1x768 : S768.ShapeCasts S1x768
  broadcasts_S1x768_S1024x768 : S1x768.Broadcasts S1024x768
  shapeCasts_S1024x768_S1x1024x768 : S1024x768.ShapeCasts S1x1024x768
  dot_S1024x768_S768x2304_S1024x2304_1_0_0_1_n_n_wf : DotDims.WF S1024x768 S768x2304 S1024x2304 [1] [0] [0] [1] [] []
  dot_S1024x64_S1024x64_S1024x1024_1_1_0_0_n_n_wf : DotDims.WF S1024x64 S1024x64 S1024x1024 [1] [1] [0] [0] [] []
  dot_S1024x1024_S1024x64_S1024x64_1_0_0_1_n_n_wf : DotDims.WF S1024x1024 S1024x64 S1024x64 [1] [0] [0] [1] [] []
  dot_S1024x768_S768x768_S1024x768_1_0_0_1_n_n_wf : DotDims.WF S1024x768 S768x768 S1024x768 [1] [0] [0] [1] [] []
  hrank0 : 0 < grid0.rank
  k0_t1_ok : k0_t1_loop.OK
  k0_mult1_dvd : ∀ k0_t1 : Fin k0_t1_loop.trips, 128 ∣ (k0_mult1 k0_t1).toNat
  k0_off1_inb : ∀ k0_t1 : Fin k0_t1_loop.trips, ∀ a, (k0_off1 k0_t1) a + S1024x128.size a ≤ S1024x768.size a
  k0_off1_packedbf16 : ∀ k0_t1 : Fin k0_t1_loop.trips, (Rect.unit (s := S1024x768) (k0_off1 k0_t1) S1024x128.size (k0_off1_inb k0_t1)).PackedRows (EltTy.packing .bf16)
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x768.size a ≤ S8x1024x768.size a
  hwx0_0 : ∀ i : grid0.Coords, EltTy.bits .bf16 = 32 ∨ (Rect.block (s := S8x1024x768) S1x1024x768.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S768x2304.size a ≤ S768x2304.size a
  hwx0_1 : ∀ i : grid0.Coords, EltTy.bits .bf16 = 32 ∨ (Rect.block (s := S768x2304) S768x2304.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x2304.size a ≤ S1x2304.size a
  hwx0_2 : ∀ i : grid0.Coords, EltTy.bits .f32 = 32 ∨ (Rect.block (s := S1x2304) S1x2304.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S768x768.size a ≤ S768x768.size a
  hwx0_3 : ∀ i : grid0.Coords, EltTy.bits .bf16 = 32 ∨ (Rect.block (s := S768x768) S768x768.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S768.size a ≤ S768.size a
  hwx0_4 : ∀ i : grid0.Coords, EltTy.bits .f32 = 32 ∨ (Rect.block (s := S768) S768.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1024x768.size a ≤ S8x1024x768.size a
  hwx0_5 : ∀ i : grid0.Coords, EltTy.bits .f32 = 32 ∨ (Rect.block (s := S8x1024x768) S1x1024x768.size (cc0_transform_5 i) (hinb0_5 i)).WholeWords (EltTy.packing .f32)

variable [Facts₀]

def dot_S1024x768_S768x2304_S1024x2304_1_0_0_1_n_n : DotDims S1024x768 S768x2304 S1024x2304 where
  lhsContracting := [1]
  rhsContracting := [0]
  lhsNonContracting := [0]
  rhsNonContracting := [1]
  lhsBatch := []
  rhsBatch := []
  wf := dot_S1024x768_S768x2304_S1024x2304_1_0_0_1_n_n_wf
def dot_S1024x64_S1024x64_S1024x1024_1_1_0_0_n_n : DotDims S1024x64 S1024x64 S1024x1024 where
  lhsContracting := [1]
  rhsContracting := [1]
  lhsNonContracting := [0]
  rhsNonContracting := [0]
  lhsBatch := []
  rhsBatch := []
  wf := dot_S1024x64_S1024x64_S1024x1024_1_1_0_0_n_n_wf
def dot_S1024x1024_S1024x64_S1024x64_1_0_0_1_n_n : DotDims S1024x1024 S1024x64 S1024x64 where
  lhsContracting := [1]
  rhsContracting := [0]
  lhsNonContracting := [0]
  rhsNonContracting := [1]
  lhsBatch := []
  rhsBatch := []
  wf := dot_S1024x1024_S1024x64_S1024x64_1_0_0_1_n_n_wf
def dot_S1024x768_S768x768_S1024x768_1_0_0_1_n_n : DotDims S1024x768 S768x768 S1024x768 where
  lhsContracting := [1]
  rhsContracting := [0]
  lhsNonContracting := [0]
  rhsNonContracting := [1]
  lhsBatch := []
  rhsBatch := []
  wf := dot_S1024x768_S768x768_S1024x768_1_0_0_1_n_n_wf

abbrev win0_0 : Pipeline.Window sig grid0 :=
  Pipeline.Window.ofSpec (Memref.whole main_v17) S1x1024x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S768x2304.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v14) S1x2304.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v16) S768x768.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg8) S768.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v18) S1x1024x768.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S8x1024x768 : Shape := ⟨3, ![8, 1024, 768]⟩
abbrev S12x64x768 : Shape := ⟨3, ![12, 64, 768]⟩
abbrev S12x64 : Shape := ⟨2, ![12, 64]⟩
abbrev S768x768 : Shape := ⟨2, ![768, 768]⟩
abbrev S768 : Shape := ⟨1, ![768]⟩
abbrev S12x64x8x1024 : Shape := ⟨4, ![12, 64, 8, 1024]⟩
abbrev S8x12x1024x64 : Shape := ⟨4, ![8, 12, 1024, 64]⟩
abbrev S1x12x1x64 : Shape := ⟨4, ![1, 12, 1, 64]⟩
abbrev S8x12x1024x1024 : Shape := ⟨4, ![8, 12, 1024, 1024]⟩
abbrev S_ : Shape := ⟨0, ![]⟩
abbrev S8x12x1024 : Shape := ⟨3, ![8, 12, 1024]⟩
abbrev S8x12x1024x1 : Shape := ⟨4, ![8, 12, 1024, 1]⟩
abbrev S8x1024x12x64 : Shape := ⟨4, ![8, 1024, 12, 64]⟩
abbrev S1x1x768 : Shape := ⟨3, ![1, 1, 768]⟩

abbrev nBuf : Space → Nat
  | .hbm => 50
  | .vmem => 0
  | .smem => 0
  | _ => 0

abbrev bufTy : (tb : Table) → Fin (tcTables nBuf tb) → BufTy
  | .hbm, ⟨0, _⟩ => ⟨S8x1024x768, .f32⟩
  | .hbm, ⟨1, _⟩ => ⟨S12x64x768, .f32⟩
  | .hbm, ⟨2, _⟩ => ⟨S12x64, .f32⟩
  | .hbm, ⟨3, _⟩ => ⟨S12x64x768, .f32⟩
  | .hbm, ⟨4, _⟩ => ⟨S12x64, .f32⟩
  | .hbm, ⟨5, _⟩ => ⟨S12x64x768, .f32⟩
  | .hbm, ⟨6, _⟩ => ⟨S12x64, .f32⟩
  | .hbm, ⟨7, _⟩ => ⟨S768x768, .f32⟩
  | .hbm, ⟨8, _⟩ => ⟨S768, .f32⟩
  | .hbm, ⟨9, _⟩ => ⟨S12x64x8x1024, .f32⟩
  | .hbm, ⟨10, _⟩ => ⟨S8x12x1024x64, .f32⟩
  | .hbm, ⟨11, _⟩ => ⟨S1x12x1x64, .f32⟩
  | .hbm, ⟨12, _⟩ => ⟨S8x12x1024x64, .f32⟩
  | .hbm, ⟨13, _⟩ => ⟨S8x12x1024x64, .f32⟩
  | .hbm, ⟨14, _⟩ => ⟨S12x64x8x1024, .f32⟩
  | .hbm, ⟨15, _⟩ => ⟨S8x12x1024x64, .f32⟩
  | .hbm, ⟨16, _⟩ => ⟨S1x12x1x64, .f32⟩
  | .hbm, ⟨17, _⟩ => ⟨S8x12x1024x64, .f32⟩
  | .hbm, ⟨18, _⟩ => ⟨S8x12x1024x64, .f32⟩
  | .hbm, ⟨19, _⟩ => ⟨S12x64x8x1024, .f32⟩
  | .hbm, ⟨20, _⟩ => ⟨S8x12x1024x64, .f32⟩
  | .hbm, ⟨21, _⟩ => ⟨S1x12x1x64, .f32⟩
  | .hbm, ⟨22, _⟩ => ⟨S8x12x1024x64, .f32⟩
  | .hbm, ⟨23, _⟩ => ⟨S8x12x1024x64, .f32⟩
  | .hbm, ⟨24, _⟩ => ⟨S8x12x1024x1024, .f32⟩
  | .hbm, ⟨25, _⟩ => ⟨S_, .f32⟩
  | .hbm, ⟨26, _⟩ => ⟨S_, .f32⟩
  | .hbm, ⟨27, _⟩ => ⟨S8x12x1024x1024, .f32⟩
  | .hbm, ⟨28, _⟩ => ⟨S8x12x1024x1024, .f32⟩
  | .hbm, ⟨29, _⟩ => ⟨S_, .f32⟩
  | .hbm, ⟨30, _⟩ => ⟨S8x12x1024, .f32⟩
  | .hbm, ⟨31, _⟩ => ⟨S_, .f32⟩
  | .hbm, ⟨32, _⟩ => ⟨S8x12x1024, .f32⟩
  | .hbm, ⟨33, _⟩ => ⟨S8x12x1024, .f32⟩
  | .hbm, ⟨34, _⟩ => ⟨S8x12x1024x1, .f32⟩
  | .hbm, ⟨35, _⟩ => ⟨S8x12x1024x1024, .f32⟩
  | .hbm, ⟨36, _⟩ => ⟨S8x12x1024x1024, .f32⟩
  | .hbm, ⟨37, _⟩ => ⟨S8x12x1024x1024, .f32⟩
  | .hbm, ⟨38, _⟩ => ⟨S_, .f32⟩
  | .hbm, ⟨39, _⟩ => ⟨S8x12x1024, .f32⟩
  | .hbm, ⟨40, _⟩ => ⟨S8x12x1024x1, .f32⟩
  | .hbm, ⟨41, _⟩ => ⟨S8x12x1024x1024, .f32⟩
  | .hbm, ⟨42, _⟩ => ⟨S8x12x1024x1024, .f32⟩
  | .hbm, ⟨43, _⟩ => ⟨S8x12x1024x64, .f32⟩
  | .hbm, ⟨44, _⟩ => ⟨S8x1024x12x64, .f32⟩
  | .hbm, ⟨45, _⟩ => ⟨S8x1024x768, .f32⟩
  | .hbm, ⟨46, _⟩ => ⟨S8x1024x768, .f32⟩
  | .hbm, ⟨47, _⟩ => ⟨S1x1x768, .f32⟩
  | .hbm, ⟨48, _⟩ => ⟨S8x1024x768, .f32⟩
  | .hbm, ⟨49, _⟩ => ⟨S8x1024x768, .f32⟩
  | _, _ => ⟨S8x1024x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_0 : Ref sig .tc := ⟨.hbm, 29, rfl⟩
abbrev main_v19 : Ref sig .tc := ⟨.hbm, 30, rfl⟩
abbrev main_cst_1 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_2 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩

abbrev nD : Nat := 1
abbrev τ : Topo := Topo.v7x

variable {F : FTy → Type} [FloatOps F]

class Facts₀ : Prop where
  transposes_S12x64x8x1024_S8x12x1024x64_2_0_3_1 : S12x64x8x1024.Transposes [2, 0, 3, 1] S8x12x1024x64
  bcast_S12x64_S1x12x1x64_1_3 : S12x64.BroadcastsInDim S1x12x1x64 (![1, 3] : Fin 2 → Fin S1x12x1x64.rank)
  bcast_S1x12x1x64_S8x12x1024x64_0_1_2_3 : S1x12x1x64.BroadcastsInDim S8x12x1024x64 (![0, 1, 2, 3] : Fin 4 → Fin S8x12x1024x64.rank)
  bcast_S_S8x12x1024x1024 : S_.BroadcastsInDim S8x12x1024x1024 (![] : Fin 0 → Fin S8x12x1024x1024.rank)
  reducesTo_S8x12x1024x1024_S8x12x1024_d3 : S8x12x1024x1024.ReducesTo [3] S8x12x1024
  h_S_ : 0 < S_.numel
  bcast_S_S8x12x1024 : S_.BroadcastsInDim S8x12x1024 (![] : Fin 0 → Fin S8x12x1024.rank)
  bcast_S8x12x1024_S8x12x1024x1_0_1_2 : S8x12x1024.BroadcastsInDim S8x12x1024x1 (![0, 1, 2] : Fin 3 → Fin S8x12x1024x1.rank)
  bcast_S8x12x1024x1_S8x12x1024x1024_0_1_2_3 : S8x12x1024x1.BroadcastsInDim S8x12x1024x1024 (![0, 1, 2, 3] : Fin 4 → Fin S8x12x1024x1024.rank)
  transposes_S8x12x1024x64_S8x1024x12x64_0_2_1_3 : S8x12x1024x64.Transposes [0, 2, 1, 3] S8x1024x12x64
  shapeCasts_S8x1024x12x64_S8x1024x768 : S8x1024x12x64.ShapeCasts S8x1024x768
  bcast_S768_S1x1x768_2 : S768.BroadcastsInDim S1x1x768 (![2] : Fin 1 → Fin S1x1x768.rank)
  bcast_S1x1x768_S8x1024x768_0_1_2 : S1x1x768.BroadcastsInDim S8x1024x768 (![0, 1, 2] : Fin 3 → Fin S8x1024x768.rank)
  dot_S12x64x768_S8x1024x768_S12x64x8x1024_2_2_01_01_n_n_wf : DotDims.WF S12x64x768 S8x1024x768 S12x64x8x1024 [2] [2] [0, 1] [0, 1] [] []
  dot_S8x12x1024x64_S8x12x1024x64_S8x12x1024x1024_3_3_2_2_01_01_wf : DotDims.WF S8x12x1024x64 S8x12x1024x64 S8x12x1024x1024 [3] [3] [2] [2] [0, 1] [0, 1]
  dot_S8x12x1024x1024_S8x12x1024x64_S8x12x1024x64_3_2_2_3_01_01_wf : DotDims.WF S8x12x1024x1024 S8x12x1024x64 S8x12x1024x64 [3] [2] [2] [3] [0, 1] [0, 1]
  dot_S8x1024x768_S768x768_S8x1024x768_2_1_01_0_n_n_wf : DotDims.WF S8x1024x768 S768x768 S8x1024x768 [2] [1] [0, 1] [0] [] []

variable [Facts₀]

def dot_S12x64x768_S8x1024x768_S12x64x8x1024_2_2_01_01_n_n : DotDims S12x64x768 S8x1024x768 S12x64x8x1024 where
  lhsContracting := [2]
  rhsContracting := [2]
  lhsNonContracting := [0, 1]
  rhsNonContracting := [0, 1]
  lhsBatch := []
  rhsBatch := []
  wf := dot_S12x64x768_S8x1024x768_S12x64x8x1024_2_2_01_01_n_n_wf
def dot_S8x12x1024x64_S8x12x1024x64_S8x12x1024x1024_3_3_2_2_01_01 : DotDims S8x12x1024x64 S8x12x1024x64 S8x12x1024x1024 where
  lhsContracting := [3]
  rhsContracting := [3]
  lhsNonContracting := [2]
  rhsNonContracting := [2]
  lhsBatch := [0, 1]
  rhsBatch := [0, 1]
  wf := dot_S8x12x1024x64_S8x12x1024x64_S8x12x1024x1024_3_3_2_2_01_01_wf
def dot_S8x12x1024x1024_S8x12x1024x64_S8x12x1024x64_3_2_2_3_01_01 : DotDims S8x12x1024x1024 S8x12x1024x64 S8x12x1024x64 where
  lhsContracting := [3]
  rhsContracting := [2]
  lhsNonContracting := [2]
  rhsNonContracting := [3]
  lhsBatch := [0, 1]
  rhsBatch := [0, 1]
  wf := dot_S8x12x1024x1024_S8x12x1024x64_S8x12x1024x64_3_2_2_3_01_01_wf
def dot_S8x1024x768_S768x768_S8x1024x768_2_1_01_0_n_n : DotDims S8x1024x768 S768x768 S8x1024x768 where
  lhsContracting := [2]
  rhsContracting := [1]
  lhsNonContracting := [0, 1]
  rhsNonContracting := [0]
  lhsBatch := []
  rhsBatch := []
  wf := dot_S8x1024x768_S768x768_S8x1024x768_2_1_01_0_n_n_wf

class Facts : Prop extends Facts₀ where

variable [Facts]
-- ==== Proof.Kernel.Entry.lean ====
/-
  The attention kernel's launch, up to the body: what each array holds when the one region of @main is
  entered (the eighteen host operations before it write only their own result buffers: the stacked
  projection weights [768, 2304], the stacked bias [1, 2304], the transposed output weights and the
  input re-typed), the block of each window at a grid point read off those arrays, and how a run of the
  region to the pipeline library's post gives back the nine argument arrays unchanged. Stated at any
  float instance.
-/
import proofs.«139552_j89163521065781_2_alg».proof.Proof.Gen.Kernel.Launch
import proofs.«139552_j89163521065781_2_alg».proof.Proof.Gen.Kernel.Skeleton
import proofs.«139552_j89163521065781_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Region

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- The buffers of core `c` when the region is entered: the launch memory after the host operations. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

/-- @main is the host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host operation before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host operation before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host operation before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host operation before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host operation before the region writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host operation before the region writes argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host operation before the region writes argument 7: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host operation before the region writes argument 8: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-! ## The windows' blocks -/

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Each input window's current staging buffer holds its block at every point, whether the point
    fetched it or an earlier one did (the four weight and bias windows are fetched once: their block
    index never moves). -/
theorem before_in0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_in2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_in3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_in4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The argument arrays after a run of the region -/

theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).1 4).trans (((dats 0 c).arrAt_in 4 rfl _).trans ((hA c 4).trans (V_main_arg8 m c)))⟩) h

/-! ## The body's operands -/

/-- One staging buffer of the output window, through which its contents are stated. -/
abbrev VO5 : View sig .tc .vmem S1x1024x768 .f32 := (Memref.whole cc0_stg5_0 : Memref sig .tc .vmem S1x1024x768 .f32).view
/-- Each window's current staging memref at point `t`, as the pipeline passes it to the body. -/
abbrev ms0 (t : Fin cfg0.N) : Memref sig .tc .vmem S1x1024x768 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S768x2304 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x2304 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S768x768 .bf16 := win0_3.stage (cfg0.slots t 3)
abbrev hs3 (t : Fin cfg0.N) : (ms3 t).IsWhole := hstage0_3 ((cfg0.slots t 3).cast nbuf0_3)
abbrev ms4 (t : Fin cfg0.N) : Memref sig .tc .vmem S768 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x1024x768 .f32 := win0_5.stage (cfg0.slots t 5)
abbrev hs5 (t : Fin cfg0.N) : (ms5 t).IsWhole := hstage0_5 ((cfg0.slots t 5).cast nbuf0_5)
/-- The four scratch operands (queries, keys, values, attention rows: [1024, 768] each). -/
abbrev scQ : Memref sig .tc .vmem S1024x768 .bf16 := Memref.whole cc0_scratch0
abbrev scK : Memref sig .tc .vmem S1024x768 .bf16 := Memref.whole cc0_scratch1
abbrev scV : Memref sig .tc .vmem S1024x768 .bf16 := Memref.whole cc0_scratch2
abbrev scA : Memref sig .tc .vmem S1024x768 .bf16 := Memref.whole cc0_scratch3

/-- What the region's invariant holds besides the windows: the four scratch buffers at some contents
    and the generator register. -/
theorem PhiA_eq (c : Dev nD) :
    (Pipeline.ΦA spec0 c : sProp 𝕄)
      = iprop(iprop((∃ d, owns (c : Thread nD τ) scQ fullShare d) ∗ (∃ d, owns (c : Thread nD τ) scK fullShare d) ∗ (∃ d, owns (c : Thread nD τ) scV fullShare d) ∗ (∃ d, owns (c : Thread nD τ) scA fullShare d)) ∗ (∃ r, prngReg c r)) := by
  unfold Pipeline.ΦA; rw [scopedRest0_eq]; simp only [scQ, scK, scV, scA, owns_whole]; try rfl

end Cert.Kernel.Region

end
-- ==== Proof.Kernel.BodyRun.lean ====
/-
  The attention kernel's body run once, on any whole staging and scratch memrefs: from the five input
  buffers at their blocks, the output buffer and the query, key and value scratch at anything, the
  attention scratch at contents `xa`, the body runs to the end leaving the inputs as they were and the
  output buffer written with the pieces the run finds (one whole-block store). The head-pair loop is
  passed by its invariant (the pieces of the trips before), never unrolled. Stated at any float
  instance.
-/
import proofs.«139552_j89163521065781_2_alg».proof.Proof.Kernel.Entry
import proofs.«139552_j89163521065781_2_alg».proof.Proof.Gen.Kernel.Loops

set_option maxRecDepth 16384

noncomputable section

namespace Cert.Kernel.Region

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def bodyRun (c : Dev nD) (i : grid0.Coords) (arg1 : Memref sig .tc .vmem S1x1024x768 .bf16) (harg1 : arg1.IsWhole) (arg2 : Memref sig .tc .vmem S768x2304 .bf16) (harg2 : arg2.IsWhole) (arg3 : Memref sig .tc .vmem S1x2304 .f32) (harg3 : arg3.IsWhole) (arg4 : Memref sig .tc .vmem S768x768 .bf16) (harg4 : arg4.IsWhole) (arg5 : Memref sig .tc .vmem S768 .f32) (harg5 : arg5.IsWhole) (arg6 : Memref sig .tc .vmem S1x1024x768 .f32) (harg6 : arg6.IsWhole) (arg7 : Memref sig .tc .vmem S1024x768 .bf16) (harg7 : arg7.IsWhole) (arg8 : Memref sig .tc .vmem S1024x768 .bf16) (harg8 : arg8.IsWhole) (arg9 : Memref sig .tc .vmem S1024x768 .bf16) (harg9 : arg9.IsWhole) (arg10 : Memref sig .tc .vmem S1024x768 .bf16) (harg10 : arg10.IsWhole)
    (x0 : Vec F S1x1024x768 .bf16) (x1 : Vec F S768x2304 .bf16) (x2 : Vec F S1x2304 .f32) (x3 : Vec F S768x768 .bf16) (x4 : Vec F S768 .f32)
    (xa : Vec F S1024x768 .bf16) :
    { L5 : List (View.Piece (Elt F) S1x1024x768 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ owns (c : Thread nD τ) arg10 fullShare xa
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)) -∗ K ⟨⟩))
          ⊢ wp frame (wpE (defs₀ (F := F)) Variants.none c none) E (cc0__mha_kernel i arg1 harg1 arg2 harg2 arg3 harg3 arg4 harg4 arg5 harg5 arg6 harg6 arg7 harg7 arg8 harg8 arg9 harg9 arg10 harg10) K } := by
  refine ⟨?_, fun E K => ?run⟩
  case run =>
    simp only [cc0__mha_kernel_eq_skeleton]; unfold cc0__mha_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds0, %fs0, -, HS0⟩, ⟨%ds1, %fs1, -, HS1⟩, ⟨%ds2, %fs2, -, HS2⟩, ⟨%fs3, %hfs3, HS3⟩, Hk⟩
    obtain rfl := harg1.eq_unread hf0; obtain rfl := harg2.eq_unread hf1; obtain rfl := harg3.eq_unread hf2; obtain rfl := harg4.eq_unread hf3; obtain rfl := harg5.eq_unread hf4; obtain rfl := harg10.eq_unread hfs3
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    iexists _, _; isplitr; swap; · iexact HS3
    ipureintro; rfl

end Cert.Kernel.Region

end
-- ==== Proof.Kernel.Frame.lean ====
/-
  The frame of the attention kernel's program: the proof data of its one pipeline (each input window's
  buffer holds its block; the output window's buffer holds what one run of the body stores, a function
  of the five input blocks alone — the attention scratch is read back only where the six head-pair
  trips have just written it, and their column bands tile it), the body obligation at a generic grid
  point, the run of @main to the pipeline library's post, and the nine argument arrays unchanged.
  Stated at any float instance.
-/
import proofs.«139552_j89163521065781_2_alg».proof.Proof.Kernel.BodyRun
import Idealize.ShloMosaic.Lib.HeldBySlice

set_option maxRecDepth 16384

noncomputable section

namespace Cert.Kernel.Region

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The loop's bands cover the attention scratch -/

/-- The six trips store the column bands [128k, 128k + 128): together the whole [1024, 768] scratch. -/
theorem bands_cover (c : Dev nD) (i : grid0.Coords) (arg1 : Memref sig .tc .vmem S1x1024x768 .bf16) (harg1 : arg1.IsWhole) (arg2 : Memref sig .tc .vmem S768x2304 .bf16) (harg2 : arg2.IsWhole) (arg3 : Memref sig .tc .vmem S1x2304 .f32) (harg3 : arg3.IsWhole) (arg4 : Memref sig .tc .vmem S768x768 .bf16) (harg4 : arg4.IsWhole) (arg5 : Memref sig .tc .vmem S768 .f32) (harg5 : arg5.IsWhole) (arg6 : Memref sig .tc .vmem S1x1024x768 .f32) (harg6 : arg6.IsWhole) (arg7 : Memref sig .tc .vmem S1024x768 .bf16) (harg7 : arg7.IsWhole) (arg8 : Memref sig .tc .vmem S1024x768 .bf16) (harg8 : arg8.IsWhole) (arg9 : Memref sig .tc .vmem S1024x768 .bf16) (harg9 : arg9.IsWhole) (arg10 : Memref sig .tc .vmem S1024x768 .bf16) (harg10 : arg10.IsWhole)
    (X7 : BufTy.Contents (Elt F) arg7.view.ty) (X8 : BufTy.Contents (Elt F) arg8.view.ty) (X9 : BufTy.Contents (Elt F) arg9.view.ty) (y : S1024x768.Idx) :
    ∃ pc ∈ pb_k0_t1 (F := F) Variants.none c none i arg1 harg1 arg2 harg2 arg3 harg3 arg4 harg4 arg5 harg5 arg6 harg6 arg7 harg7 arg8 harg8 arg9 harg9 arg10 harg10 X7 X8 X9 (Scf.trips k0_t1_loop.lb k0_t1_loop.ub k0_t1_loop.st), y ∈ pc.1.set :=
  View.cover_of_tiledL (s := S1024x768) _ S1024x128.size (by sl_kernel_rfl) y

/-- The body's one store into the output buffer: the whole block. -/
theorem pieces_eq (c : Dev nD) (i : grid0.Coords) (arg1 : Memref sig .tc .vmem S1x1024x768 .bf16) (harg1 : arg1.IsWhole) (arg2 : Memref sig .tc .vmem S768x2304 .bf16) (harg2 : arg2.IsWhole) (arg3 : Memref sig .tc .vmem S1x2304 .f32) (harg3 : arg3.IsWhole) (arg4 : Memref sig .tc .vmem S768x768 .bf16) (harg4 : arg4.IsWhole) (arg5 : Memref sig .tc .vmem S768 .f32) (harg5 : arg5.IsWhole) (arg6 : Memref sig .tc .vmem S1x1024x768 .f32) (harg6 : arg6.IsWhole) (arg7 : Memref sig .tc .vmem S1024x768 .bf16) (harg7 : arg7.IsWhole) (arg8 : Memref sig .tc .vmem S1024x768 .bf16) (harg8 : arg8.IsWhole) (arg9 : Memref sig .tc .vmem S1024x768 .bf16) (harg9 : arg9.IsWhole) (arg10 : Memref sig .tc .vmem S1024x768 .bf16) (harg10 : arg10.IsWhole) (x0 : Vec F S1x1024x768 .bf16) (x1 : Vec F S768x2304 .bf16) (x2 : Vec F S1x2304 .f32) (x3 : Vec F S768x768 .bf16) (x4 : Vec F S768 .f32) (xa : Vec F S1024x768 .bf16) :
    (bodyRun c i arg1 harg1 arg2 harg2 arg3 harg3 arg4 harg4 arg5 harg5 arg6 harg6 arg7 harg7 arg8 harg8 arg9 harg9 arg10 harg10 x0 x1 x2 x3 x4 xa).1
      = [⟨Rect.unit ![0, 0, 0] S1x1024x768.size inb_S1x1024x768_S1x1024x768_0_0_0,
          k0_pay1 (bodyRun.sl.r c i arg1 harg1 arg2 harg2 arg3 harg3 arg4 harg4 arg5 harg5 arg6 harg6 arg7 harg7 arg8 harg8 arg9 harg9 arg10 harg10 x0 x1 x2 x3 xa) (bodyRun.sl.r_1 c arg5 harg5 x4)⟩] := rfl

/-- What the body loads back from the attention scratch after the loop does not depend on what the
    scratch held before: the bands cover it. -/
theorem loaded_indep (c : Dev nD) (i : grid0.Coords) (arg1 : Memref sig .tc .vmem S1x1024x768 .bf16) (harg1 : arg1.IsWhole) (arg2 : Memref sig .tc .vmem S768x2304 .bf16) (harg2 : arg2.IsWhole) (arg3 : Memref sig .tc .vmem S1x2304 .f32) (harg3 : arg3.IsWhole) (arg4 : Memref sig .tc .vmem S768x768 .bf16) (harg4 : arg4.IsWhole) (arg5 : Memref sig .tc .vmem S768 .f32) (harg5 : arg5.IsWhole) (arg6 : Memref sig .tc .vmem S1x1024x768 .f32) (harg6 : arg6.IsWhole) (arg7 : Memref sig .tc .vmem S1024x768 .bf16) (harg7 : arg7.IsWhole) (arg8 : Memref sig .tc .vmem S1024x768 .bf16) (harg8 : arg8.IsWhole) (arg9 : Memref sig .tc .vmem S1024x768 .bf16) (harg9 : arg9.IsWhole) (arg10 : Memref sig .tc .vmem S1024x768 .bf16) (harg10 : arg10.IsWhole) (x0 : Vec F S1x1024x768 .bf16) (x1 : Vec F S768x2304 .bf16) (x2 : Vec F S1x2304 .f32) (xa xa' : Vec F S1024x768 .bf16) :
    bodyRun.sl.v25 c i arg1 harg1 arg2 harg2 arg3 harg3 arg4 harg4 arg5 harg5 arg6 harg6 arg7 harg7 arg8 harg8 arg9 harg9 arg10 harg10 x0 x1 x2 xa = bodyRun.sl.v25 c i arg1 harg1 arg2 harg2 arg3 harg3 arg4 harg4 arg5 harg5 arg6 harg6 arg7 harg7 arg8 harg8 arg9 harg9 arg10 harg10 x0 x1 x2 xa' := by
  unfold bodyRun.sl.v25
  exact View.readAt_writes_eq_of_cover _ _ _ _ _ (fun j => bands_cover c i arg1 harg1 arg2 harg2 arg3 harg3 arg4 harg4 arg5 harg5 arg6 harg6 arg7 harg7 arg8 harg8 arg9 harg9 arg10 harg10 _ _ _ _)

theorem pieces_indep (c : Dev nD) (i : grid0.Coords) (arg1 : Memref sig .tc .vmem S1x1024x768 .bf16) (harg1 : arg1.IsWhole) (arg2 : Memref sig .tc .vmem S768x2304 .bf16) (harg2 : arg2.IsWhole) (arg3 : Memref sig .tc .vmem S1x2304 .f32) (harg3 : arg3.IsWhole) (arg4 : Memref sig .tc .vmem S768x768 .bf16) (harg4 : arg4.IsWhole) (arg5 : Memref sig .tc .vmem S768 .f32) (harg5 : arg5.IsWhole) (arg6 : Memref sig .tc .vmem S1x1024x768 .f32) (harg6 : arg6.IsWhole) (arg7 : Memref sig .tc .vmem S1024x768 .bf16) (harg7 : arg7.IsWhole) (arg8 : Memref sig .tc .vmem S1024x768 .bf16) (harg8 : arg8.IsWhole) (arg9 : Memref sig .tc .vmem S1024x768 .bf16) (harg9 : arg9.IsWhole) (arg10 : Memref sig .tc .vmem S1024x768 .bf16) (harg10 : arg10.IsWhole) (x0 : Vec F S1x1024x768 .bf16) (x1 : Vec F S768x2304 .bf16) (x2 : Vec F S1x2304 .f32) (x3 : Vec F S768x768 .bf16) (x4 : Vec F S768 .f32) (xa xa' : Vec F S1024x768 .bf16) :
    (bodyRun c i arg1 harg1 arg2 harg2 arg3 harg3 arg4 harg4 arg5 harg5 arg6 harg6 arg7 harg7 arg8 harg8 arg9 harg9 arg10 harg10 x0 x1 x2 x3 x4 xa).1 = (bodyRun c i arg1 harg1 arg2 harg2 arg3 harg3 arg4 harg4 arg5 harg5 arg6 harg6 arg7 harg7 arg8 harg8 arg9 harg9 arg10 harg10 x0 x1 x2 x3 x4 xa').1 := by
  rw [pieces_eq, pieces_eq]; unfold bodyRun.sl.r; rw [loaded_indep c i arg1 harg1 arg2 harg2 arg3 harg3 arg4 harg4 arg5 harg5 arg6 harg6 arg7 harg7 arg8 harg8 arg9 harg9 arg10 harg10 x0 x1 x2 xa xa']

theorem cover5 (c : Dev nD) (i : grid0.Coords) (arg1 : Memref sig .tc .vmem S1x1024x768 .bf16) (harg1 : arg1.IsWhole) (arg2 : Memref sig .tc .vmem S768x2304 .bf16) (harg2 : arg2.IsWhole) (arg3 : Memref sig .tc .vmem S1x2304 .f32) (harg3 : arg3.IsWhole) (arg4 : Memref sig .tc .vmem S768x768 .bf16) (harg4 : arg4.IsWhole) (arg5 : Memref sig .tc .vmem S768 .f32) (harg5 : arg5.IsWhole) (arg6 : Memref sig .tc .vmem S1x1024x768 .f32) (harg6 : arg6.IsWhole) (arg7 : Memref sig .tc .vmem S1024x768 .bf16) (harg7 : arg7.IsWhole) (arg8 : Memref sig .tc .vmem S1024x768 .bf16) (harg8 : arg8.IsWhole) (arg9 : Memref sig .tc .vmem S1024x768 .bf16) (harg9 : arg9.IsWhole) (arg10 : Memref sig .tc .vmem S1024x768 .bf16) (harg10 : arg10.IsWhole) (x0 : Vec F S1x1024x768 .bf16) (x1 : Vec F S768x2304 .bf16) (x2 : Vec F S1x2304 .f32) (x3 : Vec F S768x768 .bf16) (x4 : Vec F S768 .f32) (xa : Vec F S1024x768 .bf16) (y : S1x1024x768.Idx) :
    ∃ pc ∈ (bodyRun c i arg1 harg1 arg2 harg2 arg3 harg3 arg4 harg4 arg5 harg5 arg6 harg6 arg7 harg7 arg8 harg8 arg9 harg9 arg10 harg10 x0 x1 x2 x3 x4 xa).1, y ∈ pc.1.set :=
  View.cover_of_tiledL (s := S1x1024x768) (bodyRun c i arg1 harg1 arg2 harg2 arg3 harg3 arg4 harg4 arg5 harg5 arg6 harg6 arg7 harg7 arg8 harg8 arg9 harg9 arg10 harg10 x0 x1 x2 x3 x4 xa).1 S1x1024x768.size (by sl_kernel_rfl) y

/-- What the run leaves in the output window's staging buffer: its pieces read back over junk. -/
def out5 (c : Dev nD) (i : grid0.Coords) (arg1 : Memref sig .tc .vmem S1x1024x768 .bf16) (harg1 : arg1.IsWhole) (arg2 : Memref sig .tc .vmem S768x2304 .bf16) (harg2 : arg2.IsWhole) (arg3 : Memref sig .tc .vmem S1x2304 .f32) (harg3 : arg3.IsWhole) (arg4 : Memref sig .tc .vmem S768x768 .bf16) (harg4 : arg4.IsWhole) (arg5 : Memref sig .tc .vmem S768 .f32) (harg5 : arg5.IsWhole) (arg6 : Memref sig .tc .vmem S1x1024x768 .f32) (harg6 : arg6.IsWhole) (arg7 : Memref sig .tc .vmem S1024x768 .bf16) (harg7 : arg7.IsWhole) (arg8 : Memref sig .tc .vmem S1024x768 .bf16) (harg8 : arg8.IsWhole) (arg9 : Memref sig .tc .vmem S1024x768 .bf16) (harg9 : arg9.IsWhole) (arg10 : Memref sig .tc .vmem S1024x768 .bf16) (harg10 : arg10.IsWhole) (x0 : Vec F S1x1024x768 .bf16) (x1 : Vec F S768x2304 .bf16) (x2 : Vec F S1x2304 .f32) (x3 : Vec F S768x768 .bf16) (x4 : Vec F S768 .f32) (xa : Vec F S1024x768 .bf16) : Vec F S1x1024x768 .f32 :=
  VO5.read (Elt F) (VO5.writes (Elt F) VO5.junk (bodyRun c i arg1 harg1 arg2 harg2 arg3 harg3 arg4 harg4 arg5 harg5 arg6 harg6 arg7 harg7 arg8 harg8 arg9 harg9 arg10 harg10 x0 x1 x2 x3 x4 xa).1)

theorem out5_indep (c : Dev nD) (i : grid0.Coords) (arg1 : Memref sig .tc .vmem S1x1024x768 .bf16) (harg1 : arg1.IsWhole) (arg2 : Memref sig .tc .vmem S768x2304 .bf16) (harg2 : arg2.IsWhole) (arg3 : Memref sig .tc .vmem S1x2304 .f32) (harg3 : arg3.IsWhole) (arg4 : Memref sig .tc .vmem S768x768 .bf16) (harg4 : arg4.IsWhole) (arg5 : Memref sig .tc .vmem S768 .f32) (harg5 : arg5.IsWhole) (arg6 : Memref sig .tc .vmem S1x1024x768 .f32) (harg6 : arg6.IsWhole) (arg7 : Memref sig .tc .vmem S1024x768 .bf16) (harg7 : arg7.IsWhole) (arg8 : Memref sig .tc .vmem S1024x768 .bf16) (harg8 : arg8.IsWhole) (arg9 : Memref sig .tc .vmem S1024x768 .bf16) (harg9 : arg9.IsWhole) (arg10 : Memref sig .tc .vmem S1024x768 .bf16) (harg10 : arg10.IsWhole) (x0 : Vec F S1x1024x768 .bf16) (x1 : Vec F S768x2304 .bf16) (x2 : Vec F S1x2304 .f32) (x3 : Vec F S768x768 .bf16) (x4 : Vec F S768 .f32) (xa xa' : Vec F S1024x768 .bf16) :
    out5 c i arg1 harg1 arg2 harg2 arg3 harg3 arg4 harg4 arg5 harg5 arg6 harg6 arg7 harg7 arg8 harg8 arg9 harg9 arg10 harg10 x0 x1 x2 x3 x4 xa = out5 c i arg1 harg1 arg2 harg2 arg3 harg3 arg4 harg4 arg5 harg5 arg6 harg6 arg7 harg7 arg8 harg8 arg9 harg9 arg10 harg10 x0 x1 x2 x3 x4 xa' := by
  unfold out5; rw [pieces_indep c i arg1 harg1 arg2 harg2 arg3 harg3 arg4 harg4 arg5 harg5 arg6 harg6 arg7 harg7 arg8 harg8 arg9 harg9 arg10 harg10 x0 x1 x2 x3 x4 xa xa']

/-- Some contents of the attention scratch (which ones does not matter: `out5_indep`). -/
def anyA : Vec F S1024x768 .bf16 := View.read (Elt F) scA.view (View.junk scA.view)

/-! ## What the output window holds after each point -/

def outAt (c : Dev nD) (t : Fin cfg0.N) : Vec F S1x1024x768 .f32 :=
  out5 c (grid0.coords t) (ms0 t) (hs0 t) (ms1 t) (hs1 t) (ms2 t) (hs2 t) (ms3 t) (hs3 t) (ms4 t) (hs4 t) (ms5 t) (hs5 t) scQ (Memref.isWhole_whole _) scK (Memref.isWhole_whole _) scV (Memref.isWhole_whole _) scA (Memref.isWhole_whole _) (iblk m c 0 t) (iblk m c 1 t) (iblk m c 2 t) (iblk m c 3 t) (iblk m c 4 t) anyA

/-! ## The pipeline's proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outAt m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = outAt m c t := by dsimp only [dats]

theorem before0 (c : Dev nD) (t : Fin cfg0.N) (d) : (dats m 0 c).before 0 t d = iblk m c 0 t :=
  before_in0_of m (dats m 0 c) (A_eq m c 0) (after0 m c) t d
theorem before1 (c : Dev nD) (t : Fin cfg0.N) (d) : (dats m 0 c).before 1 t d = iblk m c 1 t :=
  before_in1_of m (dats m 0 c) (A_eq m c 1) (after1 m c) t d
theorem before2 (c : Dev nD) (t : Fin cfg0.N) (d) : (dats m 0 c).before 2 t d = iblk m c 2 t :=
  before_in2_of m (dats m 0 c) (A_eq m c 2) (after2 m c) t d
theorem before3 (c : Dev nD) (t : Fin cfg0.N) (d) : (dats m 0 c).before 3 t d = iblk m c 3 t :=
  before_in3_of m (dats m 0 c) (A_eq m c 3) (after3 m c) t d
theorem before4 (c : Dev nD) (t : Fin cfg0.N) (d) : (dats m 0 c).before 4 t d = iblk m c 4 t :=
  before_in4_of m (dats m 0 c) (A_eq m c 4) (after4 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d)))

def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4]
  rw [show (dats m 0 c).Φ t.succ = (dats m 0 c).Φ t.castSucc from rfl,
    show (dats m 0 c).owesAt () t.succ = (dats m 0 c).owesAt () t.castSucc from rfl,
    after0, after1, after2, after3, after4, after5]
  rw [show (dats m 0 c).Φ t.castSucc = Pipeline.ΦA spec0 c from rfl, PhiA_eq]
  unfold outAt
  iintro ⟨⟨⟨HS0, HS1, HS2, ⟨%dA, HS3⟩⟩, Hg⟩, Ho, ⟨%d0, H0⟩, ⟨%d1, H1⟩, ⟨%d2, H2⟩, ⟨%d3, H3⟩, ⟨%d4, H4⟩, ⟨%d5, H5⟩⟩
  iapply ((bodyRun c (grid0.coords t) _ _ _ _ _ _ _ _ _ _ _ _ _ _ _ _ _ _ _ _ (iblk m c 0 t) (iblk m c 1 t) (iblk m c 2 t) (iblk m c 3 t) (iblk m c 4 t) dA).2 Set.univ _)
  isplitl [H0]; · iexact H0
  isplitl [H1]; · iexact H1
  isplitl [H2]; · iexact H2
  isplitl [H3]; · iexact H3
  isplitl [H4]; · iexact H4
  isplitl [H5]; · iexists _; iexact H5
  isplitl [HS0]; · iexact HS0
  isplitl [HS1]; · iexact HS1
  isplitl [HS2]; · iexact HS2
  isplitl [HS3]; · iexact HS3
  iintro ⟨H0, H1, H2, H3, H4, ⟨%e5, H5⟩, HS0, HS1, HS2, HS3⟩
  isplitl [HS0 HS1 HS2 HS3 Hg]
  · isplitl [HS0 HS1 HS2 HS3]
    · isplitl [HS0]; · iexact HS0
      isplitl [HS1]; · iexact HS1
      isplitl [HS2]; · iexact HS2
      iexact HS3
    iexact Hg
  isplitl [Ho]; · iexact Ho
  isplitl [H0]; · iexact H0
  isplitl [H1]; · iexact H1
  isplitl [H2]; · iexact H2
  isplitl [H3]; · iexact H3
  isplitl [H4]; · iexact H4
  unfold owns; iexists _; isplitr
  swap; · iexact H5
  ipureintro
  exact (View.read_writes_of_cover _ _ _ _ _ (cover5 c _ _ _ _ _ _ _ _ _ _ _ _ _ _ _ _ _ _ _ _ _ _ _ _ _ _ dA)).trans (out5_indep c _ _ _ _ _ _ _ _ _ _ _ _ _ _ _ _ _ _ _ _ _ _ _ _ _ _ dA anyA)

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- Every weakly fair execution of @main ends, nothing faulting, the nine argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  frame_of m ρ (dats m) (A_eq m) (run_main m ρ)

end Cert.Kernel.Region

end
-- ==== Proof.KernelIdeal.Entry.lean ====
/-
  The attention kernel's launch, up to the body: what each array holds when the one region of @main is
  entered (the eighteen host operations before it write only their own result buffers: the stacked
  projection weights [768, 2304], the stacked bias [1, 2304], the transposed output weights and the
  input re-typed), the block of each window at a grid point read off those arrays, and how a run of the
  region to the pipeline library's post gives back the nine argument arrays unchanged. Stated at any
  float instance.
-/
import proofs.«139552_j89163521065781_2_alg».proof.Proof.Gen.KernelIdeal.Launch
import proofs.«139552_j89163521065781_2_alg».proof.Proof.Gen.KernelIdeal.Skeleton
import proofs.«139552_j89163521065781_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Region

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- The buffers of core `c` when the region is entered: the launch memory after the host operations. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

/-- @main is the host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host operation before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host operation before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host operation before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host operation before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host operation before the region writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host operation before the region writes argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host operation before the region writes argument 7: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host operation before the region writes argument 8: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-! ## The windows' blocks -/

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Each input window's current staging buffer holds its block at every point, whether the point
    fetched it or an earlier one did (the four weight and bias windows are fetched once: their block
    index never moves). -/
theorem before_in0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_in2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_in3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_in4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The argument arrays after a run of the region -/

theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).1 4).trans (((dats 0 c).arrAt_in 4 rfl _).trans ((hA c 4).trans (V_main_arg8 m c)))⟩) h

/-! ## The body's operands -/

/-- One staging buffer of the output window, through which its contents are stated. -/
abbrev VO5 : View sig .tc .vmem S1x1024x768 .f32 := (Memref.whole cc0_stg5_0 : Memref sig .tc .vmem S1x1024x768 .f32).view
/-- Each window's current staging memref at point `t`, as the pipeline passes it to the body. -/
abbrev ms0 (t : Fin cfg0.N) : Memref sig .tc .vmem S1x1024x768 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S768x2304 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x2304 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S768x768 .bf16 := win0_3.stage (cfg0.slots t 3)
abbrev hs3 (t : Fin cfg0.N) : (ms3 t).IsWhole := hstage0_3 ((cfg0.slots t 3).cast nbuf0_3)
abbrev ms4 (t : Fin cfg0.N) : Memref sig .tc .vmem S768 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x1024x768 .f32 := win0_5.stage (cfg0.slots t 5)
abbrev hs5 (t : Fin cfg0.N) : (ms5 t).IsWhole := hstage0_5 ((cfg0.slots t 5).cast nbuf0_5)
/-- The four scratch operands (queries, keys, values, attention rows: [1024, 768] each). -/
abbrev scQ : Memref sig .tc .vmem S1024x768 .bf16 := Memref.whole cc0_scratch0
abbrev scK : Memref sig .tc .vmem S1024x768 .bf16 := Memref.whole cc0_scratch1
abbrev scV : Memref sig .tc .vmem S1024x768 .bf16 := Memref.whole cc0_scratch2
abbrev scA : Memref sig .tc .vmem S1024x768 .bf16 := Memref.whole cc0_scratch3

/-- What the region's invariant holds besides the windows: the four scratch buffers at some contents
    and the generator register. -/
theorem PhiA_eq (c : Dev nD) :
    (Pipeline.ΦA spec0 c : sProp 𝕄)
      = iprop(iprop((∃ d, owns (c : Thread nD τ) scQ fullShare d) ∗ (∃ d, owns (c : Thread nD τ) scK fullShare d) ∗ (∃ d, owns (c : Thread nD τ) scV fullShare d) ∗ (∃ d, owns (c : Thread nD τ) scA fullShare d)) ∗ (∃ r, prngReg c r)) := by
  unfold Pipeline.ΦA; rw [scopedRest0_eq]; simp only [scQ, scK, scV, scA, owns_whole]; try rfl

end Cert.KernelIdeal.Region

end
-- ==== Proof.KernelIdeal.BodyRun.lean ====
/-
  The attention kernel's body run once, on any whole staging and scratch memrefs: from the five input
  buffers at their blocks, the output buffer and the query, key and value scratch at anything, the
  attention scratch at contents `xa`, the body runs to the end leaving the inputs as they were and the
  output buffer written with the pieces the run finds (one whole-block store). The head-pair loop is
  passed by its invariant (the pieces of the trips before), never unrolled. Stated at any float
  instance.
-/
import proofs.«139552_j89163521065781_2_alg».proof.Proof.KernelIdeal.Entry
import proofs.«139552_j89163521065781_2_alg».proof.Proof.Gen.KernelIdeal.Loops

set_option maxRecDepth 16384

noncomputable section

namespace Cert.KernelIdeal.Region

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def bodyRun (c : Dev nD) (i : grid0.Coords) (arg1 : Memref sig .tc .vmem S1x1024x768 .bf16) (harg1 : arg1.IsWhole) (arg2 : Memref sig .tc .vmem S768x2304 .bf16) (harg2 : arg2.IsWhole) (arg3 : Memref sig .tc .vmem S1x2304 .f32) (harg3 : arg3.IsWhole) (arg4 : Memref sig .tc .vmem S768x768 .bf16) (harg4 : arg4.IsWhole) (arg5 : Memref sig .tc .vmem S768 .f32) (harg5 : arg5.IsWhole) (arg6 : Memref sig .tc .vmem S1x1024x768 .f32) (harg6 : arg6.IsWhole) (arg7 : Memref sig .tc .vmem S1024x768 .bf16) (harg7 : arg7.IsWhole) (arg8 : Memref sig .tc .vmem S1024x768 .bf16) (harg8 : arg8.IsWhole) (arg9 : Memref sig .tc .vmem S1024x768 .bf16) (harg9 : arg9.IsWhole) (arg10 : Memref sig .tc .vmem S1024x768 .bf16) (harg10 : arg10.IsWhole)
    (x0 : Vec F S1x1024x768 .bf16) (x1 : Vec F S768x2304 .bf16) (x2 : Vec F S1x2304 .f32) (x3 : Vec F S768x768 .bf16) (x4 : Vec F S768 .f32)
    (xa : Vec F S1024x768 .bf16) :
    { L5 : List (View.Piece (Elt F) S1x1024x768 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ owns (c : Thread nD τ) arg10 fullShare xa
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)) -∗ K ⟨⟩))
          ⊢ wp frame (wpE (defs₀ (F := F)) Variants.none c none) E (cc0__mha_kernel i arg1 harg1 arg2 harg2 arg3 harg3 arg4 harg4 arg5 harg5 arg6 harg6 arg7 harg7 arg8 harg8 arg9 harg9 arg10 harg10) K } := by
  refine ⟨?_, fun E K => ?run⟩
  case run =>
    simp only [cc0__mha_kernel_eq_skeleton]; unfold cc0__mha_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds0, %fs0, -, HS0⟩, ⟨%ds1, %fs1, -, HS1⟩, ⟨%ds2, %fs2, -, HS2⟩, ⟨%fs3, %hfs3, HS3⟩, Hk⟩
    obtain rfl := harg1.eq_unread hf0; obtain rfl := harg2.eq_unread hf1; obtain rfl := harg3.eq_unread hf2; obtain rfl := harg4.eq_unread hf3; obtain rfl := harg5.eq_unread hf4; obtain rfl := harg10.eq_unread hfs3
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    iexists _, _; isplitr; swap; · iexact HS3
    ipureintro; rfl

end Cert.KernelIdeal.Region

end
-- ==== Proof.KernelIdeal.Frame.lean ====
/-
  The frame of the attention kernel's program: the proof data of its one pipeline (each input window's
  buffer holds its block; the output window's buffer holds what one run of the body stores, a function
  of the five input blocks alone — the attention scratch is read back only where the six head-pair
  trips have just written it, and their column bands tile it), the body obligation at a generic grid
  point, the run of @main to the pipeline library's post, and the nine argument arrays unchanged.
  Stated at any float instance.
-/
import proofs.«139552_j89163521065781_2_alg».proof.Proof.KernelIdeal.BodyRun
import Idealize.ShloMosaic.Lib.HeldBySlice

set_option maxRecDepth 16384

noncomputable section

namespace Cert.KernelIdeal.Region

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The loop's bands cover the attention scratch -/

/-- The six trips store the column bands [128k, 128k + 128): together the whole [1024, 768] scratch. -/
theorem bands_cover (c : Dev nD) (i : grid0.Coords) (arg1 : Memref sig .tc .vmem S1x1024x768 .bf16) (harg1 : arg1.IsWhole) (arg2 : Memref sig .tc .vmem S768x2304 .bf16) (harg2 : arg2.IsWhole) (arg3 : Memref sig .tc .vmem S1x2304 .f32) (harg3 : arg3.IsWhole) (arg4 : Memref sig .tc .vmem S768x768 .bf16) (harg4 : arg4.IsWhole) (arg5 : Memref sig .tc .vmem S768 .f32) (harg5 : arg5.IsWhole) (arg6 : Memref sig .tc .vmem S1x1024x768 .f32) (harg6 : arg6.IsWhole) (arg7 : Memref sig .tc .vmem S1024x768 .bf16) (harg7 : arg7.IsWhole) (arg8 : Memref sig .tc .vmem S1024x768 .bf16) (harg8 : arg8.IsWhole) (arg9 : Memref sig .tc .vmem S1024x768 .bf16) (harg9 : arg9.IsWhole) (arg10 : Memref sig .tc .vmem S1024x768 .bf16) (harg10 : arg10.IsWhole)
    (X7 : BufTy.Contents (Elt F) arg7.view.ty) (X8 : BufTy.Contents (Elt F) arg8.view.ty) (X9 : BufTy.Contents (Elt F) arg9.view.ty) (y : S1024x768.Idx) :
    ∃ pc ∈ pb_k0_t1 (F := F) Variants.none c none i arg1 harg1 arg2 harg2 arg3 harg3 arg4 harg4 arg5 harg5 arg6 harg6 arg7 harg7 arg8 harg8 arg9 harg9 arg10 harg10 X7 X8 X9 (Scf.trips k0_t1_loop.lb k0_t1_loop.ub k0_t1_loop.st), y ∈ pc.1.set :=
  View.cover_of_tiledL (s := S1024x768) _ S1024x128.size (by sl_kernel_rfl) y

/-- The body's one store into the output buffer: the whole block. -/
theorem pieces_eq (c : Dev nD) (i : grid0.Coords) (arg1 : Memref sig .tc .vmem S1x1024x768 .bf16) (harg1 : arg1.IsWhole) (arg2 : Memref sig .tc .vmem S768x2304 .bf16) (harg2 : arg2.IsWhole) (arg3 : Memref sig .tc .vmem S1x2304 .f32) (harg3 : arg3.IsWhole) (arg4 : Memref sig .tc .vmem S768x768 .bf16) (harg4 : arg4.IsWhole) (arg5 : Memref sig .tc .vmem S768 .f32) (harg5 : arg5.IsWhole) (arg6 : Memref sig .tc .vmem S1x1024x768 .f32) (harg6 : arg6.IsWhole) (arg7 : Memref sig .tc .vmem S1024x768 .bf16) (harg7 : arg7.IsWhole) (arg8 : Memref sig .tc .vmem S1024x768 .bf16) (harg8 : arg8.IsWhole) (arg9 : Memref sig .tc .vmem S1024x768 .bf16) (harg9 : arg9.IsWhole) (arg10 : Memref sig .tc .vmem S1024x768 .bf16) (harg10 : arg10.IsWhole) (x0 : Vec F S1x1024x768 .bf16) (x1 : Vec F S768x2304 .bf16) (x2 : Vec F S1x2304 .f32) (x3 : Vec F S768x768 .bf16) (x4 : Vec F S768 .f32) (xa : Vec F S1024x768 .bf16) :
    (bodyRun c i arg1 harg1 arg2 harg2 arg3 harg3 arg4 harg4 arg5 harg5 arg6 harg6 arg7 harg7 arg8 harg8 arg9 harg9 arg10 harg10 x0 x1 x2 x3 x4 xa).1
      = [⟨Rect.unit ![0, 0, 0] S1x1024x768.size inb_S1x1024x768_S1x1024x768_0_0_0,
          k0_pay1 (bodyRun.sl.r c i arg1 harg1 arg2 harg2 arg3 harg3 arg4 harg4 arg5 harg5 arg6 harg6 arg7 harg7 arg8 harg8 arg9 harg9 arg10 harg10 x0 x1 x2 x3 xa) (bodyRun.sl.r_1 c arg5 harg5 x4)⟩] := rfl

/-- What the body loads back from the attention scratch after the loop does not depend on what the
    scratch held before: the bands cover it. -/
theorem loaded_indep (c : Dev nD) (i : grid0.Coords) (arg1 : Memref sig .tc .vmem S1x1024x768 .bf16) (harg1 : arg1.IsWhole) (arg2 : Memref sig .tc .vmem S768x2304 .bf16) (harg2 : arg2.IsWhole) (arg3 : Memref sig .tc .vmem S1x2304 .f32) (harg3 : arg3.IsWhole) (arg4 : Memref sig .tc .vmem S768x768 .bf16) (harg4 : arg4.IsWhole) (arg5 : Memref sig .tc .vmem S768 .f32) (harg5 : arg5.IsWhole) (arg6 : Memref sig .tc .vmem S1x1024x768 .f32) (harg6 : arg6.IsWhole) (arg7 : Memref sig .tc .vmem S1024x768 .bf16) (harg7 : arg7.IsWhole) (arg8 : Memref sig .tc .vmem S1024x768 .bf16) (harg8 : arg8.IsWhole) (arg9 : Memref sig .tc .vmem S1024x768 .bf16) (harg9 : arg9.IsWhole) (arg10 : Memref sig .tc .vmem S1024x768 .bf16) (harg10 : arg10.IsWhole) (x0 : Vec F S1x1024x768 .bf16) (x1 : Vec F S768x2304 .bf16) (x2 : Vec F S1x2304 .f32) (xa xa' : Vec F S1024x768 .bf16) :
    bodyRun.sl.v25 c i arg1 harg1 arg2 harg2 arg3 harg3 arg4 harg4 arg5 harg5 arg6 harg6 arg7 harg7 arg8 harg8 arg9 harg9 arg10 harg10 x0 x1 x2 xa = bodyRun.sl.v25 c i arg1 harg1 arg2 harg2 arg3 harg3 arg4 harg4 arg5 harg5 arg6 harg6 arg7 harg7 arg8 harg8 arg9 harg9 arg10 harg10 x0 x1 x2 xa' := by
  unfold bodyRun.sl.v25
  exact View.readAt_writes_eq_of_cover _ _ _ _ _ (fun j => bands_cover c i arg1 harg1 arg2 harg2 arg3 harg3 arg4 harg4 arg5 harg5 arg6 harg6 arg7 harg7 arg8 harg8 arg9 harg9 arg10 harg10 _ _ _ _)

theorem pieces_indep (c : Dev nD) (i : grid0.Coords) (arg1 : Memref sig .tc .vmem S1x1024x768 .bf16) (harg1 : arg1.IsWhole) (arg2 : Memref sig .tc .vmem S768x2304 .bf16) (harg2 : arg2.IsWhole) (arg3 : Memref sig .tc .vmem S1x2304 .f32) (harg3 : arg3.IsWhole) (arg4 : Memref sig .tc .vmem S768x768 .bf16) (harg4 : arg4.IsWhole) (arg5 : Memref sig .tc .vmem S768 .f32) (harg5 : arg5.IsWhole) (arg6 : Memref sig .tc .vmem S1x1024x768 .f32) (harg6 : arg6.IsWhole) (arg7 : Memref sig .tc .vmem S1024x768 .bf16) (harg7 : arg7.IsWhole) (arg8 : Memref sig .tc .vmem S1024x768 .bf16) (harg8 : arg8.IsWhole) (arg9 : Memref sig .tc .vmem S1024x768 .bf16) (harg9 : arg9.IsWhole) (arg10 : Memref sig .tc .vmem S1024x768 .bf16) (harg10 : arg10.IsWhole) (x0 : Vec F S1x1024x768 .bf16) (x1 : Vec F S768x2304 .bf16) (x2 : Vec F S1x2304 .f32) (x3 : Vec F S768x768 .bf16) (x4 : Vec F S768 .f32) (xa xa' : Vec F S1024x768 .bf16) :
    (bodyRun c i arg1 harg1 arg2 harg2 arg3 harg3 arg4 harg4 arg5 harg5 arg6 harg6 arg7 harg7 arg8 harg8 arg9 harg9 arg10 harg10 x0 x1 x2 x3 x4 xa).1 = (bodyRun c i arg1 harg1 arg2 harg2 arg3 harg3 arg4 harg4 arg5 harg5 arg6 harg6 arg7 harg7 arg8 harg8 arg9 harg9 arg10 harg10 x0 x1 x2 x3 x4 xa').1 := by
  rw [pieces_eq, pieces_eq]; unfold bodyRun.sl.r; rw [loaded_indep c i arg1 harg1 arg2 harg2 arg3 harg3 arg4 harg4 arg5 harg5 arg6 harg6 arg7 harg7 arg8 harg8 arg9 harg9 arg10 harg10 x0 x1 x2 xa xa']

theorem cover5 (c : Dev nD) (i : grid0.Coords) (arg1 : Memref sig .tc .vmem S1x1024x768 .bf16) (harg1 : arg1.IsWhole) (arg2 : Memref sig .tc .vmem S768x2304 .bf16) (harg2 : arg2.IsWhole) (arg3 : Memref sig .tc .vmem S1x2304 .f32) (harg3 : arg3.IsWhole) (arg4 : Memref sig .tc .vmem S768x768 .bf16) (harg4 : arg4.IsWhole) (arg5 : Memref sig .tc .vmem S768 .f32) (harg5 : arg5.IsWhole) (arg6 : Memref sig .tc .vmem S1x1024x768 .f32) (harg6 : arg6.IsWhole) (arg7 : Memref sig .tc .vmem S1024x768 .bf16) (harg7 : arg7.IsWhole) (arg8 : Memref sig .tc .vmem S1024x768 .bf16) (harg8 : arg8.IsWhole) (arg9 : Memref sig .tc .vmem S1024x768 .bf16) (harg9 : arg9.IsWhole) (arg10 : Memref sig .tc .vmem S1024x768 .bf16) (harg10 : arg10.IsWhole) (x0 : Vec F S1x1024x768 .bf16) (x1 : Vec F S768x2304 .bf16) (x2 : Vec F S1x2304 .f32) (x3 : Vec F S768x768 .bf16) (x4 : Vec F S768 .f32) (xa : Vec F S1024x768 .bf16) (y : S1x1024x768.Idx) :
    ∃ pc ∈ (bodyRun c i arg1 harg1 arg2 harg2 arg3 harg3 arg4 harg4 arg5 harg5 arg6 harg6 arg7 harg7 arg8 harg8 arg9 harg9 arg10 harg10 x0 x1 x2 x3 x4 xa).1, y ∈ pc.1.set :=
  View.cover_of_tiledL (s := S1x1024x768) (bodyRun c i arg1 harg1 arg2 harg2 arg3 harg3 arg4 harg4 arg5 harg5 arg6 harg6 arg7 harg7 arg8 harg8 arg9 harg9 arg10 harg10 x0 x1 x2 x3 x4 xa).1 S1x1024x768.size (by sl_kernel_rfl) y

/-- What the run leaves in the output window's staging buffer: its pieces read back over junk. -/
def out5 (c : Dev nD) (i : grid0.Coords) (arg1 : Memref sig .tc .vmem S1x1024x768 .bf16) (harg1 : arg1.IsWhole) (arg2 : Memref sig .tc .vmem S768x2304 .bf16) (harg2 : arg2.IsWhole) (arg3 : Memref sig .tc .vmem S1x2304 .f32) (harg3 : arg3.IsWhole) (arg4 : Memref sig .tc .vmem S768x768 .bf16) (harg4 : arg4.IsWhole) (arg5 : Memref sig .tc .vmem S768 .f32) (harg5 : arg5.IsWhole) (arg6 : Memref sig .tc .vmem S1x1024x768 .f32) (harg6 : arg6.IsWhole) (arg7 : Memref sig .tc .vmem S1024x768 .bf16) (harg7 : arg7.IsWhole) (arg8 : Memref sig .tc .vmem S1024x768 .bf16) (harg8 : arg8.IsWhole) (arg9 : Memref sig .tc .vmem S1024x768 .bf16) (harg9 : arg9.IsWhole) (arg10 : Memref sig .tc .vmem S1024x768 .bf16) (harg10 : arg10.IsWhole) (x0 : Vec F S1x1024x768 .bf16) (x1 : Vec F S768x2304 .bf16) (x2 : Vec F S1x2304 .f32) (x3 : Vec F S768x768 .bf16) (x4 : Vec F S768 .f32) (xa : Vec F S1024x768 .bf16) : Vec F S1x1024x768 .f32 :=
  VO5.read (Elt F) (VO5.writes (Elt F) VO5.junk (bodyRun c i arg1 harg1 arg2 harg2 arg3 harg3 arg4 harg4 arg5 harg5 arg6 harg6 arg7 harg7 arg8 harg8 arg9 harg9 arg10 harg10 x0 x1 x2 x3 x4 xa).1)

theorem out5_indep (c : Dev nD) (i : grid0.Coords) (arg1 : Memref sig .tc .vmem S1x1024x768 .bf16) (harg1 : arg1.IsWhole) (arg2 : Memref sig .tc .vmem S768x2304 .bf16) (harg2 : arg2.IsWhole) (arg3 : Memref sig .tc .vmem S1x2304 .f32) (harg3 : arg3.IsWhole) (arg4 : Memref sig .tc .vmem S768x768 .bf16) (harg4 : arg4.IsWhole) (arg5 : Memref sig .tc .vmem S768 .f32) (harg5 : arg5.IsWhole) (arg6 : Memref sig .tc .vmem S1x1024x768 .f32) (harg6 : arg6.IsWhole) (arg7 : Memref sig .tc .vmem S1024x768 .bf16) (harg7 : arg7.IsWhole) (arg8 : Memref sig .tc .vmem S1024x768 .bf16) (harg8 : arg8.IsWhole) (arg9 : Memref sig .tc .vmem S1024x768 .bf16) (harg9 : arg9.IsWhole) (arg10 : Memref sig .tc .vmem S1024x768 .bf16) (harg10 : arg10.IsWhole) (x0 : Vec F S1x1024x768 .bf16) (x1 : Vec F S768x2304 .bf16) (x2 : Vec F S1x2304 .f32) (x3 : Vec F S768x768 .bf16) (x4 : Vec F S768 .f32) (xa xa' : Vec F S1024x768 .bf16) :
    out5 c i arg1 harg1 arg2 harg2 arg3 harg3 arg4 harg4 arg5 harg5 arg6 harg6 arg7 harg7 arg8 harg8 arg9 harg9 arg10 harg10 x0 x1 x2 x3 x4 xa = out5 c i arg1 harg1 arg2 harg2 arg3 harg3 arg4 harg4 arg5 harg5 arg6 harg6 arg7 harg7 arg8 harg8 arg9 harg9 arg10 harg10 x0 x1 x2 x3 x4 xa' := by
  unfold out5; rw [pieces_indep c i arg1 harg1 arg2 harg2 arg3 harg3 arg4 harg4 arg5 harg5 arg6 harg6 arg7 harg7 arg8 harg8 arg9 harg9 arg10 harg10 x0 x1 x2 x3 x4 xa xa']

/-- Some contents of the attention scratch (which ones does not matter: `out5_indep`). -/
def anyA : Vec F S1024x768 .bf16 := View.read (Elt F) scA.view (View.junk scA.view)

/-! ## What the output window holds after each point -/

def outAt (c : Dev nD) (t : Fin cfg0.N) : Vec F S1x1024x768 .f32 :=
  out5 c (grid0.coords t) (ms0 t) (hs0 t) (ms1 t) (hs1 t) (ms2 t) (hs2 t) (ms3 t) (hs3 t) (ms4 t) (hs4 t) (ms5 t) (hs5 t) scQ (Memref.isWhole_whole _) scK (Memref.isWhole_whole _) scV (Memref.isWhole_whole _) scA (Memref.isWhole_whole _) (iblk m c 0 t) (iblk m c 1 t) (iblk m c 2 t) (iblk m c 3 t) (iblk m c 4 t) anyA

/-! ## The pipeline's proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outAt m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = outAt m c t := by dsimp only [dats]

theorem before0 (c : Dev nD) (t : Fin cfg0.N) (d) : (dats m 0 c).before 0 t d = iblk m c 0 t :=
  before_in0_of m (dats m 0 c) (A_eq m c 0) (after0 m c) t d
theorem before1 (c : Dev nD) (t : Fin cfg0.N) (d) : (dats m 0 c).before 1 t d = iblk m c 1 t :=
  before_in1_of m (dats m 0 c) (A_eq m c 1) (after1 m c) t d
theorem before2 (c : Dev nD) (t : Fin cfg0.N) (d) : (dats m 0 c).before 2 t d = iblk m c 2 t :=
  before_in2_of m (dats m 0 c) (A_eq m c 2) (after2 m c) t d
theorem before3 (c : Dev nD) (t : Fin cfg0.N) (d) : (dats m 0 c).before 3 t d = iblk m c 3 t :=
  before_in3_of m (dats m 0 c) (A_eq m c 3) (after3 m c) t d
theorem before4 (c : Dev nD) (t : Fin cfg0.N) (d) : (dats m 0 c).before 4 t d = iblk m c 4 t :=
  before_in4_of m (dats m 0 c) (A_eq m c 4) (after4 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d)))

def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4]
  rw [show (dats m 0 c).Φ t.succ = (dats m 0 c).Φ t.castSucc from rfl,
    show (dats m 0 c).owesAt () t.succ = (dats m 0 c).owesAt () t.castSucc from rfl,
    after0, after1, after2, after3, after4, after5]
  rw [show (dats m 0 c).Φ t.castSucc = Pipeline.ΦA spec0 c from rfl, PhiA_eq]
  unfold outAt
  iintro ⟨⟨⟨HS0, HS1, HS2, ⟨%dA, HS3⟩⟩, Hg⟩, Ho, ⟨%d0, H0⟩, ⟨%d1, H1⟩, ⟨%d2, H2⟩, ⟨%d3, H3⟩, ⟨%d4, H4⟩, ⟨%d5, H5⟩⟩
  iapply ((bodyRun c (grid0.coords t) _ _ _ _ _ _ _ _ _ _ _ _ _ _ _ _ _ _ _ _ (iblk m c 0 t) (iblk m c 1 t) (iblk m c 2 t) (iblk m c 3 t) (iblk m c 4 t) dA).2 Set.univ _)
  isplitl [H0]; · iexact H0
  isplitl [H1]; · iexact H1
  isplitl [H2]; · iexact H2
  isplitl [H3]; · iexact H3
  isplitl [H4]; · iexact H4
  isplitl [H5]; · iexists _; iexact H5
  isplitl [HS0]; · iexact HS0
  isplitl [HS1]; · iexact HS1
  isplitl [HS2]; · iexact HS2
  isplitl [HS3]; · iexact HS3
  iintro ⟨H0, H1, H2, H3, H4, ⟨%e5, H5⟩, HS0, HS1, HS2, HS3⟩
  isplitl [HS0 HS1 HS2 HS3 Hg]
  · isplitl [HS0 HS1 HS2 HS3]
    · isplitl [HS0]; · iexact HS0
      isplitl [HS1]; · iexact HS1
      isplitl [HS2]; · iexact HS2
      iexact HS3
    iexact Hg
  isplitl [Ho]; · iexact Ho
  isplitl [H0]; · iexact H0
  isplitl [H1]; · iexact H1
  isplitl [H2]; · iexact H2
  isplitl [H3]; · iexact H3
  isplitl [H4]; · iexact H4
  unfold owns; iexists _; isplitr
  swap; · iexact H5
  ipureintro
  exact (View.read_writes_of_cover _ _ _ _ _ (cover5 c _ _ _ _ _ _ _ _ _ _ _ _ _ _ _ _ _ _ _ _ _ _ _ _ _ _ dA)).trans (out5_indep c _ _ _ _ _ _ _ _ _ _ _ _ _ _ _ _ _ _ _ _ _ _ _ _ _ _ dA anyA)

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- Every weakly fair execution of @main ends, nothing faulting, the nine argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  frame_of m ρ (dats m) (A_eq m) (run_main m ρ)

end Cert.KernelIdeal.Region

end
-- ==== Proof.KernelIdeal.BodyValue.lean ====
/-
  What one run of the attention kernel's body leaves in the output block, as ONE term of the five input
  blocks. The head-pair loop stores, at trip k, the [1024, 128] column band k of the attention scratch:
  the two heads of the pair computed from band k of the query, key and value scratch. The six bands tile
  the scratch, so after the loop the scratch is one function of the three projections (column c belongs
  to band c / 128, at lane c mod 128), whatever it held before; the body then multiplies it by the
  output weights and adds the bias row. Stated at any float instance.
-/
import proofs.«139552_j89163521065781_2_alg».proof.Proof.KernelIdeal.Frame
import Idealize.ShloMosaic.Lib.Pipeline.Value
import Idealize.ShloMosaic.Lib.ValueIdx

set_option maxRecDepth 16384

noncomputable section

namespace Cert.KernelIdeal.Region

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.ValueIdx

theorem trips_eq : k0_t1_loop.trips = 6 := by decide

theorem hz1 : (![0] : Fin 1 → ℕ) = fun _ => 0 := by funext a; fin_cases a; rfl
theorem hz2 : (![0, 0] : Fin 2 → ℕ) = fun _ => 0 := by funext a; fin_cases a <;> rfl
theorem hz3 : (![0, 0, 0] : Fin 3 → ℕ) = fun _ => 0 := by funext a; fin_cases a <;> rfl

/-- The 128 columns [128k, 128k + 128) of a [1024, 768] array. -/
def band (Q : S1024x768.Idx → Elt F .bf16) (k : Fin k0_t1_loop.trips) : Vec F S1024x128 .bf16 :=
  View.ld Q (Rect.unit (k0_off1 k) S1024x128.size (k0_off1_inb k))

/-- One pair of heads: from the pair's query, key and value columns to its [1024, 128] attention columns. -/
def pairOut (q k v : Vec F S1024x128 .bf16) : FVec F S1024x128 .bf16 :=
  k0_pay9 (k0_pay2 q k v) (k0_pay3 v) (k0_pay4 q k)

/-- What trip k of the loop stores. -/
theorem tripL_eq (c : Dev nD) (i : grid0.Coords) (arg1 : Memref sig .tc .vmem S1x1024x768 .bf16) (harg1 : arg1.IsWhole) (arg2 : Memref sig .tc .vmem S768x2304 .bf16) (harg2 : arg2.IsWhole) (arg3 : Memref sig .tc .vmem S1x2304 .f32) (harg3 : arg3.IsWhole) (arg4 : Memref sig .tc .vmem S768x768 .bf16) (harg4 : arg4.IsWhole) (arg5 : Memref sig .tc .vmem S768 .f32) (harg5 : arg5.IsWhole) (arg6 : Memref sig .tc .vmem S1x1024x768 .f32) (harg6 : arg6.IsWhole) (arg7 : Memref sig .tc .vmem S1024x768 .bf16) (harg7 : arg7.IsWhole) (arg8 : Memref sig .tc .vmem S1024x768 .bf16) (harg8 : arg8.IsWhole) (arg9 : Memref sig .tc .vmem S1024x768 .bf16) (harg9 : arg9.IsWhole) (arg10 : Memref sig .tc .vmem S1024x768 .bf16) (harg10 : arg10.IsWhole)
    (X7 : BufTy.Contents (Elt F) arg7.view.ty) (X8 : BufTy.Contents (Elt F) arg8.view.ty) (X9 : BufTy.Contents (Elt F) arg9.view.ty) (k : Fin k0_t1_loop.trips) :
    tripL_k0_t1 (F := F) Variants.none c none i arg1 harg1 arg2 harg2 arg3 harg3 arg4 harg4 arg5 harg5 arg6 harg6 arg7 harg7 arg8 harg8 arg9 harg9 arg10 harg10 X7 X8 X9 k
      = [⟨Rect.unit (k0_off1 k) S1024x128.size (k0_off1_inb k),
          pairOut (band (arg7.view.read (Elt F) X7) k) (band (arg8.view.read (Elt F) X8) k) (band (arg9.view.read (Elt F) X9) k)⟩] := by
  unfold tripL_k0_t1 trip_k0_t1; rfl

/-- The band a column belongs to, and its lane in the band. -/
def bandOf (y : S1024x768.Idx) : Fin k0_t1_loop.trips :=
  ⟨(y 1).val / 128, by rw [trips_eq]; have h : (y 1).val < 768 := (y 1).isLt; omega⟩
def laneOfBand (y : S1024x768.Idx) : Fin 128 := ⟨(y 1).val % 128, Nat.mod_lt _ (by decide)⟩

/-- The attention scratch after the loop, as a function of the three projections. -/
def attnFn (Q K Vv : S1024x768.Idx → Elt F .bf16) (y : S1024x768.Idx) : Elt F .bf16 :=
  pairOut (band Q (bandOf y)) (band K (bandOf y)) (band Vv (bandOf y)) (ix2 (y 0 : Fin 1024) (laneOfBand y))

theorem piece_agree (Q K Vv : S1024x768.Idx → Elt F .bf16) (k : Fin k0_t1_loop.trips)
    (x : (Rect.unit (s := S1024x768) (k0_off1 k) S1024x128.size (k0_off1_inb k)).shape.Idx) :
    pairOut (band Q k) (band K k) (band Vv k) x
      = attnFn Q K Vv ((Rect.unit (s := S1024x768) (k0_off1 k) S1024x128.size (k0_off1_inb k)).emb x) := by
  have hx1 : (x 1).val < 128 := (x 1).isLt
  have hk : k.val < 6 := Nat.lt_of_lt_of_le k.isLt (le_of_eq trips_eq)
  have o0 : k0_off1 k 0 = 0 := congrFun (k0_off1_eq k) 0
  have o1 : k0_off1 k 1 = 128 * k.val := congrFun (k0_off1_eq k) 1
  have e1 : (((Rect.unit (s := S1024x768) (k0_off1 k) S1024x128.size (k0_off1_inb k)).emb x 1 : Fin _) : ℕ) = 128 * k.val + (x 1).val := by
    rw [Rect.emb_apply]; show (k0_off1 k) 1 + 1 * (x 1).val = _; omega
  have e0 : (((Rect.unit (s := S1024x768) (k0_off1 k) S1024x128.size (k0_off1_inb k)).emb x 0 : Fin _) : ℕ) = (x 0).val := by
    rw [Rect.emb_apply]; show (k0_off1 k) 0 + 1 * (x 0).val = _; omega
  have hb : bandOf ((Rect.unit (s := S1024x768) (k0_off1 k) S1024x128.size (k0_off1_inb k)).emb x) = k :=
    Fin.ext (by show (_ : ℕ) / 128 = k.val; rw [e1]; omega)
  have hl : laneOfBand ((Rect.unit (s := S1024x768) (k0_off1 k) S1024x128.size (k0_off1_inb k)).emb x) = x 1 :=
    Fin.ext (by show (_ : ℕ) % 128 = (x 1).val; rw [e1]; omega)
  have h0 : (((Rect.unit (s := S1024x768) (k0_off1 k) S1024x128.size (k0_off1_inb k)).emb x 0 : Fin _) : Fin 1024) = x 0 := Fin.ext e0
  unfold attnFn
  rw [hb, hl, h0]
  exact congrArg _ (eq_ix2 x)

/-- Every piece the loop's trips store is the restriction of the one function to its band. -/
theorem pb_agree (c : Dev nD) (i : grid0.Coords) (arg1 : Memref sig .tc .vmem S1x1024x768 .bf16) (harg1 : arg1.IsWhole) (arg2 : Memref sig .tc .vmem S768x2304 .bf16) (harg2 : arg2.IsWhole) (arg3 : Memref sig .tc .vmem S1x2304 .f32) (harg3 : arg3.IsWhole) (arg4 : Memref sig .tc .vmem S768x768 .bf16) (harg4 : arg4.IsWhole) (arg5 : Memref sig .tc .vmem S768 .f32) (harg5 : arg5.IsWhole) (arg6 : Memref sig .tc .vmem S1x1024x768 .f32) (harg6 : arg6.IsWhole) (arg7 : Memref sig .tc .vmem S1024x768 .bf16) (harg7 : arg7.IsWhole) (arg8 : Memref sig .tc .vmem S1024x768 .bf16) (harg8 : arg8.IsWhole) (arg9 : Memref sig .tc .vmem S1024x768 .bf16) (harg9 : arg9.IsWhole) (arg10 : Memref sig .tc .vmem S1024x768 .bf16) (harg10 : arg10.IsWhole)
    (X7 : BufTy.Contents (Elt F) arg7.view.ty) (X8 : BufTy.Contents (Elt F) arg8.view.ty) (X9 : BufTy.Contents (Elt F) arg9.view.ty) :
    ∀ n, ∀ p ∈ pb_k0_t1 (F := F) Variants.none c none i arg1 harg1 arg2 harg2 arg3 harg3 arg4 harg4 arg5 harg5 arg6 harg6 arg7 harg7 arg8 harg8 arg9 harg9 arg10 harg10 X7 X8 X9 n, ∀ x : p.1.shape.Idx,
      p.2 x = attnFn (arg7.view.read (Elt F) X7) (arg8.view.read (Elt F) X8) (arg9.view.read (Elt F) X9) (p.1.emb x)
  | 0 => by intro p hp; simp [pb_k0_t1] at hp
  | n + 1 => by
    intro p hp x
    by_cases h : n < k0_t1_loop.trips
    · rw [pb_k0_t1_succ Variants.none c none i arg1 harg1 arg2 harg2 arg3 harg3 arg4 harg4 arg5 harg5 arg6 harg6 arg7 harg7 arg8 harg8 arg9 harg9 arg10 harg10 X7 X8 X9 ⟨n, h⟩, tripL_eq] at hp
      rcases List.mem_cons.1 hp with rfl | hp'
      · exact piece_agree _ _ _ ⟨n, h⟩ x
      · exact pb_agree c i arg1 harg1 arg2 harg2 arg3 harg3 arg4 harg4 arg5 harg5 arg6 harg6 arg7 harg7 arg8 harg8 arg9 harg9 arg10 harg10 X7 X8 X9 n p hp' x
    · rw [pb_k0_t1.eq_2] at hp; unfold pb_k0_t1Step at hp; rw [dif_neg h] at hp
      exact pb_agree c i arg1 harg1 arg2 harg2 arg3 harg3 arg4 harg4 arg5 harg5 arg6 harg6 arg7 harg7 arg8 harg8 arg9 harg9 arg10 harg10 X7 X8 X9 n p hp x

/-- What the body loads back from the attention scratch after the loop. -/
theorem loaded_eq (c : Dev nD) (i : grid0.Coords) (arg1 : Memref sig .tc .vmem S1x1024x768 .bf16) (harg1 : arg1.IsWhole) (arg2 : Memref sig .tc .vmem S768x2304 .bf16) (harg2 : arg2.IsWhole) (arg3 : Memref sig .tc .vmem S1x2304 .f32) (harg3 : arg3.IsWhole) (arg4 : Memref sig .tc .vmem S768x768 .bf16) (harg4 : arg4.IsWhole) (arg5 : Memref sig .tc .vmem S768 .f32) (harg5 : arg5.IsWhole) (arg6 : Memref sig .tc .vmem S1x1024x768 .f32) (harg6 : arg6.IsWhole) (arg7 : Memref sig .tc .vmem S1024x768 .bf16) (harg7 : arg7.IsWhole) (arg8 : Memref sig .tc .vmem S1024x768 .bf16) (harg8 : arg8.IsWhole) (arg9 : Memref sig .tc .vmem S1024x768 .bf16) (harg9 : arg9.IsWhole) (arg10 : Memref sig .tc .vmem S1024x768 .bf16) (harg10 : arg10.IsWhole) (x0 : Vec F S1x1024x768 .bf16) (x1 : Vec F S768x2304 .bf16) (x2 : Vec F S1x2304 .f32) (xa : Vec F S1024x768 .bf16) :
    bodyRun.sl.v25 c i arg1 harg1 arg2 harg2 arg3 harg3 arg4 harg4 arg5 harg5 arg6 harg6 arg7 harg7 arg8 harg8 arg9 harg9 arg10 harg10 x0 x1 x2 xa
      = attnFn (k0_pay6 x0 x1 x2) (k0_pay7 x0 x1 x2) (k0_pay8 x0 x1 x2) := by
  unfold bodyRun.sl.v25
  rw [View.readAt_eq_ld, View.read_writes_eq_canon _ _ _ (bands_cover c i arg1 harg1 arg2 harg2 arg3 harg3 arg4 harg4 arg5 harg5 arg6 harg6 arg7 harg7 arg8 harg8 arg9 harg9 arg10 harg10 _ _ _), View.ld_unit_zero (S := S1024x768) hz2]
  funext y
  rw [View.canon_apply_of_pieces (attnFn _ _ _) _ (pb_agree c i arg1 harg1 arg2 harg2 arg3 harg3 arg4 harg4 arg5 harg5 arg6 harg6 arg7 harg7 arg8 harg8 arg9 harg9 arg10 harg10 _ _ _ _) y (bands_cover c i arg1 harg1 arg2 harg2 arg3 harg3 arg4 harg4 arg5 harg5 arg6 harg6 arg7 harg7 arg8 harg8 arg9 harg9 arg10 harg10 _ _ _ y)]
  unfold bodyRun.sl.HS0_1 bodyRun.sl.HS1_1 bodyRun.sl.HS2_1
  simp only [View.read_writes_junk_eq_canon, View.canon_unit_zero (S := S1024x768) hz2, View.readAt_eq_ld, harg1.read_unread, harg2.read_unread, harg3.read_unread,
    View.ld_unit_zero (S := S1x1024x768) hz3, View.ld_unit_zero (S := S768x2304) hz2, View.ld_unit_zero (S := S1x2304) hz2]

/-- The output block after one run of the body. -/
theorem out5_eq (c : Dev nD) (i : grid0.Coords) (arg1 : Memref sig .tc .vmem S1x1024x768 .bf16) (harg1 : arg1.IsWhole) (arg2 : Memref sig .tc .vmem S768x2304 .bf16) (harg2 : arg2.IsWhole) (arg3 : Memref sig .tc .vmem S1x2304 .f32) (harg3 : arg3.IsWhole) (arg4 : Memref sig .tc .vmem S768x768 .bf16) (harg4 : arg4.IsWhole) (arg5 : Memref sig .tc .vmem S768 .f32) (harg5 : arg5.IsWhole) (arg6 : Memref sig .tc .vmem S1x1024x768 .f32) (harg6 : arg6.IsWhole) (arg7 : Memref sig .tc .vmem S1024x768 .bf16) (harg7 : arg7.IsWhole) (arg8 : Memref sig .tc .vmem S1024x768 .bf16) (harg8 : arg8.IsWhole) (arg9 : Memref sig .tc .vmem S1024x768 .bf16) (harg9 : arg9.IsWhole) (arg10 : Memref sig .tc .vmem S1024x768 .bf16) (harg10 : arg10.IsWhole) (x0 : Vec F S1x1024x768 .bf16) (x1 : Vec F S768x2304 .bf16) (x2 : Vec F S1x2304 .f32) (x3 : Vec F S768x768 .bf16) (x4 : Vec F S768 .f32) (xa : Vec F S1024x768 .bf16) :
    out5 c i arg1 harg1 arg2 harg2 arg3 harg3 arg4 harg4 arg5 harg5 arg6 harg6 arg7 harg7 arg8 harg8 arg9 harg9 arg10 harg10 x0 x1 x2 x3 x4 xa
      = k0_pay1 (k0_pay10 (attnFn (k0_pay6 x0 x1 x2) (k0_pay7 x0 x1 x2) (k0_pay8 x0 x1 x2)) x3) (k0_pay11 x4) := by
  unfold out5
  rw [pieces_eq, View.read_writes_junk_eq_canon, View.canon_unit_zero (S := S1x1024x768) hz3]
  unfold bodyRun.sl.r bodyRun.sl.r_1
  rw [loaded_eq]
  simp only [View.readAt_eq_ld, harg4.read_unread, harg5.read_unread, View.ld_unit_zero (S := S768x768) hz2, View.ld_unit_zero (S := S768) hz1]

end Cert.KernelIdeal.Region

end
-- ==== Proof.Spec.lean ====
/-
  Multi-head attention as one function of the nine argument arrays, on the extended reals.
  For a batch row x : [1024, 768] and head h (twelve heads of width 64):
    q h s d = (sum over e of Wq h d e * x s e) + bq h d          (likewise k, v)
    sc s t  = (sum over d of q s d * k t d) * 1/8                 (1/8 = 1/sqrt 64, the word 0x3E000000)
    w s t   = exp (sc s t - max over t' of sc s t') / sum over t' of exp (sc s t' - max ...)
    a s d   = sum over t of w s t * v t d
    out s f = (sum over e of a_(e / 64) s (e mod 64) * Wo f e) + bo f.
  The row maximum is the fold of max from minus infinity, the quotient the instance's total division.
-/
import Idealize.ShloMosaic.PureOps.Ideal
import Idealize.ShloMosaic.PureOps.Ideal.Laws

noncomputable section

namespace Cert.Attention

open Idealize.ShloMosaic

/-- The head an embedding column belongs to, and its lane inside the head. -/
def headOf (e : Fin 768) : Fin 12 := ⟨e.val / 64, by have := e.isLt; omega⟩
def laneOf (e : Fin 768) : Fin 64 := ⟨e.val % 64, Nat.mod_lt _ (by decide)⟩

/-- One head's linear projection of a batch row. -/
def proj (W : Fin 12 → Fin 64 → Fin 768 → EReal) (b : Fin 12 → Fin 64 → EReal) (x : Fin 1024 → Fin 768 → EReal)
    (h : Fin 12) (s : Fin 1024) (d : Fin 64) : EReal :=
  (∑ e : Fin 768, W h d e * x s e) + b h d

/-- A row's maximum, folded from minus infinity. -/
def rowMax (r : Fin 1024 → EReal) : EReal :=
  (Finset.univ : Finset (Fin 1024)).fold max (Ideal.ofBits .f32 0xFF800000#32) r

/-- The softmax of a score matrix along its rows. -/
def softmax (sc : Fin 1024 → Fin 1024 → EReal) (s t : Fin 1024) : EReal :=
  Ideal.div (Ideal.exp (sc s t - rowMax (sc s))) (∑ t' : Fin 1024, Ideal.exp (sc s t' - rowMax (sc s)))

/-- Scaled dot-product scores of one head. -/
def scores (q k : Fin 1024 → Fin 64 → EReal) (s t : Fin 1024) : EReal :=
  (∑ d : Fin 64, q s d * k t d) * Ideal.ofBits .f32 0x3E000000#32

/-- One head's attention output. -/
def attend (q k v : Fin 1024 → Fin 64 → EReal) (s : Fin 1024) (d : Fin 64) : EReal :=
  ∑ t : Fin 1024, softmax (scores q k) s t * v t d

/-- The attention rows of one batch row, heads side by side: column e is lane (e mod 64) of head (e / 64). -/
def heads (Wq : Fin 12 → Fin 64 → Fin 768 → EReal) (bq : Fin 12 → Fin 64 → EReal)
    (Wk : Fin 12 → Fin 64 → Fin 768 → EReal) (bk : Fin 12 → Fin 64 → EReal)
    (Wv : Fin 12 → Fin 64 → Fin 768 → EReal) (bv : Fin 12 → Fin 64 → EReal)
    (x : Fin 1024 → Fin 768 → EReal) (s : Fin 1024) (e : Fin 768) : EReal :=
  attend (proj Wq bq x (headOf e)) (proj Wk bk x (headOf e)) (proj Wv bv x (headOf e)) s (laneOf e)

/-- The whole layer. -/
def out (x : Fin 8 → Fin 1024 → Fin 768 → EReal)
    (Wq : Fin 12 → Fin 64 → Fin 768 → EReal) (bq : Fin 12 → Fin 64 → EReal)
    (Wk : Fin 12 → Fin 64 → Fin 768 → EReal) (bk : Fin 12 → Fin 64 → EReal)
    (Wv : Fin 12 → Fin 64 → Fin 768 → EReal) (bv : Fin 12 → Fin 64 → EReal)
    (Wo : Fin 768 → Fin 768 → EReal) (bo : Fin 768 → EReal)
    (b : Fin 8) (s : Fin 1024) (f : Fin 768) : EReal :=
  (∑ e : Fin 768, heads Wq bq Wk bk Wv bv (x b) s e * Wo f e) + bo f

end Cert.Attention

end
-- ==== Proof.KernelIdeal.HostArrays.lean ====
/-
  What the host operations before the region leave in the four arrays the kernel's windows stage, read at an
  index on the extended reals (a change of float format is the identity there): the input re-typed; the three
  per-head weight stacks flattened to [768, 768], transposed and set side by side as [768, 2304]; the three
  biases flattened and set end to end as [1, 2304]; the output weights transposed.
-/
import proofs.«139552_j89163521065781_2_alg».proof.Proof.KernelIdeal.Entry
import proofs.«139552_j89163521065781_2_alg».proof.Proof.Spec
import Idealize.ShloMosaic.Lib.ValueIdx
import Idealize.ShloMosaic.Lib.ValueLayout
import Idealize.ShloMosaic.Lib.Pipeline.Value
import Idealize.ShloMosaic.Lib.StableHlo.Run

set_option maxRecDepth 16384

noncomputable section

namespace Cert.KernelIdeal.Region

open Cert.KernelIdeal Cert.KernelIdeal.Gen Cert.Attention
open Idealize.ShloMosaic Idealize.ShloMosaic.TcCoe Idealize.ShloMosaic.ValueIdx Idealize.SL.Sem

variable (m : (ℓ : Loc nD τ sig) → Buf (Elt Ideal) ℓ) (c : Dev nD)

/-! ## Reading a line of host operations with three-operand operations -/

section
variable {τ' : Topo} {sig' : RefSig} {Val : EltTy → Type}
/-- An operation of three operands, given as a literal family: its result with each operand's contents at its own buffer. -/
theorem nary3_result {x a b y : Ref sig' .tc}
    (f : ((k : Fin 3) → ((![x, a, b] : Fin 3 → Ref sig' .tc) k).ty.Contents Val) → y.ty.Contents Val) (hxs hy)
    (G : Valuation τ' sig' Val) :
    (StableHlo.nary (τ := τ') ![x, a, b] y f hxs hy).result G (Proc.devRef .tc y)
      = f (Fin.cons (G (Proc.devRef .tc x)) (Fin.cons (G (Proc.devRef .tc a)) (Fin.cons (G (Proc.devRef .tc b)) (fun i => i.elim0)))) := by
  rw [StableHlo.nary_result]; congr 1; funext k; fin_cases k <;> rfl
end

/-- The contents of one buffer after a line of host operations, three-operand operations included: each operation's
    result at its own buffer is its function's value, at any other buffer what was there. -/
macro "after_results3" : tactic =>
  `(tactic| (simp only [StableHlo.after_cons, StableHlo.after_nil]
             repeat (first
               | rw [nary3_result]
               | rw [StableHlo.unary_result] | rw [StableHlo.reshape_result]
               | (rw [StableHlo.unary_result_ne]; rotate_left; decide)
               | (rw [StableHlo.reshape_result_ne]; rotate_left; decide)
               | (rw [StableHlo.nary_result_ne]; rotate_left; decide))))

/-! ## The pieces read at an index -/

/-- One projection-weight piece: the per-head stack flattened to [768, 768] and transposed reads, at (e, n), the
    stack at head n / 64, lane n % 64, input coordinate e. -/
theorem wpiece_apply (W : Vec Ideal S12x64x768 .f32) (e n : Fin 768) :
    (truncf (F := Ideal) .bf16 (transpose S768x768 [1, 0] (shapeCast S768x768 W shapeCasts_S12x64x768_S768x768) transposes_S768x768_S768x768_1_0) bitsLt_bf16_f32 : S768x768.Idx → EReal) (ix2 e n)
      = (W : S12x64x768.Idx → EReal) (ix3 (headOf n) (laneOf n) e) := by
  rw [truncf_apply]
  refine (transpose_ix2_apply (a := 768) (b := 768) _ _ e n).trans ?_
  refine shapeCast_apply _ _ _ _ ?_
  rw [Shape.rowMajor_val_three, Shape.rowMajor_val_two]
  show (((headOf n).val * 64 + (laneOf n).val) * 768 + e.val) = n.val * 768 + e.val
  unfold headOf laneOf
  have := n.isLt
  show ((n.val / 64 * 64 + n.val % 64) * 768 + e.val) = n.val * 768 + e.val
  omega

/-! Three [768, 768] pieces side by side: columns [0, 768) are the first, [768, 1536) the second, [1536, 2304) the
    third; likewise three [768] pieces end to end. -/

theorem cat3_cols_0 (A B C : S768x768.Idx → EReal) (e : Fin 768) (n : Fin 768) (j : Fin 2304) (hj : j.val = n.val) :
    concatenate S768x2304 1 [⟨S768x768, A⟩, ⟨S768x768, B⟩, ⟨S768x768, C⟩] concatenates_S768x768_S768x768_S768x768_S768x2304_d1 (ix2 e j)
      = A (ix2 e n) := by
  refine concatenate_apply_piece (1 : Fin 2) [⟨S768x768, A⟩, ⟨S768x768, B⟩, ⟨S768x768, C⟩] _ (ix2 e j) 0 (by simp) S768x768 A rfl rfl 0 rfl (ix2 e n) ?_ ?_
  · intro b hb
    match b, hb with
    | ⟨0, _⟩, _ => rfl
    | ⟨1, _⟩, hb => exact absurd rfl hb
  · show 0 + n.val = j.val
    omega
theorem cat3_cols_1 (A B C : S768x768.Idx → EReal) (e : Fin 768) (n : Fin 768) (j : Fin 2304) (hj : j.val = 768 + n.val) :
    concatenate S768x2304 1 [⟨S768x768, A⟩, ⟨S768x768, B⟩, ⟨S768x768, C⟩] concatenates_S768x768_S768x768_S768x768_S768x2304_d1 (ix2 e j)
      = B (ix2 e n) := by
  refine concatenate_apply_piece (1 : Fin 2) [⟨S768x768, A⟩, ⟨S768x768, B⟩, ⟨S768x768, C⟩] _ (ix2 e j) 1 (by simp) S768x768 B rfl rfl 768 rfl (ix2 e n) ?_ ?_
  · intro b hb
    match b, hb with
    | ⟨0, _⟩, _ => rfl
    | ⟨1, _⟩, hb => exact absurd rfl hb
  · show 768 + n.val = j.val
    omega
theorem cat3_cols_2 (A B C : S768x768.Idx → EReal) (e : Fin 768) (n : Fin 768) (j : Fin 2304) (hj : j.val = 1536 + n.val) :
    concatenate S768x2304 1 [⟨S768x768, A⟩, ⟨S768x768, B⟩, ⟨S768x768, C⟩] concatenates_S768x768_S768x768_S768x768_S768x2304_d1 (ix2 e j)
      = C (ix2 e n) := by
  refine concatenate_apply_piece (1 : Fin 2) [⟨S768x768, A⟩, ⟨S768x768, B⟩, ⟨S768x768, C⟩] _ (ix2 e j) 2 (by simp) S768x768 C rfl rfl 1536 rfl (ix2 e n) ?_ ?_
  · intro b hb
    match b, hb with
    | ⟨0, _⟩, _ => rfl
    | ⟨1, _⟩, hb => exact absurd rfl hb
  · show 1536 + n.val = j.val
    omega

theorem cat3_vec_0 (A B C : S768.Idx → EReal) (n : Fin 768) (j : Fin 2304) (hj : j.val = n.val) :
    concatenate S2304 0 [⟨S768, A⟩, ⟨S768, B⟩, ⟨S768, C⟩] concatenates_S768_S768_S768_S2304_d0 (ix1 j)
      = A (ix1 n) := by
  refine concatenate_apply_piece (0 : Fin 1) [⟨S768, A⟩, ⟨S768, B⟩, ⟨S768, C⟩] _ (ix1 j) 0 (by simp) S768 A rfl rfl 0 rfl (ix1 n) ?_ ?_
  · intro b hb
    match b, hb with
    | ⟨0, _⟩, hb => exact absurd rfl hb
  · show 0 + n.val = j.val
    omega
theorem cat3_vec_1 (A B C : S768.Idx → EReal) (n : Fin 768) (j : Fin 2304) (hj : j.val = 768 + n.val) :
    concatenate S2304 0 [⟨S768, A⟩, ⟨S768, B⟩, ⟨S768, C⟩] concatenates_S768_S768_S768_S2304_d0 (ix1 j)
      = B (ix1 n) := by
  refine concatenate_apply_piece (0 : Fin 1) [⟨S768, A⟩, ⟨S768, B⟩, ⟨S768, C⟩] _ (ix1 j) 1 (by simp) S768 B rfl rfl 768 rfl (ix1 n) ?_ ?_
  · intro b hb
    match b, hb with
    | ⟨0, _⟩, hb => exact absurd rfl hb
  · show 768 + n.val = j.val
    omega
theorem cat3_vec_2 (A B C : S768.Idx → EReal) (n : Fin 768) (j : Fin 2304) (hj : j.val = 1536 + n.val) :
    concatenate S2304 0 [⟨S768, A⟩, ⟨S768, B⟩, ⟨S768, C⟩] concatenates_S768_S768_S768_S2304_d0 (ix1 j)
      = C (ix1 n) := by
  refine concatenate_apply_piece (0 : Fin 1) [⟨S768, A⟩, ⟨S768, B⟩, ⟨S768, C⟩] _ (ix1 j) 2 (by simp) S768 C rfl rfl 1536 rfl (ix1 n) ?_ ?_
  · intro b hb
    match b, hb with
    | ⟨0, _⟩, hb => exact absurd rfl hb
  · show 1536 + n.val = j.val
    omega

/-- One bias piece: the per-head stack flattened to [768] reads, at n, the stack at head n / 64, lane n % 64. -/
theorem bpiece_apply (B : Vec Ideal S12x64 .f32) (n : Fin 768) :
    (shapeCast S768 B shapeCasts_S12x64_S768 : S768.Idx → EReal) (ix1 n) = (B : S12x64.Idx → EReal) (ix2 (headOf n) (laneOf n)) := by
  refine shapeCast_apply _ _ _ _ ?_
  rw [Shape.rowMajor_val_two, Shape.rowMajor_val_one]
  show (headOf n).val * 64 + (laneOf n).val = n.val
  unfold headOf laneOf
  show n.val / 64 * 64 + n.val % 64 = n.val
  omega

theorem row_apply (X : S2304.Idx → EReal) (j : Fin 2304) :
    shapeCast S1x2304 X shapeCasts_S2304_S1x2304 (ix2 0 j) = X (ix1 j) :=
  shapeCast_a_1a_apply (a := 2304) X _ 0 j

/-! ## The four arrays as terms over the launch memory -/

theorem V9_eq :
    (V (F := Ideal) m c main_v9 : S768x2304.Idx → EReal) = concatenate S768x2304 1
      [⟨S768x768, (truncf (F := Ideal) .bf16 (transpose S768x768 [1, 0] (shapeCast S768x768 ((m ((c : Thread nD τ).loc main_arg1)) : Vec Ideal S12x64x768 .f32) shapeCasts_S12x64x768_S768x768) transposes_S768x768_S768x768_1_0) bitsLt_bf16_f32 : S768x768.Idx → EReal)⟩,
       ⟨S768x768, (truncf (F := Ideal) .bf16 (transpose S768x768 [1, 0] (shapeCast S768x768 ((m ((c : Thread nD τ).loc main_arg3)) : Vec Ideal S12x64x768 .f32) shapeCasts_S12x64x768_S768x768) transposes_S768x768_S768x768_1_0) bitsLt_bf16_f32 : S768x768.Idx → EReal)⟩,
       ⟨S768x768, (truncf (F := Ideal) .bf16 (transpose S768x768 [1, 0] (shapeCast S768x768 ((m ((c : Thread nD τ).loc main_arg5)) : Vec Ideal S12x64x768 .f32) shapeCasts_S12x64x768_S768x768) transposes_S768x768_S768x768_1_0) bitsLt_bf16_f32 : S768x768.Idx → EReal)⟩]
      concatenates_S768x768_S768x768_S768x768_S768x2304_d1 := by
  dsimp only [V, Gen.hostOps0]
  after_results3
  rfl

theorem V14_eq :
    (V (F := Ideal) m c main_v14 : S1x2304.Idx → EReal) = shapeCast S1x2304 (concatenate S2304 0
      [⟨S768, (shapeCast S768 ((m ((c : Thread nD τ).loc main_arg2)) : Vec Ideal S12x64 .f32) shapeCasts_S12x64_S768 : S768.Idx → EReal)⟩,
       ⟨S768, (shapeCast S768 ((m ((c : Thread nD τ).loc main_arg4)) : Vec Ideal S12x64 .f32) shapeCasts_S12x64_S768 : S768.Idx → EReal)⟩,
       ⟨S768, (shapeCast S768 ((m ((c : Thread nD τ).loc main_arg6)) : Vec Ideal S12x64 .f32) shapeCasts_S12x64_S768 : S768.Idx → EReal)⟩]
      concatenates_S768_S768_S768_S2304_d0) shapeCasts_S2304_S1x2304 := by
  dsimp only [V, Gen.hostOps0]
  after_results3
  rfl

/-! ## The arrays read at an index -/

theorem V_x (b : Fin 8) (s : Fin 1024) (e : Fin 768) :
    (V (F := Ideal) m c main_v17 : S8x1024x768.Idx → EReal) (ix3 b s e) = ((m ((c : Thread nD τ).loc main_arg0)) : S8x1024x768.Idx → EReal) (ix3 b s e) := by
  have e1 : (V (F := Ideal) m c main_v17 : S8x1024x768.Idx → EReal) = (truncf (F := Ideal) .bf16 ((m ((c : Thread nD τ).loc main_arg0)) : Vec Ideal S8x1024x768 .f32) bitsLt_bf16_f32 : S8x1024x768.Idx → EReal) := by
    dsimp only [V, Gen.hostOps0]; after_results
  rw [e1, truncf_apply]

theorem V_wq (e : Fin 768) (n : Fin 768) :
    (V (F := Ideal) m c main_v9 : S768x2304.Idx → EReal) (ix2 e ⟨n.val, by omega⟩) = ((m ((c : Thread nD τ).loc main_arg1)) : S12x64x768.Idx → EReal) (ix3 (headOf n) (laneOf n) e) := by
  rw [V9_eq, cat3_cols_0 _ _ _ e n _ rfl, wpiece_apply]
theorem V_wk (e : Fin 768) (n : Fin 768) :
    (V (F := Ideal) m c main_v9 : S768x2304.Idx → EReal) (ix2 e ⟨768 + n.val, by omega⟩) = ((m ((c : Thread nD τ).loc main_arg3)) : S12x64x768.Idx → EReal) (ix3 (headOf n) (laneOf n) e) := by
  rw [V9_eq, cat3_cols_1 _ _ _ e n _ rfl, wpiece_apply]
theorem V_wv (e : Fin 768) (n : Fin 768) :
    (V (F := Ideal) m c main_v9 : S768x2304.Idx → EReal) (ix2 e ⟨1536 + n.val, by omega⟩) = ((m ((c : Thread nD τ).loc main_arg5)) : S12x64x768.Idx → EReal) (ix3 (headOf n) (laneOf n) e) := by
  rw [V9_eq, cat3_cols_2 _ _ _ e n _ rfl, wpiece_apply]

theorem V_bq (n : Fin 768) :
    (V (F := Ideal) m c main_v14 : S1x2304.Idx → EReal) (ix2 0 ⟨n.val, by omega⟩) = ((m ((c : Thread nD τ).loc main_arg2)) : S12x64.Idx → EReal) (ix2 (headOf n) (laneOf n)) := by
  rw [V14_eq, row_apply, cat3_vec_0 _ _ _ n _ rfl, bpiece_apply]
theorem V_bk (n : Fin 768) :
    (V (F := Ideal) m c main_v14 : S1x2304.Idx → EReal) (ix2 0 ⟨768 + n.val, by omega⟩) = ((m ((c : Thread nD τ).loc main_arg4)) : S12x64.Idx → EReal) (ix2 (headOf n) (laneOf n)) := by
  rw [V14_eq, row_apply, cat3_vec_1 _ _ _ n _ rfl, bpiece_apply]
theorem V_bv (n : Fin 768) :
    (V (F := Ideal) m c main_v14 : S1x2304.Idx → EReal) (ix2 0 ⟨1536 + n.val, by omega⟩) = ((m ((c : Thread nD τ).loc main_arg6)) : S12x64.Idx → EReal) (ix2 (headOf n) (laneOf n)) := by
  rw [V14_eq, row_apply, cat3_vec_2 _ _ _ n _ rfl, bpiece_apply]

theorem V_wo (e f : Fin 768) :
    (V (F := Ideal) m c main_v16 : S768x768.Idx → EReal) (ix2 e f) = ((m ((c : Thread nD τ).loc main_arg7)) : S768x768.Idx → EReal) (ix2 f e) := by
  have e1 : (V (F := Ideal) m c main_v16 : S768x768.Idx → EReal) = (truncf (F := Ideal) .bf16 (transpose S768x768 [1, 0] ((m ((c : Thread nD τ).loc main_arg7)) : Vec Ideal S768x768 .f32) transposes_S768x768_S768x768_1_0) bitsLt_bf16_f32 : S768x768.Idx → EReal) := by
    dsimp only [V, Gen.hostOps0]; after_results
  rw [e1, truncf_apply]
  exact transpose_ix2_apply (a := 768) (b := 768) _ _ e f

end Cert.KernelIdeal.Region

end
-- ==== Proof.KernelIdeal.Blocks.lean ====
/-
  The blocks the attention kernel's windows hand the body at grid point t, read at an index on the
  extended reals: batch row t of the input; the whole stacked weights, stacked bias, transposed output
  weights and output bias (their block index never moves); and where an element of the output block sits
  in the result array (batch row t).
-/
import proofs.«139552_j89163521065781_2_alg».proof.Proof.KernelIdeal.BodyValue
import proofs.«139552_j89163521065781_2_alg».proof.Proof.KernelIdeal.HostArrays

set_option maxRecDepth 16384

noncomputable section

namespace Cert.KernelIdeal.Region

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ) (c : Dev nD)

open Idealize.ShloMosaic.ValueIdx Cert.Attention

/-- The grid point as a batch row. -/
def pt (t : Fin cfg0.N) : Fin 8 := ⟨t.val, Nat.lt_of_lt_of_le t.isLt (le_of_eq N_0)⟩

/-- The nine argument arrays as the specification takes them. -/
def aX : Fin 8 → Fin 1024 → Fin 768 → EReal := fun b s e => ((m ((c : Thread nD τ).loc main_arg0)) : S8x1024x768.Idx → EReal) (ix3 b s e)
def aWq : Fin 12 → Fin 64 → Fin 768 → EReal := fun h d e => ((m ((c : Thread nD τ).loc main_arg1)) : S12x64x768.Idx → EReal) (ix3 h d e)
def abq : Fin 12 → Fin 64 → EReal := fun h d => ((m ((c : Thread nD τ).loc main_arg2)) : S12x64.Idx → EReal) (ix2 h d)
def aWk : Fin 12 → Fin 64 → Fin 768 → EReal := fun h d e => ((m ((c : Thread nD τ).loc main_arg3)) : S12x64x768.Idx → EReal) (ix3 h d e)
def abk : Fin 12 → Fin 64 → EReal := fun h d => ((m ((c : Thread nD τ).loc main_arg4)) : S12x64.Idx → EReal) (ix2 h d)
def aWv : Fin 12 → Fin 64 → Fin 768 → EReal := fun h d e => ((m ((c : Thread nD τ).loc main_arg5)) : S12x64x768.Idx → EReal) (ix3 h d e)
def abv : Fin 12 → Fin 64 → EReal := fun h d => ((m ((c : Thread nD τ).loc main_arg6)) : S12x64.Idx → EReal) (ix2 h d)
def aWo : Fin 768 → Fin 768 → EReal := fun f e => ((m ((c : Thread nD τ).loc main_arg7)) : S768x768.Idx → EReal) (ix2 f e)
def abo : Fin 768 → EReal := fun f => ((m ((c : Thread nD τ).loc main_arg8)) : S768.Idx → EReal) (ix1 f)

/-- The printed index maps, decided over the grid: the input and output windows move along the batch axis,
    the other four stay put. -/
theorem idx_facts : ∀ t : Fin cfg0.N, win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 1) = 0
    ∧ win0_5.index t (0 : Fin 3) = t.val ∧ win0_5.index t (1 : Fin 3) = 0 ∧ win0_5.index t (2 : Fin 3) = 0 :=
  (by decide +kernel : ∀ t : Fin grid0.N, _)

theorem blk0_apply (t : Fin cfg0.N) (s : Fin 1024) (e : Fin 768) :
    iblk (F := Ideal) m c 0 t (ix3 (0 : Fin 1) s e) = aX m c (pt t) s e := by
  obtain ⟨e0, e1, e2, -⟩ := idx_facts t
  show V (F := Ideal) m c main_v17 (((cfg0.win 0).blk t).view.emb (ix3 (0 : Fin 1) s e)) = _
  have h : ((cfg0.win 0).blk t).view.emb (ix3 (0 : Fin 1) s e) = ix3 (pt t) s e := by
    funext a; apply Fin.ext
    match a with
    | ⟨0, _⟩ => show win0_0.index t (0 : Fin 3) * 1 + 1 * 0 = t.val; omega
    | ⟨1, _⟩ => show win0_0.index t (1 : Fin 3) * 1024 + 1 * s.val = s.val; omega
    | ⟨2, _⟩ => show win0_0.index t (2 : Fin 3) * 768 + 1 * e.val = e.val; omega
  rw [h, V_x]; rfl

theorem blk1_apply (t : Fin cfg0.N) (e : Fin 768) (n : Fin 2304) :
    iblk (F := Ideal) m c 1 t (ix2 e n) = (V (F := Ideal) m c main_v9 : S768x2304.Idx → EReal) (ix2 e n) := by
  obtain ⟨-, -, -, e0, e1, -⟩ := idx_facts t
  show V (F := Ideal) m c main_v9 (((cfg0.win 1).blk t).view.emb (ix2 e n)) = _
  have h : ((cfg0.win 1).blk t).view.emb (ix2 e n) = ix2 e n := by
    funext a; apply Fin.ext
    match a with
    | ⟨0, _⟩ => show win0_1.index t (0 : Fin 2) * 768 + 1 * e.val = e.val; omega
    | ⟨1, _⟩ => show win0_1.index t (1 : Fin 2) * 2304 + 1 * n.val = n.val; omega
  rw [h]

theorem blk2_apply (t : Fin cfg0.N) (n : Fin 2304) :
    iblk (F := Ideal) m c 2 t (ix2 (0 : Fin 1) n) = (V (F := Ideal) m c main_v14 : S1x2304.Idx → EReal) (ix2 (0 : Fin 1) n) := by
  obtain ⟨-, -, -, -, -, e0, e1, -⟩ := idx_facts t
  show V (F := Ideal) m c main_v14 (((cfg0.win 2).blk t).view.emb (ix2 (0 : Fin 1) n)) = _
  have h : ((cfg0.win 2).blk t).view.emb (ix2 (0 : Fin 1) n) = ix2 (0 : Fin 1) n := by
    funext a; apply Fin.ext
    match a with
    | ⟨0, _⟩ => show win0_2.index t (0 : Fin 2) * 1 + 1 * 0 = 0; omega
    | ⟨1, _⟩ => show win0_2.index t (1 : Fin 2) * 2304 + 1 * n.val = n.val; omega
  rw [h]

theorem blk3_apply (t : Fin cfg0.N) (e f : Fin 768) :
    iblk (F := Ideal) m c 3 t (ix2 e f) = aWo m c f e := by
  obtain ⟨-, -, -, -, -, -, -, e0, e1, -⟩ := idx_facts t
  show V (F := Ideal) m c main_v16 (((cfg0.win 3).blk t).view.emb (ix2 e f)) = _
  have h : ((cfg0.win 3).blk t).view.emb (ix2 e f) = ix2 e f := by
    funext a; apply Fin.ext
    match a with
    | ⟨0, _⟩ => show win0_3.index t (0 : Fin 2) * 768 + 1 * e.val = e.val; omega
    | ⟨1, _⟩ => show win0_3.index t (1 : Fin 2) * 768 + 1 * f.val = f.val; omega
  rw [h, V_wo]; rfl

theorem blk4_apply (t : Fin cfg0.N) (f : Fin 768) :
    iblk (F := Ideal) m c 4 t (ix1 f) = abo m c f := by
  obtain ⟨-, -, -, -, -, -, -, -, -, e0, -⟩ := idx_facts t
  show V (F := Ideal) m c main_arg8 (((cfg0.win 4).blk t).view.emb (ix1 f)) = _
  have h : ((cfg0.win 4).blk t).view.emb (ix1 f) = ix1 f := by
    funext a; apply Fin.ext
    match a with
    | ⟨0, _⟩ => show win0_4.index t (0 : Fin 1) * 768 + 1 * f.val = f.val; omega
  rw [h, V_main_arg8]; rfl

/-- An element of the output block at point t sits in batch row t of the result. -/
theorem blk5_emb (t : Fin cfg0.N) (s : Fin 1024) (f : Fin 768) :
    ((cfg0.win 5).blk t).view.emb (ix3 (0 : Fin 1) s f) = ix3 (pt t) s f := by
  obtain ⟨-, -, -, -, -, -, -, -, -, -, e0, e1, e2⟩ := idx_facts t
  funext a; apply Fin.ext
  match a with
  | ⟨0, _⟩ => show win0_5.index t (0 : Fin 3) * 1 + 1 * 0 = t.val; omega
  | ⟨1, _⟩ => show win0_5.index t (1 : Fin 3) * 1024 + 1 * s.val = s.val; omega
  | ⟨2, _⟩ => show win0_5.index t (2 : Fin 3) * 768 + 1 * f.val = f.val; omega

end Cert.KernelIdeal.Region

end
-- ==== Proof.LibColumn.lean ====
/-
  General lemmas about rank-2 vectors, at any extents.

  * Keepdims column forms: an `[a]` vector cast to `[a, 1]` reads, at `(p, u)`, the vector at `p`; an `[a, 1]`
    column broadcast to `[a, b]` reads, at `(p, q)`, the column at `(p, 0)`.
  * Inserting coordinate `k` on the reduced second axis of an `[a, b]` vector at reduced index `p` gives `(p, k)`.
-/
import Idealize.ShloMosaic.Lib.Pipeline.Value
import Idealize.ShloMosaic.Lib.ValueIdx
import Idealize.ShloMosaic.Lib.ValueLayout
import Idealize.ShloMosaic.PureOps.Ideal.Laws

noncomputable section

namespace Cert.LibColumn

open Idealize.ShloMosaic Idealize.ShloMosaic.ValueIdx

variable {α : Type}

/-- An `[a]` vector cast to a column `[a, 1]` reads, at `(p, u)`, the vector at `p`, whatever the unit coordinate. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column `[a, 1]` broadcast to `[a, b]` reads, at `(p, q)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- Reducing the second axis of `[a, b]` to `[a]`: the reduced index `p` with coordinate `k` put back is `(p, k)`. -/
theorem lift_row {a b : ℕ} (h : (⟨2, ![a, b]⟩ : Shape).Reduces [1] ⟨1, ![a]⟩) (p : Fin a) (k : Fin b) :
    h.lift (ix1 p) k = ix2 p k :=
  funext fun ax => Fin.ext (by
    match ax with
    | ⟨0, _⟩ => rfl
    | ⟨1, _⟩ => rfl)

end Cert.LibColumn

end
-- ==== Proof.LibDot.lean ====
/-
  A matrix product with one contracted axis, read at an index as a sum over the contracted extent.
  For dimension numbers that contract the left operand's axis 1 with the right operand's axis 0, with no batch
  axes — the plain product of an [M, K] matrix with a [K, N] matrix — the operand indices at result index (p, q) and
  contraction index k are (p, k) and (k, q); so the sum over the contraction shape is the sum over k < K of
  lhs (p, k) · rhs (k, q). Both a kernel's accumulating product into a zero accumulator and the host's product
  without an accumulator are that sum at the extended reals.
-/
import Idealize.ShloMosaic.Lib.ValueIdx
import Idealize.ShloMosaic.PureOps.Ideal.Laws
import Idealize.ShloMosaic.Lib.KernelVsHost

noncomputable section

namespace Idealize.ShloMosaic.LibDot

open Idealize.ShloMosaic Idealize.ShloMosaic.ValueIdx

variable {sl sr so : Shape} (d : DotDims sl sr so)

/-- A non-contracting, non-batch axis of the left operand reads the result index at its position. -/
theorem lhsIdx_val_of_non {a : Fin sl.rank} (hb : a ∉ d.lhsBatch) (hn : a ∈ d.lhsNonContracting)
    (j : so.Idx) (k : d.contr.Idx) (p : Nat) (hp : p < so.rank) (hpe : d.lhsBatch.length + d.lhsNonContracting.idxOf a = p) :
    (d.lhsIdx j k a).val = (j ⟨p, hp⟩).val := by
  subst hpe
  unfold DotDims.lhsIdx
  rw [dif_neg hb, dif_pos hn]
  rfl

/-- A non-contracting, non-batch axis of the right operand reads the result index at its position. -/
theorem rhsIdx_val_of_non {a : Fin sr.rank} (hb : a ∉ d.rhsBatch) (hn : a ∈ d.rhsNonContracting)
    (j : so.Idx) (k : d.contr.Idx) (p : Nat) (hp : p < so.rank)
    (hpe : d.lhsBatch.length + d.lhsNonContracting.length + d.rhsNonContracting.idxOf a = p) :
    (d.rhsIdx j k a).val = (j ⟨p, hp⟩).val := by
  subst hpe
  unfold DotDims.rhsIdx
  rw [dif_neg hb, dif_pos hn]
  rfl

/-- The plain product's sum over the contraction shape is the sum over the contracted extent. -/
theorem sum_plain {M K N : ℕ} (d : DotDims ⟨2, ![M, K]⟩ ⟨2, ![K, N]⟩ ⟨2, ![M, N]⟩)
    (hlc : d.lhsContracting = [1]) (hrc : d.rhsContracting = [0])
    (hlb : d.lhsBatch = []) (hrb : d.rhsBatch = []) (hln : d.lhsNonContracting = [0]) (hrn : d.rhsNonContracting = [1])
    (lhs : (⟨2, ![M, K]⟩ : Shape).Idx → EReal) (rhs : (⟨2, ![K, N]⟩ : Shape).Idx → EReal) (p : Fin M) (q : Fin N) :
    ∑ k : d.contr.Idx, lhs (d.lhsIdx (ix2 p q) k) * rhs (d.rhsIdx (ix2 p q) k) = ∑ k : Fin K, lhs (ix2 p k) * rhs (ix2 k q) := by
  have hr : d.contr.rank = 1 := by rw [d.rank_contr, hlc]; rfl
  have hs : d.contr.size ⟨0, by omega⟩ = K := by
    have h := d.size_contr 0 (by rw [hlc]; exact Nat.one_pos)
    simp only [hlc, List.getElem_cons_zero] at h
    exact h
  refine ((Equiv.sum_comp (contrEquiv1 d K hr hs).symm _).symm).trans ?_
  refine Finset.sum_congr rfl fun k _ => ?_
  have hl : d.lhsIdx (ix2 p q) ((contrEquiv1 d K hr hs).symm k) = ix2 p k := by
    funext a; apply Fin.ext
    match a with
    | ⟨0, _⟩ =>
      exact lhsIdx_val_of_non d (a := 0) (by rw [hlb]; exact List.not_mem_nil) (by rw [hln]; exact List.mem_singleton.mpr rfl) _ _ 0 (Nat.zero_lt_two)
        (by rw [hlb, hln]; rfl)
    | ⟨1, _⟩ =>
      exact (d.lhsIdx_val_of_single (cl := 1) hlc _ _).trans (contrEquiv1_symm_val d K hr hs k)
  have hrr : d.rhsIdx (ix2 p q) ((contrEquiv1 d K hr hs).symm k) = ix2 k q := by
    funext a; apply Fin.ext
    match a with
    | ⟨0, _⟩ =>
      exact (d.rhsIdx_val_of_single (cr := 0) hrc _ _).trans (contrEquiv1_symm_val d K hr hs k)
    | ⟨1, _⟩ =>
      exact rhsIdx_val_of_non d (a := 1) (by rw [hrb]; exact List.not_mem_nil) (by rw [hrn]; exact List.mem_singleton.mpr rfl) _ _ 1 (Nat.one_lt_two)
        (by rw [hlb, hln, hrn]; rfl)
  rw [hl, hrr]

/-- A kernel's product accumulated into the zero splat, read at (p, q). -/
theorem matmul_zero_plain {M K N : ℕ} {φ₁ φ₂ : FTy} (d : DotDims ⟨2, ![M, K]⟩ ⟨2, ![K, N]⟩ ⟨2, ![M, N]⟩)
    (hlc : d.lhsContracting = [1]) (hrc : d.rhsContracting = [0])
    (hlb : d.lhsBatch = []) (hrb : d.rhsBatch = []) (hln : d.lhsNonContracting = [0]) (hrn : d.rhsNonContracting = [1])
    (prec : Option ContractPrecision) (lhs : FVec Ideal ⟨2, ![M, K]⟩ φ₁) (rhs : FVec Ideal ⟨2, ![K, N]⟩ φ₂) (p : Fin M) (q : Fin N) :
    matmul d prec lhs rhs (constant ⟨2, ![M, N]⟩ .f32 0x00000000#32) (ix2 p q) = ∑ k : Fin K, lhs (ix2 p k) * rhs (ix2 k q) :=
  (Ideal.matmul_constant_zero_apply d prec lhs rhs (ix2 p q)).trans (sum_plain d hlc hrc hlb hrb hln hrn lhs rhs p q)

/-- The host's product, read at (p, q). -/
theorem dotGeneral_plain {M K N : ℕ} {φ₁ φ₂ : FTy} (d : DotDims ⟨2, ![M, K]⟩ ⟨2, ![K, N]⟩ ⟨2, ![M, N]⟩)
    (hlc : d.lhsContracting = [1]) (hrc : d.rhsContracting = [0])
    (hlb : d.lhsBatch = []) (hrb : d.rhsBatch = []) (hln : d.lhsNonContracting = [0]) (hrn : d.rhsNonContracting = [1])
    (prec : Option ContractPrecision) (lhs : FVec Ideal ⟨2, ![M, K]⟩ φ₁) (rhs : FVec Ideal ⟨2, ![K, N]⟩ φ₂) (p : Fin M) (q : Fin N) :
    Host.dotGeneral d prec lhs rhs (ix2 p q) = ∑ k : Fin K, lhs (ix2 p k) * rhs (ix2 k q) := by
  rw [← matmul_zero_eq_dotGeneral]
  exact matmul_zero_plain d hlc hrc hlb hrb hln hrn prec lhs rhs p q

end Idealize.ShloMosaic.LibDot

end
-- ==== Proof.ValuePay.lean ====
/-
  The kernel body's arithmetic read at an index, on the extended reals: the stacked projection, its three
  column thirds, one pair of heads (scores, row softmax, weighted values, the two heads side by side),
  the output projection and the bias row.
-/
import proofs.«139552_j89163521065781_2_alg».proof.Proof.Gen.KernelIdeal.Skeleton
import proofs.«139552_j89163521065781_2_alg».proof.Proof.Spec
import proofs.«139552_j89163521065781_2_alg».proof.Proof.LibColumn
import proofs.«139552_j89163521065781_2_alg».proof.Proof.LibDot
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.PayValue

open Cert.KernelIdeal Cert.KernelIdeal.Gen
open Idealize.ShloMosaic Idealize.ShloMosaic.TcCoe Idealize.ShloMosaic.ValueIdx

/-- The stacked projection: row s of the batch row against column n of the stacked weights, plus the stacked bias. -/
theorem pay5_apply (v0 : Vec Ideal S1x1024x768 .bf16) (v2 : Vec Ideal S768x2304 .bf16) (v5 : Vec Ideal S1x2304 .f32) (s : Fin 1024) (n : Fin 2304) :
    k0_pay5 (F := Ideal) v0 v2 v5 (ix2 s n) = (∑ e : Fin 768, v0 (ix3 0 s e) * v2 (ix2 e n)) + v5 (ix2 0 n) := by
  unfold k0_pay5
  refine (addf_apply _ _ _).trans ?_
  refine congrArg₂ (· + ·) ?_ ?_
  · refine (LibDot.matmul_zero_plain _ rfl rfl rfl rfl rfl rfl none _ _ s n).trans ?_
    refine Finset.sum_congr rfl fun e _ => ?_
    rw [shapeCast_self]
    exact congrArg (· * _) (shapeCast_1ab_ab_apply v0 _ s e)
  · refine (broadcastTo_1b_ab_apply _ _ s n).trans ?_
    rw [shapeCast_self]

/-- Its three column thirds (queries, keys, values). -/
theorem pay6_apply (v0 : Vec Ideal S1x1024x768 .bf16) (v2 : Vec Ideal S768x2304 .bf16) (v5 : Vec Ideal S1x2304 .f32) (s : Fin 1024) (n : Fin 768) :
    k0_pay6 (F := Ideal) v0 v2 v5 (ix2 s n) = k0_pay5 (F := Ideal) v0 v2 v5 (ix2 s ⟨n.val, by omega⟩) := by
  unfold k0_pay6
  refine (congrFun (shapeCast_self _ _) _).trans ?_
  exact slice2_axis1_apply 0 (k0_pay5 (F := Ideal) v0 v2 v5) slices_S1024x2304_o0_0_S1024x768 s n ⟨n.val, by omega⟩ (Nat.zero_add _).symm
theorem pay7_apply (v0 : Vec Ideal S1x1024x768 .bf16) (v2 : Vec Ideal S768x2304 .bf16) (v5 : Vec Ideal S1x2304 .f32) (s : Fin 1024) (n : Fin 768) :
    k0_pay7 (F := Ideal) v0 v2 v5 (ix2 s n) = k0_pay5 (F := Ideal) v0 v2 v5 (ix2 s ⟨768 + n.val, by omega⟩) := by
  unfold k0_pay7
  refine (congrFun (shapeCast_self _ _) _).trans ?_
  exact slice2_axis1_apply 768 (k0_pay5 (F := Ideal) v0 v2 v5) slices_S1024x2304_o0_768_S1024x768 s n ⟨768 + n.val, by omega⟩ rfl
theorem pay8_apply (v0 : Vec Ideal S1x1024x768 .bf16) (v2 : Vec Ideal S768x2304 .bf16) (v5 : Vec Ideal S1x2304 .f32) (s : Fin 1024) (n : Fin 768) :
    k0_pay8 (F := Ideal) v0 v2 v5 (ix2 s n) = k0_pay5 (F := Ideal) v0 v2 v5 (ix2 s ⟨1536 + n.val, by omega⟩) := by
  unfold k0_pay8
  refine (congrFun (shapeCast_self _ _) _).trans ?_
  exact slice2_axis1_apply 1536 (k0_pay5 (F := Ideal) v0 v2 v5) slices_S1024x2304_o0_1536_S1024x768 s n ⟨1536 + n.val, by omega⟩ rfl

/-! ### One head: scores, row softmax, weighted values, over the head's three [1024, 64] operands -/

/-- Queries against keys: both operands contract their second axis, so at (p, q) the operand indices are (p, k) and (q, k). -/
theorem sum_qk {M K N : ℕ} (d : DotDims ⟨2, ![M, K]⟩ ⟨2, ![N, K]⟩ ⟨2, ![M, N]⟩)
    (hlc : d.lhsContracting = [1]) (hrc : d.rhsContracting = [1])
    (hlb : d.lhsBatch = []) (hrb : d.rhsBatch = []) (hln : d.lhsNonContracting = [0]) (hrn : d.rhsNonContracting = [0])
    (lhs : (⟨2, ![M, K]⟩ : Shape).Idx → EReal) (rhs : (⟨2, ![N, K]⟩ : Shape).Idx → EReal) (p : Fin M) (q : Fin N) :
    ∑ k : d.contr.Idx, lhs (d.lhsIdx (ix2 p q) k) * rhs (d.rhsIdx (ix2 p q) k) = ∑ k : Fin K, lhs (ix2 p k) * rhs (ix2 q k) := by
  have hr : d.contr.rank = 1 := by rw [d.rank_contr, hlc]; rfl
  have hs : d.contr.size ⟨0, by omega⟩ = K := by
    have h := d.size_contr 0 (by rw [hlc]; exact Nat.one_pos)
    simp only [hlc, List.getElem_cons_zero] at h
    exact h
  refine ((Equiv.sum_comp (contrEquiv1 d K hr hs).symm _).symm).trans ?_
  refine Finset.sum_congr rfl fun k _ => ?_
  have hl : d.lhsIdx (ix2 p q) ((contrEquiv1 d K hr hs).symm k) = ix2 p k := by
    funext a; apply Fin.ext
    match a with
    | ⟨0, _⟩ =>
      exact LibDot.lhsIdx_val_of_non d (a := 0) (by rw [hlb]; exact List.not_mem_nil) (by rw [hln]; exact List.mem_singleton.mpr rfl) _ _ 0 (Nat.zero_lt_two)
        (by rw [hlb, hln]; rfl)
    | ⟨1, _⟩ =>
      exact (d.lhsIdx_val_of_single (cl := 1) hlc _ _).trans (contrEquiv1_symm_val d K hr hs k)
  have hrr : d.rhsIdx (ix2 p q) ((contrEquiv1 d K hr hs).symm k) = ix2 q k := by
    funext a; apply Fin.ext
    match a with
    | ⟨0, _⟩ =>
      exact LibDot.rhsIdx_val_of_non d (a := 0) (by rw [hrb]; exact List.not_mem_nil) (by rw [hrn]; exact List.mem_singleton.mpr rfl) _ _ 1 (Nat.one_lt_two)
        (by rw [hlb, hln, hrn]; rfl)
    | ⟨1, _⟩ =>
      exact (d.rhsIdx_val_of_single (cr := 1) hrc _ _).trans (contrEquiv1_symm_val d K hr hs k)
  rw [hl, hrr]

/-- The scaled scores of one head as the kernel computes them. -/
def scoresK (qh kh : FVec Ideal S1024x64 .bf16) : FVec Ideal S1024x1024 .f32 :=
  mulf (matmul dot_S1024x64_S1024x64_S1024x1024_1_1_0_0_n_n none qh kh (constant S1024x1024 .f32 0x00000000#32))
    (broadcast S1024x1024 (Scalar.ofBits .f32 0x3E000000#32))

theorem scoresK_apply (qh kh : FVec Ideal S1024x64 .bf16) (s t : Fin 1024) :
    scoresK qh kh (ix2 s t) = Cert.Attention.scores (fun s' d => qh (ix2 s' d)) (fun s' d => kh (ix2 s' d)) s t := by
  unfold scoresK Cert.Attention.scores
  refine (mulf_apply _ _ _).trans ?_
  refine congrArg₂ (· * ·) ?_ rfl
  exact (Ideal.matmul_constant_zero_apply _ none qh kh (ix2 s t)).trans (sum_qk _ rfl rfl rfl rfl rfl rfl qh kh s t)

/-- A [1024] vector as a column broadcast over [1024, 1024] reads, at (s, t), the vector at s. -/
theorem column_apply (r : FVec Ideal S1024 .f32) (s t : Fin 1024) :
    broadcastTo S1024x1024 (shapeCast S1024x1 r shapeCasts_S1024_S1024x1) broadcasts_S1024x1_S1024x1024 (ix2 s t) = r (ix1 s) :=
  (LibColumn.broadcastTo_a1_ab_apply _ _ s t).trans (LibColumn.shapeCast_a_a1_apply r _ s 0)

/-- The row maxima. -/
def rowMaxK (sc : FVec Ideal S1024x1024 .f32) : FVec Ideal S1024 .f32 :=
  multiReduction .maximumf [1] S1024 sc 0xFF800000#32 reduces_S1024x1024_S1024 (.inl rfl) rfl

theorem rowMaxK_apply (sc : FVec Ideal S1024x1024 .f32) (s : Fin 1024) :
    rowMaxK sc (ix1 s) = Cert.Attention.rowMax (fun t => sc (ix2 s t)) := by
  unfold rowMaxK Cert.Attention.rowMax
  refine (Ideal.multiReduction_maximumf_single sc _ reduces_S1024x1024_S1024 _ _ (ix1 s)).trans ?_
  have e : (sc ∘ reduces_S1024x1024_S1024.lift (ix1 s)) = fun t : Fin 1024 => sc (ix2 s t) :=
    funext fun t => congrArg sc (LibColumn.lift_row reduces_S1024x1024_S1024 s t)
  rw [e]
  rfl

/-- The exponentials of the scores less their row maximum. -/
def expK (sc : FVec Ideal S1024x1024 .f32) : FVec Ideal S1024x1024 .f32 :=
  exp (subf sc (broadcastTo S1024x1024 (shapeCast S1024x1 (rowMaxK sc) shapeCasts_S1024_S1024x1) broadcasts_S1024x1_S1024x1024))

theorem expK_apply (sc : FVec Ideal S1024x1024 .f32) (s t : Fin 1024) :
    expK sc (ix2 s t) = Ideal.exp (sc (ix2 s t) - Cert.Attention.rowMax (fun t' => sc (ix2 s t'))) := by
  unfold expK
  show Ideal.exp (sc (ix2 s t) - broadcastTo S1024x1024 (shapeCast S1024x1 (rowMaxK sc) shapeCasts_S1024_S1024x1) broadcasts_S1024x1_S1024x1024 (ix2 s t)) = _
  rw [column_apply, rowMaxK_apply]

/-- Their row sums. -/
def rowSumK (sc : FVec Ideal S1024x1024 .f32) : FVec Ideal S1024 .f32 :=
  multiReduction .add [1] S1024 (expK sc) 0x00000000#32 reduces_S1024x1024_S1024 (.inl rfl) rfl

theorem rowSumK_apply (sc : FVec Ideal S1024x1024 .f32) (s : Fin 1024) :
    rowSumK sc (ix1 s) = ∑ t' : Fin 1024, Ideal.exp (sc (ix2 s t') - Cert.Attention.rowMax (fun t'' => sc (ix2 s t''))) := by
  unfold rowSumK
  refine (Ideal.multiReduction_add_single (expK sc) _ reduces_S1024x1024_S1024 _ _ (ix1 s)).trans ?_
  refine Finset.sum_congr rfl fun t' _ => ?_
  rw [LibColumn.lift_row reduces_S1024x1024_S1024 s t']
  exact expK_apply sc s t'

/-- The row softmax as the kernel computes it. -/
def softmaxK (sc : FVec Ideal S1024x1024 .f32) : FVec Ideal S1024x1024 .bf16 :=
  truncf .bf16 (divf (expK sc) (broadcastTo S1024x1024 (shapeCast S1024x1 (rowSumK sc) shapeCasts_S1024_S1024x1) broadcasts_S1024x1_S1024x1024)) bitsLt_bf16_f32

theorem softmaxK_apply (sc : FVec Ideal S1024x1024 .f32) (s t : Fin 1024) :
    softmaxK sc (ix2 s t) = Cert.Attention.softmax (fun s' t' => sc (ix2 s' t')) s t := by
  unfold softmaxK Cert.Attention.softmax
  show Ideal.div (expK sc (ix2 s t)) (broadcastTo S1024x1024 (shapeCast S1024x1 (rowSumK sc) shapeCasts_S1024_S1024x1) broadcasts_S1024x1_S1024x1024 (ix2 s t)) = _
  rw [column_apply, rowSumK_apply, expK_apply]

/-- The weights against the values. -/
def attendK (w : FVec Ideal S1024x1024 .bf16) (vh : FVec Ideal S1024x64 .bf16) : FVec Ideal S1024x64 .bf16 :=
  truncf .bf16 (matmul dot_S1024x1024_S1024x64_S1024x64_1_0_0_1_n_n none w vh (constant S1024x64 .f32 0x00000000#32)) bitsLt_bf16_f32

theorem attendK_apply (w : FVec Ideal S1024x1024 .bf16) (vh : FVec Ideal S1024x64 .bf16) (s : Fin 1024) (d : Fin 64) :
    attendK w vh (ix2 s d) = ∑ t : Fin 1024, w (ix2 s t) * vh (ix2 t d) :=
  LibDot.matmul_zero_plain _ rfl rfl rfl rfl rfl rfl none w vh s d

/-- One head's chain is the specification's attention of its operands. -/
theorem head_apply (qh kh vh : FVec Ideal S1024x64 .bf16) (s : Fin 1024) (d : Fin 64) :
    attendK (softmaxK (scoresK qh kh)) vh (ix2 s d)
      = Cert.Attention.attend (fun s' d' => qh (ix2 s' d')) (fun s' d' => kh (ix2 s' d')) (fun s' d' => vh (ix2 s' d')) s d := by
  rw [attendK_apply]
  unfold Cert.Attention.attend
  refine Finset.sum_congr rfl fun t _ => ?_
  rw [softmaxK_apply]
  have e : (fun s' t' => scoresK qh kh (ix2 s' t'))
      = Cert.Attention.scores (fun s' d' => qh (ix2 s' d')) (fun s' d' => kh (ix2 s' d')) :=
    funext fun s' => funext fun t' => scoresK_apply qh kh s' t'
  rw [e]

/-! ### The two heads of a pair: lanes 0..63 and 64..127 of the three [1024, 128] operands -/

/-- The first and the second 64 lanes of a [1024, 128] band. -/
def sliceLo (x : Vec Ideal S1024x128 .bf16) : FVec Ideal S1024x64 .bf16 :=
  extractStridedSlice S1024x64 ![0, 0] x slices_S1024x128_o0_0_S1024x64
def sliceHi (x : Vec Ideal S1024x128 .bf16) : FVec Ideal S1024x64 .bf16 :=
  extractStridedSlice S1024x64 ![0, 64] x slices_S1024x128_o0_64_S1024x64

theorem sliceLo_apply (x : Vec Ideal S1024x128 .bf16) (s : Fin 1024) (d : Fin 64) :
    sliceLo x (ix2 s d) = x (ix2 s ⟨d.val, by omega⟩) :=
  slice2_axis1_apply 0 x slices_S1024x128_o0_0_S1024x64 s d ⟨d.val, by omega⟩ (Nat.zero_add _).symm
theorem sliceHi_apply (x : Vec Ideal S1024x128 .bf16) (s : Fin 1024) (d : Fin 64) :
    sliceHi x (ix2 s d) = x (ix2 s ⟨64 + d.val, by omega⟩) :=
  slice2_axis1_apply 64 x slices_S1024x128_o0_64_S1024x64 s d ⟨64 + d.val, by omega⟩ rfl

theorem pay2_eq (q k v : Vec Ideal S1024x128 .bf16) :
    k0_pay2 (F := Ideal) q k v = attendK (softmaxK (scoresK (sliceLo q) (sliceLo k))) (sliceLo v) := rfl
theorem pay3_eq (v : Vec Ideal S1024x128 .bf16) : k0_pay3 (F := Ideal) v = sliceHi v := rfl
theorem pay4_eq (q k : Vec Ideal S1024x128 .bf16) :
    k0_pay4 (F := Ideal) q k = softmaxK (scoresK (sliceHi q) (sliceHi k)) := rfl

/-- The stored band, left of lane 64: the first head's result. -/
theorem pay9_lo (a b : FVec Ideal S1024x64 .bf16) (w : FVec Ideal S1024x1024 .bf16) (s : Fin 1024) (j : Fin 128) (hj : j.val < 64) :
    k0_pay9 (F := Ideal) a b w (ix2 s j) = a (ix2 s ⟨j.val, hj⟩) := by
  unfold k0_pay9
  refine (congrFun (shapeCast_self _ _) _).trans ?_
  exact concatenate_pair_apply_left (t := S1024x128) (s₁ := S1024x64) (s₂ := S1024x64) 1 _ _ _ (ix2 s j) rfl (ix2 s ⟨j.val, hj⟩) (fun c => by
    match c with
    | ⟨0, _⟩ => rfl
    | ⟨1, _⟩ => rfl)

/-- The stored band, from lane 64 on: the second head's weights against its values. -/
theorem pay9_hi (a b : FVec Ideal S1024x64 .bf16) (w : FVec Ideal S1024x1024 .bf16) (s : Fin 1024) (j : Fin 128) (hj : 64 ≤ j.val) :
    k0_pay9 (F := Ideal) a b w (ix2 s j) = attendK w b (ix2 s ⟨j.val - 64, by have := j.isLt; omega⟩) := by
  unfold k0_pay9
  refine (congrFun (shapeCast_self _ _) _).trans ?_
  exact concatenate_pair_apply_right (t := S1024x128) (s₁ := S1024x64) (s₂ := S1024x64) 1 _ _ _ (ix2 s j) rfl rfl (ix2 s ⟨j.val - 64, by have := j.isLt; omega⟩) (fun c hc => by
    match c, hc with
    | ⟨0, _⟩, _ => rfl
    | ⟨1, _⟩, hc => exact absurd rfl hc) (by show (j.val - 64) + 64 = j.val; omega)

/-- Column d of the head that column j of a 128-wide pair belongs to. -/
def laneIn (j : Fin 128) (d : Fin 64) : Fin 128 := ⟨64 * (j.val / 64) + d.val, by have := j.isLt; have := d.isLt; omega⟩

/-- One pair of heads: column j of the stored [1024, 128] band is lane (j mod 64) of the attention of head (j / 64) of the pair. -/
theorem pair_apply (q k v : Vec Ideal S1024x128 .bf16) (s : Fin 1024) (j : Fin 128) :
    k0_pay9 (F := Ideal) (k0_pay2 q k v) (k0_pay3 v) (k0_pay4 q k) (ix2 s j)
      = Cert.Attention.attend (fun s' d => q (ix2 s' (laneIn j d))) (fun s' d => k (ix2 s' (laneIn j d)))
          (fun s' d => v (ix2 s' (laneIn j d))) s ⟨j.val % 64, Nat.mod_lt _ (by decide)⟩ := by
  rw [pay2_eq, pay3_eq, pay4_eq]
  by_cases hj : j.val < 64
  · rw [pay9_lo _ _ _ s j hj, head_apply]
    have e : ∀ x : Vec Ideal S1024x128 .bf16,
        (fun (s' : Fin 1024) (d : Fin 64) => sliceLo x (ix2 s' d)) = fun s' d => x (ix2 s' (laneIn j d)) := fun x =>
      funext fun s' => funext fun d => (sliceLo_apply x s' d).trans
        (congrArg (fun c => x (ix2 s' c)) (Fin.ext (by show d.val = 64 * (j.val / 64) + d.val; omega)))
    rw [e q, e k, e v]
    exact congrArg (Cert.Attention.attend _ _ _ s) (Fin.ext (Nat.mod_eq_of_lt hj).symm)
  · have hj' : 64 ≤ j.val := Nat.le_of_not_lt hj
    have hjl := j.isLt
    rw [pay9_hi _ _ _ s j hj', head_apply]
    have e : ∀ x : Vec Ideal S1024x128 .bf16,
        (fun (s' : Fin 1024) (d : Fin 64) => sliceHi x (ix2 s' d)) = fun s' d => x (ix2 s' (laneIn j d)) := fun x =>
      funext fun s' => funext fun d => (sliceHi_apply x s' d).trans
        (congrArg (fun c => x (ix2 s' c)) (Fin.ext (by show 64 + d.val = 64 * (j.val / 64) + d.val; omega)))
    rw [e q, e k, e v]
    exact congrArg (Cert.Attention.attend _ _ _ s) (Fin.ext (by show j.val - 64 = j.val % 64; omega))

/-- The output projection. -/
theorem pay10_apply (v25 : Vec Ideal S1024x768 .bf16) (v26 : Vec Ideal S768x768 .bf16) (s : Fin 1024) (f : Fin 768) :
    k0_pay10 (F := Ideal) v25 v26 (ix2 s f) = ∑ e : Fin 768, v25 (ix2 s e) * v26 (ix2 e f) := by
  unfold k0_pay10
  refine (LibDot.matmul_zero_plain _ rfl rfl rfl rfl rfl rfl none _ _ s f).trans ?_
  rw [shapeCast_self]

/-- The bias row added to every row, and the result re-laid as a [1, 1024, 768] block. -/
theorem pay1_apply (v28 : FVec Ideal S1024x768 .f32) (v30 : FVec Ideal S1x768 .f32) (s : Fin 1024) (f : Fin 768) :
    k0_pay1 (F := Ideal) v28 v30 (ix3 0 s f) = v28 (ix2 s f) + v30 (ix2 0 f) := by
  unfold k0_pay1
  refine (shapeCast_ab_1ab_apply _ _ 0 s f).trans ?_
  refine (addf_apply _ _ _).trans ?_
  exact congrArg (_ + ·) (broadcastTo_1b_ab_apply v30 _ s f)
theorem pay11_apply (v29 : Vec Ideal S768 .f32) (f : Fin 768) :
    k0_pay11 (F := Ideal) v29 (ix2 0 f) = v29 (ix1 f) := by
  unfold k0_pay11
  exact shapeCast_a_1a_apply _ _ 0 f

end Cert.KernelIdeal.PayValue

end
-- ==== Proof.KernelIdeal.OutRow.lean ====
/-
  The output block of grid point t is batch row t of the attention layer (Proof/Spec.lean): the three
  column thirds of the stacked projection are the per-head projections (column n of a third is lane
  n mod 64 of head n / 64); column e of the attention scratch is lane e mod 64 of the attention of head
  e / 64 (band e / 128, head (e mod 128) / 64 of the pair); the output projection and bias finish the row.
-/
import proofs.«139552_j89163521065781_2_alg».proof.Proof.KernelIdeal.Blocks
import proofs.«139552_j89163521065781_2_alg».proof.Proof.ValuePay

set_option maxRecDepth 16384

noncomputable section

namespace Cert.KernelIdeal.Region

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ) (c : Dev nD)

open Idealize.ShloMosaic.ValueIdx Cert.Attention

theorem q_apply (t : Fin cfg0.N) (s : Fin 1024) (n : Fin 768) :
    k0_pay6 (F := Ideal) (iblk (F := Ideal) m c 0 t) (iblk (F := Ideal) m c 1 t) (iblk (F := Ideal) m c 2 t) (ix2 s n) = proj (aWq m c) (abq m c) (aX m c (pt t)) (headOf n) s (laneOf n) := by
  rw [PayValue.pay6_apply, PayValue.pay5_apply]
  unfold proj
  congr 1
  · refine Finset.sum_congr rfl fun e _ => ?_
    rw [blk0_apply, blk1_apply, V_wq m c e n, mul_comm]; rfl
  · rw [blk2_apply, V_bq m c n]; rfl

theorem k_apply (t : Fin cfg0.N) (s : Fin 1024) (n : Fin 768) :
    k0_pay7 (F := Ideal) (iblk (F := Ideal) m c 0 t) (iblk (F := Ideal) m c 1 t) (iblk (F := Ideal) m c 2 t) (ix2 s n) = proj (aWk m c) (abk m c) (aX m c (pt t)) (headOf n) s (laneOf n) := by
  rw [PayValue.pay7_apply, PayValue.pay5_apply]
  unfold proj
  congr 1
  · refine Finset.sum_congr rfl fun e _ => ?_
    rw [blk0_apply, blk1_apply, V_wk m c e n, mul_comm]; rfl
  · rw [blk2_apply, V_bk m c n]; rfl

theorem v_apply (t : Fin cfg0.N) (s : Fin 1024) (n : Fin 768) :
    k0_pay8 (F := Ideal) (iblk (F := Ideal) m c 0 t) (iblk (F := Ideal) m c 1 t) (iblk (F := Ideal) m c 2 t) (ix2 s n) = proj (aWv m c) (abv m c) (aX m c (pt t)) (headOf n) s (laneOf n) := by
  rw [PayValue.pay8_apply, PayValue.pay5_apply]
  unfold proj
  congr 1
  · refine Finset.sum_congr rfl fun e _ => ?_
    rw [blk0_apply, blk1_apply, V_wv m c e n, mul_comm]; rfl
  · rw [blk2_apply, V_bv m c n]; rfl

/-- Band k of a [1024, 768] array at (s, j) is the array at column 128 k + j. -/
theorem band_apply (Q : S1024x768.Idx → EReal) (k : Fin k0_t1_loop.trips) (s : Fin 1024) (j : Fin 128) :
    band (F := Ideal) Q k (ix2 s j) = Q (ix2 s (⟨128 * k.val + j.val, by have := Nat.lt_of_lt_of_le k.isLt (le_of_eq trips_eq); have := j.isLt; omega⟩ : Fin 768)) := by
  have o0 : k0_off1 k 0 = 0 := congrFun (k0_off1_eq k) 0
  have o1 : k0_off1 k 1 = 128 * k.val := congrFun (k0_off1_eq k) 1
  show Q ((Rect.unit (s := S1024x768) (k0_off1 k) S1024x128.size (k0_off1_inb k)).emb (ix2 s j)) = _
  congr 1
  funext a; apply Fin.ext
  match a with
  | ⟨0, _⟩ => show (k0_off1 k) 0 + 1 * s.val = s.val; omega
  | ⟨1, _⟩ => show (k0_off1 k) 1 + 1 * j.val = 128 * k.val + j.val; omega

/-- Column e of the attention scratch after the loop. -/
theorem scratch_apply (t : Fin cfg0.N) (s : Fin 1024) (e : Fin 768) :
    attnFn (F := Ideal) (k0_pay6 (F := Ideal) (iblk (F := Ideal) m c 0 t) (iblk (F := Ideal) m c 1 t) (iblk (F := Ideal) m c 2 t)) (k0_pay7 (F := Ideal) (iblk (F := Ideal) m c 0 t) (iblk (F := Ideal) m c 1 t) (iblk (F := Ideal) m c 2 t)) (k0_pay8 (F := Ideal) (iblk (F := Ideal) m c 0 t) (iblk (F := Ideal) m c 1 t) (iblk (F := Ideal) m c 2 t)) (ix2 s e)
      = heads (aWq m c) (abq m c) (aWk m c) (abk m c) (aWv m c) (abv m c) (aX m c (pt t)) s e := by
  have he : e.val < 768 := e.isLt
  unfold attnFn heads
  show pairOut (band _ (bandOf (ix2 s e))) (band _ (bandOf (ix2 s e))) (band _ (bandOf (ix2 s e))) (ix2 s (laneOfBand (ix2 s e))) = _
  unfold pairOut
  rw [PayValue.pair_apply]
  have hb : (bandOf (ix2 s e)).val = e.val / 128 := rfl
  have hl : (laneOfBand (ix2 s e)).val = e.val % 128 := rfl
  have hlane : (⟨(laneOfBand (ix2 s e)).val % 64, Nat.mod_lt _ (by decide)⟩ : Fin 64) = laneOf e :=
    Fin.ext (by show (laneOfBand (ix2 s e)).val % 64 = e.val % 64; rw [hl]; omega)
  rw [hlane]
  have hq : (fun s' d => band (F := Ideal) (k0_pay6 (F := Ideal) (iblk (F := Ideal) m c 0 t) (iblk (F := Ideal) m c 1 t) (iblk (F := Ideal) m c 2 t)) (bandOf (ix2 s e)) (ix2 s' (PayValue.laneIn (laneOfBand (ix2 s e)) d)))
      = proj (aWq m c) (abq m c) (aX m c (pt t)) (headOf e) := by
    funext s' d
    rw [band_apply, q_apply]
    have hd : d.val < 64 := d.isLt
    have h1 : headOf (⟨128 * (bandOf (ix2 s e)).val + (PayValue.laneIn (laneOfBand (ix2 s e)) d).val, by rw [hb]; show 128 * (e.val / 128) + (64 * ((laneOfBand (ix2 s e)).val / 64) + d.val) < 768; rw [hl]; omega⟩ : Fin 768) = headOf e :=
      Fin.ext (by show (128 * (bandOf (ix2 s e)).val + (64 * ((laneOfBand (ix2 s e)).val / 64) + d.val)) / 64 = e.val / 64; rw [hb, hl]; omega)
    have h2 : laneOf (⟨128 * (bandOf (ix2 s e)).val + (PayValue.laneIn (laneOfBand (ix2 s e)) d).val, by rw [hb]; show 128 * (e.val / 128) + (64 * ((laneOfBand (ix2 s e)).val / 64) + d.val) < 768; rw [hl]; omega⟩ : Fin 768) = d :=
      Fin.ext (by show (128 * (bandOf (ix2 s e)).val + (64 * ((laneOfBand (ix2 s e)).val / 64) + d.val)) % 64 = d.val; rw [hb, hl]; omega)
    rw [h1, h2]
  have hk : (fun s' d => band (F := Ideal) (k0_pay7 (F := Ideal) (iblk (F := Ideal) m c 0 t) (iblk (F := Ideal) m c 1 t) (iblk (F := Ideal) m c 2 t)) (bandOf (ix2 s e)) (ix2 s' (PayValue.laneIn (laneOfBand (ix2 s e)) d)))
      = proj (aWk m c) (abk m c) (aX m c (pt t)) (headOf e) := by
    funext s' d
    rw [band_apply, k_apply]
    have hd : d.val < 64 := d.isLt
    have h1 : headOf (⟨128 * (bandOf (ix2 s e)).val + (PayValue.laneIn (laneOfBand (ix2 s e)) d).val, by rw [hb]; show 128 * (e.val / 128) + (64 * ((laneOfBand (ix2 s e)).val / 64) + d.val) < 768; rw [hl]; omega⟩ : Fin 768) = headOf e :=
      Fin.ext (by show (128 * (bandOf (ix2 s e)).val + (64 * ((laneOfBand (ix2 s e)).val / 64) + d.val)) / 64 = e.val / 64; rw [hb, hl]; omega)
    have h2 : laneOf (⟨128 * (bandOf (ix2 s e)).val + (PayValue.laneIn (laneOfBand (ix2 s e)) d).val, by rw [hb]; show 128 * (e.val / 128) + (64 * ((laneOfBand (ix2 s e)).val / 64) + d.val) < 768; rw [hl]; omega⟩ : Fin 768) = d :=
      Fin.ext (by show (128 * (bandOf (ix2 s e)).val + (64 * ((laneOfBand (ix2 s e)).val / 64) + d.val)) % 64 = d.val; rw [hb, hl]; omega)
    rw [h1, h2]
  have hv : (fun s' d => band (F := Ideal) (k0_pay8 (F := Ideal) (iblk (F := Ideal) m c 0 t) (iblk (F := Ideal) m c 1 t) (iblk (F := Ideal) m c 2 t)) (bandOf (ix2 s e)) (ix2 s' (PayValue.laneIn (laneOfBand (ix2 s e)) d)))
      = proj (aWv m c) (abv m c) (aX m c (pt t)) (headOf e) := by
    funext s' d
    rw [band_apply, v_apply]
    have hd : d.val < 64 := d.isLt
    have h1 : headOf (⟨128 * (bandOf (ix2 s e)).val + (PayValue.laneIn (laneOfBand (ix2 s e)) d).val, by rw [hb]; show 128 * (e.val / 128) + (64 * ((laneOfBand (ix2 s e)).val / 64) + d.val) < 768; rw [hl]; omega⟩ : Fin 768) = headOf e :=
      Fin.ext (by show (128 * (bandOf (ix2 s e)).val + (64 * ((laneOfBand (ix2 s e)).val / 64) + d.val)) / 64 = e.val / 64; rw [hb, hl]; omega)
    have h2 : laneOf (⟨128 * (bandOf (ix2 s e)).val + (PayValue.laneIn (laneOfBand (ix2 s e)) d).val, by rw [hb]; show 128 * (e.val / 128) + (64 * ((laneOfBand (ix2 s e)).val / 64) + d.val) < 768; rw [hl]; omega⟩ : Fin 768) = d :=
      Fin.ext (by show (128 * (bandOf (ix2 s e)).val + (64 * ((laneOfBand (ix2 s e)).val / 64) + d.val)) % 64 = d.val; rw [hb, hl]; omega)
    rw [h1, h2]
  rw [hq, hk, hv]

/-- The output block of point t is batch row t of the layer. -/
theorem outAt_apply (t : Fin cfg0.N) (s : Fin 1024) (f : Fin 768) :
    outAt (F := Ideal) m c t (ix3 (0 : Fin 1) s f) = out (aX m c) (aWq m c) (abq m c) (aWk m c) (abk m c) (aWv m c) (abv m c) (aWo m c) (abo m c) (pt t) s f := by
  unfold outAt
  rw [out5_eq, PayValue.pay1_apply, PayValue.pay10_apply, PayValue.pay11_apply, blk4_apply]
  unfold out
  congr 1
  refine Finset.sum_congr rfl fun e _ => ?_
  rw [scratch_apply, blk3_apply]

end Cert.KernelIdeal.Region

end
-- ==== Proof.KernelIdeal.ArrayValue.lean ====
/-
  The result array of the attention kernel's program after a run: the eight output blocks, one per batch
  row, tile the [8, 1024, 768] result, and block t is batch row t of the attention layer; so every weakly
  fair execution ends with the result equal to the layer of the nine argument arrays, and the arguments
  unchanged.
-/
import proofs.«139552_j89163521065781_2_alg».proof.Proof.KernelIdeal.OutRow

set_option maxRecDepth 16384

noncomputable section

namespace Cert.KernelIdeal.Region

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ) (c : Dev nD)

open Idealize.ShloMosaic.ValueIdx Cert.Attention

/-- The attention layer of the argument arrays, as the result buffer's contents. -/
def G : S8x1024x768.Idx → EReal := fun i => out (aX m c) (aWq m c) (abq m c) (aWk m c) (abk m c) (aWv m c) (abv m c) (aWo m c) (abo m c) (i 0 : Fin 8) (i 1 : Fin 1024) (i 2 : Fin 768)

/-- What point t writes back is block t of the layer. -/
theorem flushed_eq (t : Fin cfg0.N) :
    (dats (F := Ideal) m 0 c).flushed 5 t = ((cfg0.win 5).blk t).view.read (Elt Ideal) (G m c) := by
  show (cfg0.win 5).cut (grid0.coords t) ((dats (F := Ideal) m 0 c).after 5 t) = _
  rw [after5]
  funext j
  obtain ⟨s, f, rfl⟩ : ∃ (s : Fin 1024) (f : Fin 768), j = ix3 (0 : Fin 1) s f :=
    ⟨j 1, j 2, by funext a; match a with | ⟨0, _⟩ => exact Subsingleton.elim (α := Fin 1) _ _ | ⟨1, _⟩ => rfl | ⟨2, _⟩ => rfl⟩
  show outAt (F := Ideal) m c t (ix3 (0 : Fin 1) s f) = G m c (((cfg0.win 5).blk t).view.emb (ix3 (0 : Fin 1) s f))
  rw [outAt_apply, blk5_emb]
  rfl

/-- An index of the result is in point t's block iff its batch coordinate is t. -/
theorem mem_blk5 (t : Fin cfg0.N) (i : S8x1024x768.Idx) :
    i ∈ ((cfg0.win 5).blk t).view.set ↔ ∀ a : Fin 3, win0_5.index t a * S1x1024x768.size a ≤ (i a).val ∧ (i a).val < win0_5.index t a * S1x1024x768.size a + S1x1024x768.size a := by
  show i ∈ ((View.whole main_v18).slice (win0_5.rect t)).set ↔ _
  rw [View.set_slice_whole, Rect.mem_set_unit]
  exact Iff.rfl

/-- The eight blocks tile the result. -/
theorem blocks_cover (i : S8x1024x768.Idx) :
    ∃ t : Fin cfg0.N, (cfg0.win 5).flush t = true ∧ i ∈ ((cfg0.win 5).blk t).view.set := by
  have h0 : (i 0).val < 8 := (i 0).isLt
  have h1 : (i 1).val < 1024 := (i 1).isLt
  have h2 : (i 2).val < 768 := (i 2).isLt
  refine ⟨⟨(i 0).val, by rw [show cfg0.N = grid0.N from rfl, N_0]; exact h0⟩, flush0_5 _, ?_⟩
  rw [mem_blk5]
  obtain ⟨-, -, -, -, -, -, -, -, -, -, e0, e1, e2⟩ := idx_facts ⟨(i 0).val, by rw [show cfg0.N = grid0.N from rfl, N_0]; exact h0⟩
  intro a
  match a with
  | ⟨0, _⟩ => show win0_5.index _ (0 : Fin 3) * 1 ≤ (i 0).val ∧ (i 0).val < win0_5.index _ (0 : Fin 3) * 1 + 1; rw [e0]; show (i 0).val * 1 ≤ (i 0).val ∧ (i 0).val < (i 0).val * 1 + 1; omega
  | ⟨1, _⟩ => show win0_5.index _ (1 : Fin 3) * 1024 ≤ (i 1).val ∧ (i 1).val < win0_5.index _ (1 : Fin 3) * 1024 + 1024; rw [e1]; omega
  | ⟨2, _⟩ => show win0_5.index _ (2 : Fin 3) * 768 ≤ (i 2).val ∧ (i 2).val < win0_5.index _ (2 : Fin 3) * 768 + 768; rw [e2]; omega

/-- The result array after the run is the layer. -/
theorem final : (dats (F := Ideal) m 0 c).arrAt 5 cfg0.N = G m c :=
  (dats (F := Ideal) m 0 c).arrAt_eq_of_cover 5 (G m c) (fun t _ => flushed_eq m c t) (blocks_cover)

/-- Every weakly fair execution of the kernel's program ends with the result at the layer of the arguments,
    and the arguments unchanged. -/
theorem kernel_run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v18) = G m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨((h c).1 5).trans (final m c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).1 4).trans (((dats (F := Ideal) m 0 c).arrAt_in 4 rfl _).trans ((A_eq m c 4).trans (V_main_arg8 m c)))⟩) (run_main (F := Ideal) m ρ)

end Cert.KernelIdeal.Region

end
-- ==== Proof.ValueRef.lean ====
/-
  The reference program's result, read at an index: it is the attention layer of Proof/Spec.lean applied to
  the nine argument arrays.
-/
import proofs.«139552_j89163521065781_2_alg».proof.Proof.Gen.ReferenceIdeal.Read
import proofs.«139552_j89163521065781_2_alg».proof.Proof.Spec
import Idealize.ShloMosaic.Lib.ValueIdx
import Idealize.ShloMosaic.Lib.Pipeline.Value
import Idealize.ShloMosaic.PureOps.Ideal.Laws

set_option maxRecDepth 16384

noncomputable section

namespace Cert.ReferenceIdeal.RefValue

open Cert.ReferenceIdeal Cert.ReferenceIdeal.Gen Cert.ReferenceIdeal.Read
open Idealize.ShloMosaic Idealize.ShloMosaic.TcCoe Idealize.ShloMosaic.ValueIdx

/-! ## The three projections -/

/-- The query projection: the weights contracted with the batch row, plus the bias of the head and lane. -/
theorem v4_eq (x0 : (⟨S8x1024x768, .f32⟩ : BufTy).Contents (Elt Ideal)) (x1 : (⟨S12x64x768, .f32⟩ : BufTy).Contents (Elt Ideal)) (x2 : (⟨S12x64, .f32⟩ : BufTy).Contents (Elt Ideal))
    (b : Fin 8) (h : Fin 12) (s : Fin 1024) (d : Fin 64) :
    val_main_v4 (F := Ideal) x0 x1 x2 (ix4 b h s d)
      = Cert.Attention.proj (fun h d e => x1 (ix3 h d e)) (fun h d => x2 (ix2 h d)) (fun s e => x0 (ix3 b s e)) h s d := by
  rw [val_main_v4_apply, val_main_v1_apply, val_main_v0_apply, val_main_v3_apply, val_main_v2_apply]
  unfold Cert.Attention.proj
  rw [Ideal.addf_def]
  have e2 : idx_main_v2 (idx_main_v3 (ix4 b h s d)) = ix2 h d :=
    funext fun a => Fin.ext (by match a with | ⟨0, _⟩ => rfl | ⟨1, _⟩ => rfl)
  have el : ∀ k : Fin 768, lidx_main_v0 (idx_main_v1 (ix4 b h s d)) k = ix3 h d k := fun k =>
    funext fun a => Fin.ext (by match a with | ⟨0, _⟩ => rfl | ⟨1, _⟩ => rfl | ⟨2, _⟩ => rfl)
  have er : ∀ k : Fin 768, ridx_main_v0 (idx_main_v1 (ix4 b h s d)) k = ix3 b s k := fun k =>
    funext fun a => Fin.ext (by match a with | ⟨0, _⟩ => rfl | ⟨1, _⟩ => rfl | ⟨2, _⟩ => rfl)
  rw [e2]
  exact congrArg (· + x2 (ix2 h d)) (Finset.sum_congr rfl fun k _ => by rw [el, er])

/-- The key projection is the same program text at the key's weights and bias. -/
theorem v9_eq (x0 : (⟨S8x1024x768, .f32⟩ : BufTy).Contents (Elt Ideal)) (x3 : (⟨S12x64x768, .f32⟩ : BufTy).Contents (Elt Ideal)) (x4 : (⟨S12x64, .f32⟩ : BufTy).Contents (Elt Ideal))
    (b : Fin 8) (h : Fin 12) (s : Fin 1024) (d : Fin 64) :
    val_main_v9 (F := Ideal) x0 x3 x4 (ix4 b h s d)
      = Cert.Attention.proj (fun h d e => x3 (ix3 h d e)) (fun h d => x4 (ix2 h d)) (fun s e => x0 (ix3 b s e)) h s d :=
  v4_eq x0 x3 x4 b h s d

/-- The value projection likewise. -/
theorem v14_eq (x0 : (⟨S8x1024x768, .f32⟩ : BufTy).Contents (Elt Ideal)) (x5 : (⟨S12x64x768, .f32⟩ : BufTy).Contents (Elt Ideal)) (x6 : (⟨S12x64, .f32⟩ : BufTy).Contents (Elt Ideal))
    (b : Fin 8) (h : Fin 12) (s : Fin 1024) (d : Fin 64) :
    val_main_v14 (F := Ideal) x0 x5 x6 (ix4 b h s d)
      = Cert.Attention.proj (fun h d e => x5 (ix3 h d e)) (fun h d => x6 (ix2 h d)) (fun s e => x0 (ix3 b s e)) h s d :=
  v4_eq x0 x5 x6 b h s d

/-! ## The constants -/

/-- The word 0x42800000 is sixty-four. -/
theorem ofBits_sixtyfour : Ideal.ofBits .f32 0x42800000#32 = ((64 : ℝ) : EReal) := by
  simp [Ideal.ofBits, Ideal.ieee, -EReal.coe_mul]; norm_num

/-- The word 0x3E000000 is one eighth. -/
theorem ofBits_eighth : Ideal.ofBits .f32 0x3E000000#32 = (((1 : ℝ) / 8 : ℝ) : EReal) := by
  simp [Ideal.ofBits, Ideal.ieee, -EReal.coe_mul]; norm_num

/-- The word 0xFF800000 is minus infinity. -/
theorem ofBits_neg_inf : Ideal.ofBits .f32 0xFF800000#32 = (⊥ : EReal) := by
  simp [Ideal.ofBits, Ideal.ieee]

/-- The square root of sixty-four is eight. -/
theorem sqrt_sixtyfour : Ideal.sqrt ((64 : ℝ) : EReal) = ((8 : ℝ) : EReal) := by
  rw [Ideal.sqrt_coe, if_neg (by norm_num)]
  have h8 : Real.sqrt 64 = 8 := by
    rw [show (64 : ℝ) = 8 ^ 2 by norm_num]; exact Real.sqrt_sq (by norm_num)
  rw [h8]

/-- Dividing by the square root of sixty-four is multiplying by one eighth. -/
theorem div_sqrt_sixtyfour (a : EReal) :
    Ideal.div a (Ideal.sqrt (Ideal.ofBits .f32 0x42800000#32)) = a * Ideal.ofBits .f32 0x3E000000#32 := by
  rw [ofBits_sixtyfour, sqrt_sixtyfour, ofBits_eighth, Ideal.div_coe (by norm_num)]

/-! ## The rows of one batch row and head -/

/-- A projection of batch row b at head h, as the specification states it of the argument arrays. -/
def prj (x0 : (⟨S8x1024x768, .f32⟩ : BufTy).Contents (Elt Ideal)) (w : (⟨S12x64x768, .f32⟩ : BufTy).Contents (Elt Ideal)) (c : (⟨S12x64, .f32⟩ : BufTy).Contents (Elt Ideal))
    (b : Fin 8) (h : Fin 12) : Fin 1024 → Fin 64 → EReal :=
  Cert.Attention.proj (fun h d e => w (ix3 h d e)) (fun h d => c (ix2 h d)) (fun s e => x0 (ix3 b s e)) h

/-- The scores of batch row b at head h. -/
def scr (x0 : (⟨S8x1024x768, .f32⟩ : BufTy).Contents (Elt Ideal)) (x1 : (⟨S12x64x768, .f32⟩ : BufTy).Contents (Elt Ideal)) (x2 : (⟨S12x64, .f32⟩ : BufTy).Contents (Elt Ideal)) (x3 : (⟨S12x64x768, .f32⟩ : BufTy).Contents (Elt Ideal)) (x4 : (⟨S12x64, .f32⟩ : BufTy).Contents (Elt Ideal))
    (b : Fin 8) (h : Fin 12) : Fin 1024 → Fin 1024 → EReal :=
  Cert.Attention.scores (prj x0 x1 x2 b h) (prj x0 x3 x4 b h)

/-! ## The scores -/

theorem v18_eq (x0 : (⟨S8x1024x768, .f32⟩ : BufTy).Contents (Elt Ideal)) (x1 : (⟨S12x64x768, .f32⟩ : BufTy).Contents (Elt Ideal)) (x2 : (⟨S12x64, .f32⟩ : BufTy).Contents (Elt Ideal)) (x3 : (⟨S12x64x768, .f32⟩ : BufTy).Contents (Elt Ideal)) (x4 : (⟨S12x64, .f32⟩ : BufTy).Contents (Elt Ideal))
    (b : Fin 8) (h : Fin 12) (s t : Fin 1024) :
    val_main_v18 (F := Ideal) x0 x1 x2 x3 x4 (ix4 b h s t) = scr x0 x1 x2 x3 x4 b h s t := by
  rw [val_main_v18_apply, val_main_v15_apply, val_main_v17_apply, val_main_v16_apply, val_main_cst_apply,
    Ideal.hostDivf_def, Ideal.hostUnary_sqrt_def, Ideal.ofBits_def, div_sqrt_sixtyfour]
  unfold scr Cert.Attention.scores
  have el : ∀ k : Fin 64, lidx_main_v15 (ix4 b h s t) k = ix4 b h s k := fun k =>
    funext fun a => Fin.ext (by match a with | ⟨0, _⟩ => rfl | ⟨1, _⟩ => rfl | ⟨2, _⟩ => rfl | ⟨3, _⟩ => rfl)
  have er : ∀ k : Fin 64, ridx_main_v15 (ix4 b h s t) k = ix4 b h t k := fun k =>
    funext fun a => Fin.ext (by match a with | ⟨0, _⟩ => rfl | ⟨1, _⟩ => rfl | ⟨2, _⟩ => rfl | ⟨3, _⟩ => rfl)
  exact congrArg (· * Ideal.ofBits .f32 0x3E000000#32) (Finset.sum_congr rfl fun k _ => by
    rw [el, er, v4_eq, v9_eq]; rfl)

/-! ## The row maximum -/

/-- The reduced index (b, h, s) with the coordinate t put back on the last axis is (b, h, s, t). -/
theorem lift_ix4 (hr : S8x12x1024x1024.Reduces [3] S8x12x1024) (b : Fin 8) (h : Fin 12) (s : Fin 1024)
    (k : Fin (S8x12x1024x1024.size 3)) : hr.lift (ix3 b h s) k = ix4 b h s (⟨k.val, k.isLt⟩ : Fin 1024) := by
  funext c; apply Fin.ext
  match c with
  | ⟨0, _⟩ => rfl
  | ⟨1, _⟩ => rfl
  | ⟨2, _⟩ => rfl
  | ⟨3, _⟩ => rfl

/-- The reduce with a maximum body, from the word of minus infinity, is the fold the specification's row maximum is. -/
theorem v19_eq (x0 : (⟨S8x1024x768, .f32⟩ : BufTy).Contents (Elt Ideal)) (x1 : (⟨S12x64x768, .f32⟩ : BufTy).Contents (Elt Ideal)) (x2 : (⟨S12x64, .f32⟩ : BufTy).Contents (Elt Ideal)) (x3 : (⟨S12x64x768, .f32⟩ : BufTy).Contents (Elt Ideal)) (x4 : (⟨S12x64, .f32⟩ : BufTy).Contents (Elt Ideal))
    (b : Fin 8) (h : Fin 12) (s : Fin 1024) :
    val_main_v19 (F := Ideal) x0 x1 x2 x3 x4 (ix3 b h s) = Cert.Attention.rowMax (scr x0 x1 x2 x3 x4 b h s) := by
  have hr : S8x12x1024x1024.Reduces [3] S8x12x1024 := by decide
  unfold val_main_v19
  rw [Host.reduce_eq_fold_single FloatOps.maximumf _ _ reducesTo_S8x12x1024x1024_S8x12x1024_d3 hr h_S_]
  unfold Cert.Attention.rowMax
  have hf : (val_main_v18 (F := Ideal) x0 x1 x2 x3 x4 ∘ hr.lift (ix3 b h s)) = fun t : Fin 1024 => scr x0 x1 x2 x3 x4 b h s t :=
    funext fun k => by
      show val_main_v18 (F := Ideal) x0 x1 x2 x3 x4 (hr.lift (ix3 b h s) k) = _
      rw [lift_ix4 hr b h s k, v18_eq]; rfl
  exact congrArg (fun f => Finset.fold max (Ideal.ofBits .f32 0xFF800000#32) f (Finset.univ : Finset (Fin 1024))) hf

/-- The maximum with the broadcast minus infinity changes nothing. -/
theorem v21_eq (x0 : (⟨S8x1024x768, .f32⟩ : BufTy).Contents (Elt Ideal)) (x1 : (⟨S12x64x768, .f32⟩ : BufTy).Contents (Elt Ideal)) (x2 : (⟨S12x64, .f32⟩ : BufTy).Contents (Elt Ideal)) (x3 : (⟨S12x64x768, .f32⟩ : BufTy).Contents (Elt Ideal)) (x4 : (⟨S12x64, .f32⟩ : BufTy).Contents (Elt Ideal))
    (b : Fin 8) (h : Fin 12) (s : Fin 1024) :
    val_main_v21 (F := Ideal) x0 x1 x2 x3 x4 (ix3 b h s) = Cert.Attention.rowMax (scr x0 x1 x2 x3 x4 b h s) := by
  rw [val_main_v21_apply, val_main_v20_apply, val_main_cst_1_apply, v19_eq, Ideal.maximumf_def, Ideal.ofBits_def,
    ofBits_neg_inf]
  exact max_eq_right bot_le

/-! ## The softmax -/

/-- The exponential of a score less its row's maximum. -/
theorem v25_eq (x0 : (⟨S8x1024x768, .f32⟩ : BufTy).Contents (Elt Ideal)) (x1 : (⟨S12x64x768, .f32⟩ : BufTy).Contents (Elt Ideal)) (x2 : (⟨S12x64, .f32⟩ : BufTy).Contents (Elt Ideal)) (x3 : (⟨S12x64x768, .f32⟩ : BufTy).Contents (Elt Ideal)) (x4 : (⟨S12x64, .f32⟩ : BufTy).Contents (Elt Ideal))
    (b : Fin 8) (h : Fin 12) (s t : Fin 1024) :
    val_main_v25 (F := Ideal) x0 x1 x2 x3 x4 (ix4 b h s t)
      = Ideal.exp (scr x0 x1 x2 x3 x4 b h s t - Cert.Attention.rowMax (scr x0 x1 x2 x3 x4 b h s)) := by
  have e : idx_main_v22 (idx_main_v23 (ix4 b h s t)) = ix3 b h s :=
    funext fun a => Fin.ext (by match a with | ⟨0, _⟩ => rfl | ⟨1, _⟩ => rfl | ⟨2, _⟩ => rfl)
  rw [val_main_v25_apply, val_main_v24_apply, val_main_v23_apply, val_main_v22_apply, Ideal.hostUnary_exp_def,
    Ideal.subf_def, v18_eq, e, v21_eq]

/-- The row's sum of exponentials: the initial value is the zero word. -/
theorem v26_eq (x0 : (⟨S8x1024x768, .f32⟩ : BufTy).Contents (Elt Ideal)) (x1 : (⟨S12x64x768, .f32⟩ : BufTy).Contents (Elt Ideal)) (x2 : (⟨S12x64, .f32⟩ : BufTy).Contents (Elt Ideal)) (x3 : (⟨S12x64x768, .f32⟩ : BufTy).Contents (Elt Ideal)) (x4 : (⟨S12x64, .f32⟩ : BufTy).Contents (Elt Ideal))
    (b : Fin 8) (h : Fin 12) (s : Fin 1024) :
    val_main_v26 (F := Ideal) x0 x1 x2 x3 x4 (ix3 b h s)
      = ∑ t' : Fin 1024, Ideal.exp (scr x0 x1 x2 x3 x4 b h s t' - Cert.Attention.rowMax (scr x0 x1 x2 x3 x4 b h s)) := by
  rw [val_main_v26_apply, val_main_cst_2_apply, Ideal.ofBits_def, Ideal.ofBits_zero_f32, zero_add]
  refine Finset.sum_congr rfl fun k _ => ?_
  have e : idx_main_v26 (ix3 b h s) k = ix4 b h s k :=
    funext fun a => Fin.ext (by match a with | ⟨0, _⟩ => rfl | ⟨1, _⟩ => rfl | ⟨2, _⟩ => rfl | ⟨3, _⟩ => rfl)
  rw [e, v25_eq]

/-- The weights are the specification's softmax of the scores. -/
theorem v29_eq (x0 : (⟨S8x1024x768, .f32⟩ : BufTy).Contents (Elt Ideal)) (x1 : (⟨S12x64x768, .f32⟩ : BufTy).Contents (Elt Ideal)) (x2 : (⟨S12x64, .f32⟩ : BufTy).Contents (Elt Ideal)) (x3 : (⟨S12x64x768, .f32⟩ : BufTy).Contents (Elt Ideal)) (x4 : (⟨S12x64, .f32⟩ : BufTy).Contents (Elt Ideal))
    (b : Fin 8) (h : Fin 12) (s t : Fin 1024) :
    val_main_v29 (F := Ideal) x0 x1 x2 x3 x4 (ix4 b h s t) = Cert.Attention.softmax (scr x0 x1 x2 x3 x4 b h) s t := by
  have e : idx_main_v27 (idx_main_v28 (ix4 b h s t)) = ix3 b h s :=
    funext fun a => Fin.ext (by match a with | ⟨0, _⟩ => rfl | ⟨1, _⟩ => rfl | ⟨2, _⟩ => rfl)
  rw [val_main_v29_apply, val_main_v28_apply, val_main_v27_apply, Ideal.hostDivf_def, v25_eq, e, v26_eq]
  rfl

/-! ## One head's output -/

theorem v30_eq (x0 : (⟨S8x1024x768, .f32⟩ : BufTy).Contents (Elt Ideal)) (x1 : (⟨S12x64x768, .f32⟩ : BufTy).Contents (Elt Ideal)) (x2 : (⟨S12x64, .f32⟩ : BufTy).Contents (Elt Ideal)) (x3 : (⟨S12x64x768, .f32⟩ : BufTy).Contents (Elt Ideal)) (x4 : (⟨S12x64, .f32⟩ : BufTy).Contents (Elt Ideal)) (x5 : (⟨S12x64x768, .f32⟩ : BufTy).Contents (Elt Ideal)) (x6 : (⟨S12x64, .f32⟩ : BufTy).Contents (Elt Ideal))
    (b : Fin 8) (h : Fin 12) (s : Fin 1024) (d : Fin 64) :
    val_main_v30 (F := Ideal) x0 x1 x2 x3 x4 x5 x6 (ix4 b h s d)
      = Cert.Attention.attend (prj x0 x1 x2 b h) (prj x0 x3 x4 b h) (prj x0 x5 x6 b h) s d := by
  rw [val_main_v30_apply]
  unfold Cert.Attention.attend
  refine Finset.sum_congr rfl fun k _ => ?_
  have el : lidx_main_v30 (ix4 b h s d) k = ix4 b h s k :=
    funext fun a => Fin.ext (by match a with | ⟨0, _⟩ => rfl | ⟨1, _⟩ => rfl | ⟨2, _⟩ => rfl | ⟨3, _⟩ => rfl)
  have er : ridx_main_v30 (ix4 b h s d) k = ix4 b h k d :=
    funext fun a => Fin.ext (by match a with | ⟨0, _⟩ => rfl | ⟨1, _⟩ => rfl | ⟨2, _⟩ => rfl | ⟨3, _⟩ => rfl)
  rw [el, er, v29_eq, v14_eq]
  rfl

/-! ## The heads side by side -/

/-- Column e of the concatenated heads is lane (e mod 64) of head (e / 64): the transpose and the reshape of
    [8, 1024, 12, 64] to [8, 1024, 768] read through. -/
theorem v32_eq (x0 : (⟨S8x1024x768, .f32⟩ : BufTy).Contents (Elt Ideal)) (x1 : (⟨S12x64x768, .f32⟩ : BufTy).Contents (Elt Ideal)) (x2 : (⟨S12x64, .f32⟩ : BufTy).Contents (Elt Ideal)) (x3 : (⟨S12x64x768, .f32⟩ : BufTy).Contents (Elt Ideal)) (x4 : (⟨S12x64, .f32⟩ : BufTy).Contents (Elt Ideal)) (x5 : (⟨S12x64x768, .f32⟩ : BufTy).Contents (Elt Ideal)) (x6 : (⟨S12x64, .f32⟩ : BufTy).Contents (Elt Ideal))
    (b : Fin 8) (s : Fin 1024) (e : Fin 768) :
    val_main_v32 (F := Ideal) x0 x1 x2 x3 x4 x5 x6 (ix3 b s e)
      = Cert.Attention.attend (prj x0 x1 x2 b (Cert.Attention.headOf e)) (prj x0 x3 x4 b (Cert.Attention.headOf e))
          (prj x0 x5 x6 b (Cert.Attention.headOf e)) s (Cert.Attention.laneOf e) := by
  have hb : b.val < 8 := b.isLt
  have hs : s.val < 1024 := s.isLt
  have he : e.val < 768 := e.isLt
  have ei : idx_main_v31 (idx_main_v32 (ix3 b s e)) = ix4 b (Cert.Attention.headOf e) s (Cert.Attention.laneOf e) :=
    funext fun a => Fin.ext (by
      match a with
      | ⟨0, _⟩ => show ((b.val * 1024 + s.val) * 768 + e.val) / 786432 = b.val; omega
      | ⟨1, _⟩ => show ((b.val * 1024 + s.val) * 768 + e.val) / 64 % 12 = e.val / 64; omega
      | ⟨2, _⟩ => show ((b.val * 1024 + s.val) * 768 + e.val) / 768 % 1024 = s.val; omega
      | ⟨3, _⟩ => show ((b.val * 1024 + s.val) * 768 + e.val) % 64 = e.val % 64; omega)
  rw [val_main_v32_apply, val_main_v31_apply, ei, v30_eq]

/-! ## The output projection -/

theorem ref_eq (x0 : (⟨S8x1024x768, .f32⟩ : BufTy).Contents (Elt Ideal)) (x1 : (⟨S12x64x768, .f32⟩ : BufTy).Contents (Elt Ideal)) (x2 : (⟨S12x64, .f32⟩ : BufTy).Contents (Elt Ideal)) (x3 : (⟨S12x64x768, .f32⟩ : BufTy).Contents (Elt Ideal)) (x4 : (⟨S12x64, .f32⟩ : BufTy).Contents (Elt Ideal)) (x5 : (⟨S12x64x768, .f32⟩ : BufTy).Contents (Elt Ideal)) (x6 : (⟨S12x64, .f32⟩ : BufTy).Contents (Elt Ideal)) (x7 : (⟨S768x768, .f32⟩ : BufTy).Contents (Elt Ideal)) (x8 : (⟨S768, .f32⟩ : BufTy).Contents (Elt Ideal))
    (b : Fin 8) (s : Fin 1024) (f : Fin 768) :
    val_main_v36 (F := Ideal) x0 x1 x2 x3 x4 x5 x6 x7 x8 (ix3 b s f)
      = Cert.Attention.out (fun b s e => x0 (ix3 b s e)) (fun h d e => x1 (ix3 h d e)) (fun h d => x2 (ix2 h d))
          (fun h d e => x3 (ix3 h d e)) (fun h d => x4 (ix2 h d)) (fun h d e => x5 (ix3 h d e)) (fun h d => x6 (ix2 h d))
          (fun f e => x7 (ix2 f e)) (fun f => x8 (ix1 f)) b s f := by
  have e8 : idx_main_v34 (idx_main_v35 (ix3 b s f)) = ix1 f :=
    funext fun a => Fin.ext (by match a with | ⟨0, _⟩ => rfl)
  rw [val_main_v36_apply, val_main_v33_apply, val_main_v35_apply, val_main_v34_apply, Ideal.addf_def, e8]
  unfold Cert.Attention.out
  refine congrArg (· + x8 (ix1 f)) (Finset.sum_congr rfl fun k _ => ?_)
  have el : lidx_main_v33 (ix3 b s f) k = ix3 b s k :=
    funext fun a => Fin.ext (by match a with | ⟨0, _⟩ => rfl | ⟨1, _⟩ => rfl | ⟨2, _⟩ => rfl)
  have er : ridx_main_v33 (ix3 b s f) k = ix2 f k :=
    funext fun a => Fin.ext (by match a with | ⟨0, _⟩ => rfl | ⟨1, _⟩ => rfl)
  rw [el, er, v32_eq]
  rfl

end Cert.ReferenceIdeal.RefValue

end
-- ==== Proof.lean ====
/-
  Multi-head attention over x : [8, 1024, 768] with twelve heads of width 64: the kernel (one grid point
  per batch row; a stacked [768, 2304] query/key/value projection, a loop over six pairs of heads, each
  head's scores scaled by 1/8, a row softmax, the weighted sum of values, then the [768, 768] output
  projection) against the plain reference (per-head projections, scores divided by sqrt 64, softmax,
  weighted values, heads concatenated, output projection).

  The three frames: the kernel's two programs run by the pipeline library's frame theorem over the body's
  one run (Proof/Kernel/Frame.lean, Proof/KernelIdeal/Frame.lean: the same text at the two float
  instances); the reference's by its run with the result dropped. The ideal pass rewrote nothing, so
  the idealization claim is trivial. The value claim: on the extended reals both programs end with the
  result at ONE function of the nine argument arrays, the attention layer of Proof/Spec.lean — the
  kernel by Proof/KernelIdeal/ArrayValue.lean (the output block of grid point t is batch row t of the
  layer; the eight blocks tile the result), the reference by Proof/ValueRef.lean (its operations read
  one at a time; dividing by sqrt 64 is multiplying by 1/8 on every extended real). No finiteness of the
  inputs is used: both sides are the same sums, products and quotients of the same terms.
-/
import proofs.«139552_j89163521065781_2_alg».proof.Defs
import proofs.«139552_j89163521065781_2_alg».proof.Proof.Gen.Kernel
import proofs.«139552_j89163521065781_2_alg».proof.Proof.Gen.KernelIdeal
import proofs.«139552_j89163521065781_2_alg».proof.Proof.Gen.ReferenceIdeal
import proofs.«139552_j89163521065781_2_alg».proof.Proof.Gen.ReferenceIdeal.Run
import proofs.«139552_j89163521065781_2_alg».proof.Proof.Gen.ReferenceIdeal.Read
import proofs.«139552_j89163521065781_2_alg».proof.Proof.Gen.Pre_finite_inputs
import proofs.«139552_j89163521065781_2_alg».proof.Proof.Kernel.Frame
import proofs.«139552_j89163521065781_2_alg».proof.Proof.KernelIdeal.Frame
import proofs.«139552_j89163521065781_2_alg».proof.Proof.KernelIdeal.ArrayValue
import proofs.«139552_j89163521065781_2_alg».proof.Proof.ValueRef
import Idealize.ShloMosaic.Adequacy
import Idealize.ShloMosaic.Init

noncomputable section

namespace Cert.Proof

open Idealize.ShloMosaic Idealize.SL.Sem Idealize.ShloMosaic.ValueIdx

theorem frame_k : @Cert.frame_Kernel Cert.Kernel.Gen.facts Cert.Pre_finite_inputs.Gen.facts :=
  fun m ρ _ => Cert.Kernel.Region.frame (F := Bits) m ρ

theorem frame_ki : @Cert.frame_KernelIdeal Cert.KernelIdeal.Gen.facts Cert.Pre_finite_inputs.Gen.facts :=
  fun m ρ _ => Cert.KernelIdeal.Region.frame (F := Ideal) m ρ

theorem frame_ri : @Cert.frame_ReferenceIdeal Cert.ReferenceIdeal.Gen.facts Cert.Pre_finite_inputs.Gen.facts :=
  fun m ρ _ => (θ_run Cert.ReferenceIdeal.defs _ _).mono (fun _ h c => (h c).2) (Cert.ReferenceIdeal.Value.run (F := Ideal) m ρ)

/-- From memories agreeing on the arguments, both idealized programs end with the result at the attention
    layer of the (kernel's) argument arrays. -/
theorem algebraic : @Cert.algebraic_KernelIdeal_ReferenceIdeal Cert.KernelIdeal.Gen.facts Cert.ReferenceIdeal.Gen.facts Cert.Pre_finite_inputs.Gen.facts := by
  intro m ρ m' ρ' _ hagree
  refine ⟨fun c => Cert.KernelIdeal.Region.G m c, Cert.KernelIdeal.Region.kernel_run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v36_eq]
  funext i
  obtain ⟨b, s, f, rfl⟩ : ∃ (b : Fin 8) (s : Fin 1024) (f : Fin 768), i = ix3 b s f := ⟨i 0, i 1, i 2, eq_ix3 i⟩
  rw [Cert.ReferenceIdeal.RefValue.ref_eq]
  rw [(hagree c).1, (hagree c).2.1, (hagree c).2.2.1, (hagree c).2.2.2.1, (hagree c).2.2.2.2.1, (hagree c).2.2.2.2.2.1,
    (hagree c).2.2.2.2.2.2.1, (hagree c).2.2.2.2.2.2.2.1, (hagree c).2.2.2.2.2.2.2.2]
  rfl

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
